-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v60)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v60) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v59) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x4x1024 : Shape := ⟨3, ![2048, 4, 1024]⟩
abbrev S8192x8 : Shape := ⟨2, ![8192, 8]⟩
abbrev S8192x2 : Shape := ⟨2, ![8192, 2]⟩
abbrev S8x1024x8192 : Shape := ⟨3, ![8, 1024, 8192]⟩
abbrev S8x4096x1024 : Shape := ⟨3, ![8, 4096, 1024]⟩
abbrev S_ : Shape := ⟨0, ![]⟩

class Facts : Prop where
  bcast_S_S2048x4x1024 : S_.BroadcastsInDim S2048x4x1024 (![] : Fin 0 → Fin S2048x4x1024.rank)
  reducesTo_S2048x4x1024_S_d0_1_2 : S2048x4x1024.ReducesTo [0, 1, 2] S_
  h_S_ : 0 < S_.numel
  bcast_S_S8192x8 : S_.BroadcastsInDim S8192x8 (![] : Fin 0 → Fin S8192x8.rank)
  reducesTo_S8192x8_S_d0_1 : S8192x8.ReducesTo [0, 1] S_
  bcast_S_S8x1024x8192 : S_.BroadcastsInDim S8x1024x8192 (![] : Fin 0 → Fin S8x1024x8192.rank)
  reducesTo_S8x1024x8192_S_d0_1_2 : S8x1024x8192.ReducesTo [0, 1, 2] S_
  bcast_S_S8x4096x1024 : S_.BroadcastsInDim S8x4096x1024 (![] : Fin 0 → Fin S8x4096x1024.rank)
  reducesTo_S8x4096x1024_S_d0_1_2 : S8x4096x1024.ReducesTo [0, 1, 2] S_

variable [Facts]

def fn_part1 {F : FTy → Type} [FloatOps F] (main_v13 : IVec S_ 1) (main_v16 : IVec S8x4096x1024 1) : IVec S_ 1 :=
  let main_c_5 : IVec S_ 1 := constantI S_ 1 1#1
  let main_v17 : IVec S_ 1 := (fun x v => Host.reduce IntOp.andi x v reducesTo_S8x4096x1024_S_d0_1_2 h_S_) main_v16 main_c_5
  let main_v18 : IVec S_ 1 := andi main_v13 main_v17
  main_v18

def fn {F : FTy → Type} [FloatOps F] (main_arg0 : FVec F S2048x4x1024 .f32) (main_arg1 : FVec F S8192x8 .f32) (main_arg2 : IVec S8192x2 32) (main_arg3 : FVec F S8x1024x8192 .f32) (main_arg4 : FVec F S8x4096x1024 .f32) : IVec S_ 1 :=
  let main_v0 : FVec F S2048x4x1024 .f32 := Host.absf main_arg0
  let main_cst : FVec F S_ .f32 := constant S_ .f32 0x7F800000#32
  let main_v1 : FVec F S2048x4x1024 .f32 := broadcastInDim S2048x4x1024 ![] bcast_S_S2048x4x1024 main_cst
  let main_v2 : IVec S2048x4x1024 1 := cmpf .olt main_v0 main_v1
  let main_c : IVec S_ 1 := constantI S_ 1 1#1
  let main_v3 : IVec S_ 1 := (fun x v => Host.reduce IntOp.andi x v reducesTo_S2048x4x1024_S_d0_1_2 h_S_) main_v2 main_c
  let main_v4 : FVec F S8192x8 .f32 := Host.absf main_arg1
  let main_cst_0 : FVec F S_ .f32 := constant S_ .f32 0x7F800000#32
  let main_v5 : FVec F S8192x8 .f32 := broadcastInDim S8192x8 ![] bcast_S_S8192x8 main_cst_0
  let main_v6 : IVec S8192x8 1 := cmpf .olt main_v4 main_v5
  let main_c_1 : IVec S_ 1 := constantI S_ 1 1#1
  let main_v7 : IVec S_ 1 := (fun x v => Host.reduce IntOp.andi x v reducesTo_S8192x8_S_d0_1 h_S_) main_v6 main_c_1
  let main_v8 : IVec S_ 1 := andi main_v3 main_v7
  let main_v9 : FVec F S8x1024x8192 .f32 := Host.absf main_arg3
  let main_cst_2 : FVec F S_ .f32 := constant S_ .f32 0x7F800000#32
  let main_v10 : FVec F S8x1024x8192 .f32 := broadcastInDim S8x1024x8192 ![] bcast_S_S8x1024x8192 main_cst_2
  let main_v11 : IVec S8x1024x8192 1 := cmpf .olt main_v9 main_v10
  let main_c_3 : IVec S_ 1 := constantI S_ 1 1#1
  let main_v12 : IVec S_ 1 := (fun x v => Host.reduce IntOp.andi x v reducesTo_S8x1024x8192_S_d0_1_2 h_S_) main_v11 main_c_3
  let main_v13 : IVec S_ 1 := andi main_v8 main_v12
  let main_v14 : FVec F S8x4096x1024 .f32 := Host.absf main_arg4
  let main_cst_4 : FVec F S_ .f32 := constant S_ .f32 0x7F800000#32
  let main_v15 : FVec F S8x4096x1024 .f32 := broadcastInDim S8x4096x1024 ![] bcast_S_S8x4096x1024 main_cst_4
  let main_v16 : IVec S8x4096x1024 1 := cmpf .olt main_v14 main_v15
  fn_part1 (F := F) main_v13 main_v16
-- ==== Kernel.lean ====
abbrev S2048x4x1024 : Shape := ⟨3, ![2048, 4, 1024]⟩
abbrev S8192x8 : Shape := ⟨2, ![8192, 8]⟩
abbrev S8192x2 : Shape := ⟨2, ![8192, 2]⟩
abbrev S8x1024x8192 : Shape := ⟨3, ![8, 1024, 8192]⟩
abbrev S8x4096x1024 : Shape := ⟨3, ![8, 4096, 1024]⟩
abbrev S8192x1024 : Shape := ⟨2, ![8192, 1024]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S1 : Shape := ⟨1, ![1]⟩
abbrev S1x1x1 : Shape := ⟨3, ![1, 1, 1]⟩
abbrev S8192x1x1024 : Shape := ⟨3, ![8192, 1, 1024]⟩
abbrev S8192x2x1024 : Shape := ⟨3, ![8192, 2, 1024]⟩
abbrev S16384x1024 : Shape := ⟨2, ![16384, 1024]⟩
abbrev S20481x1024 : Shape := ⟨2, ![20481, 1024]⟩
abbrev S16384 : Shape := ⟨1, ![16384]⟩
abbrev S16384x1 : Shape := ⟨2, ![16384, 1]⟩
abbrev S20480x1024 : Shape := ⟨2, ![20480, 1024]⟩
abbrev S8x2560x1024 : Shape := ⟨3, ![8, 2560, 1024]⟩
abbrev S8x1024x4096 : Shape := ⟨3, ![8, 1024, 4096]⟩
abbrev S1x1280x1024 : Shape := ⟨3, ![1, 1280, 1024]⟩
abbrev S1x1024x512 : Shape := ⟨3, ![1, 1024, 512]⟩
abbrev S1x512x1024 : Shape := ⟨3, ![1, 512, 1024]⟩
abbrev S1280x1024 : Shape := ⟨2, ![1280, 1024]⟩
abbrev S1024x512 : Shape := ⟨2, ![1024, 512]⟩
abbrev S1280x512 : Shape := ⟨2, ![1280, 512]⟩
abbrev S512x1024 : Shape := ⟨2, ![512, 1024]⟩
abbrev S1x1024 : Shape := ⟨2, ![1, 1024]⟩
abbrev S8192 : Shape := ⟨1, ![8192]⟩
abbrev S8192x1 : Shape := ⟨2, ![8192, 1]⟩

abbrev nBuf : Space → Nat
  | .hbm => 152
  | .vmem => 11
  | .smem => 0
  | _ => 0

abbrev hbmTy0_0 (i : Nat) : BufTy := match i % 128 with
  | 0 => ⟨S2048x4x1024, .f32⟩
  | 1 => ⟨S8192x8, .f32⟩
  | 2 => ⟨S8192x2, .i32⟩
  | 3 => ⟨S8x1024x8192, .f32⟩
  | 4 => ⟨S8x4096x1024, .f32⟩
  | 5 => ⟨S8192x1024, .f32⟩
  | 6 => ⟨S8192x2x1, .i32⟩
  | 7 => ⟨S1x1x8, .i32⟩
  | 8 => ⟨S8192x2x8, .i32⟩
  | 9 => ⟨S8192x2x8, .i32⟩
  | 10 => ⟨S8192x2x8, .i1⟩
  | 11 => ⟨S8192x2x8, .i32⟩
  | 12 => ⟨S_, .i32⟩
  | 13 => ⟨S8192x8, .i32⟩
  | 14 => ⟨S_, .i32⟩
  | 15 => ⟨S_, .i32⟩
  | 16 => ⟨S8192x8, .i32⟩
  | 17 => ⟨S8192x8, .i32⟩
  | 18 => ⟨S_, .i32⟩
  | 19 => ⟨S8192x8, .i32⟩
  | 20 => ⟨S8192x8, .i1⟩
  | 21 => ⟨S_, .i32⟩
  | 22 => ⟨S8192x8, .i32⟩
  | 23 => ⟨S8192x8, .i1⟩
  | 24 => ⟨S8192x8, .i1⟩
  | 25 => ⟨S_, .i32⟩
  | 26 => ⟨S8192x8, .i32⟩
  | 27 => ⟨S8192x8, .i32⟩
  | 28 => ⟨S_, .i32⟩
  | 29 => ⟨S8192x2, .i32⟩
  | 30 => ⟨S8192x2, .i1⟩
  | 31 => ⟨S_, .i32⟩
  | 32 => ⟨S8192x2, .i32⟩
  | 33 => ⟨S8192x2, .i32⟩
  | 34 => ⟨S8192x2, .i32⟩
  | 35 => ⟨S8192x2x1, .i32⟩
  | 36 => ⟨S1, .i32⟩
  | 37 => ⟨S_, .i32⟩
  | 38 => ⟨S8192x2x1, .i32⟩
  | 39 => ⟨S8192x2x1, .i1⟩
  | 40 => ⟨S1x1x1, .i32⟩
  | 41 => ⟨S8192x2x1, .i32⟩
  | 42 => ⟨S8192x2x1, .i1⟩
  | 43 => ⟨S8192x2x1, .i1⟩
  | 44 => ⟨S_, .i1⟩
  | 45 => ⟨S8192x2, .i1⟩
  | 46 => ⟨S8192x2, .i32⟩
  | 47 => ⟨S_, .i32⟩
  | 48 => ⟨S8192x2, .i32⟩
  | 49 => ⟨S8192x2, .i32⟩
  | 50 => ⟨S_, .i32⟩
  | 51 => ⟨S8192x2, .i32⟩
  | 52 => ⟨S8192x2, .i1⟩
  | 53 => ⟨S_, .i32⟩
  | 54 => ⟨S8192x2, .i32⟩
  | 55 => ⟨S8192x2, .i32⟩
  | 56 => ⟨S8192x2, .i32⟩
  | 57 => ⟨S8192x2x1, .i32⟩
  | 58 => ⟨S1, .i32⟩
  | 59 => ⟨S_, .i32⟩
  | 60 => ⟨S8192x2x1, .i32⟩
  | 61 => ⟨S8192x2x1, .i1⟩
  | 62 => ⟨S1x1x1, .i32⟩
  | 63 => ⟨S8192x2x1, .i32⟩
  | 64 => ⟨S8192x2x1, .i1⟩
  | 65 => ⟨S8192x2x1, .i1⟩
  | 66 => ⟨S_, .i1⟩
  | 67 => ⟨S8192x2, .i1⟩
  | 68 => ⟨S8192x2, .i1⟩
  | 69 => ⟨S_, .i1⟩
  | 70 => ⟨S8192x2, .i1⟩
  | 71 => ⟨S8192x2, .i1⟩
  | 72 => ⟨S_, .i32⟩
  | 73 => ⟨S8192x2, .i32⟩
  | 74 => ⟨S8192x2, .i32⟩
  | 75 => ⟨S8192x2, .i32⟩
  | 76 => ⟨S_, .i32⟩
  | 77 => ⟨S_, .i32⟩
  | 78 => ⟨S8192x2, .i32⟩
  | 79 => ⟨S8192x2, .i32⟩
  | 80 => ⟨S8192x1x1024, .f32⟩
  | 81 => ⟨S8192x2x1024, .f32⟩
  | 82 => ⟨S16384x1024, .f32⟩
  | 83 => ⟨S_, .f32⟩
  | 84 => ⟨S20481x1024, .f32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S20481x1024, .f32⟩
  | 95 => ⟨S20480x1024, .f32⟩
  | 96 => ⟨S8x2560x1024, .f32⟩
  | 97 => ⟨S8x2560x1024, .bf16⟩
  | 98 => ⟨S8x1024x4096, .f32⟩
  | 99 => ⟨S8x1024x4096, .bf16⟩
  | 100 => ⟨S8x1024x4096, .f32⟩
  | 101 => ⟨S8x1024x4096, .bf16⟩
  | 102 => ⟨S8x4096x1024, .bf16⟩
  | 103 => ⟨S8x2560x1024, .f32⟩
  | 104 => ⟨S20480x1024, .f32⟩
  | 105 => ⟨S_, .f32⟩
  | 106 => ⟨S1x1024, .f32⟩
  | 107 => ⟨S20481x1024, .f32⟩
  | 108 => ⟨S_, .i32⟩
  | 109 => ⟨S8192x2, .i32⟩
  | 110 => ⟨S8192x2, .i1⟩
  | 111 => ⟨S_, .i32⟩
  | 112 => ⟨S8192x2, .i32⟩
  | 113 => ⟨S8192x2, .i32⟩
  | 114 => ⟨S8192x2, .i32⟩
  | 115 => ⟨S8192x2x1, .i32⟩
  | 116 => ⟨S1, .i32⟩
  | 117 => ⟨S_, .i32⟩
  | 118 => ⟨S8192x2x1, .i32⟩
  | 119 => ⟨S8192x2x1, .i1⟩
  | 120 => ⟨S1x1x1, .i32⟩
  | 121 => ⟨S8192x2x1, .i32⟩
  | 122 => ⟨S8192x2x1, .i1⟩
  | 123 => ⟨S8192x2x1, .i1⟩
  | 124 => ⟨S_, .i1⟩
  | 125 => ⟨S8192x2, .i1⟩
  | 126 => ⟨S8192x2, .f32⟩
  | 127 => ⟨S_, .f32⟩
  | _ => ⟨S2048x4x1024, .f32⟩

abbrev hbmTy0_1 (i : Nat) : BufTy := match i % 128 with
  | 0 => ⟨S8192x2, .f32⟩
  | 1 => ⟨S8192x2, .f32⟩
  | 2 => ⟨S_, .f32⟩
  | 3 => ⟨S8192, .f32⟩
  | 4 => ⟨S8192x1, .f32⟩
  | 5 => ⟨S8192x2, .f32⟩
  | 6 => ⟨S8192x2, .f32⟩
  | 7 => ⟨S8192x2, .f32⟩
  | 8 => ⟨S8192x2, .f32⟩
  | 9 => ⟨S_, .i32⟩
  | 10 => ⟨S8192x2, .i32⟩
  | 11 => ⟨S8192x2, .i1⟩
  | 12 => ⟨S_, .i32⟩
  | 13 => ⟨S8192x2, .i32⟩
  | 14 => ⟨S8192x2, .i32⟩
  | 15 => ⟨S8192x2, .i32⟩
  | 16 => ⟨S8192x2x1, .i32⟩
  | 17 => ⟨S8192x2x1024, .f32⟩
  | 18 => ⟨S8192x2x1, .f32⟩
  | 19 => ⟨S8192x2x1024, .f32⟩
  | 20 => ⟨S8192x2x1024, .f32⟩
  | 21 => ⟨S_, .f32⟩
  | 22 => ⟨S8192x1024, .f32⟩
  | 23 => ⟨S2048x4x1024, .f32⟩
  | _ => ⟨S2048x4x1024, .f32⟩

abbrev hbmTy (i : Nat) : BufTy := match i / 128 with
  | 0 => hbmTy0_0 i
  | 1 => hbmTy0_1 i
  | _ => ⟨S2048x4x1024, .f32⟩

abbrev bufTy : (tb : Table) → Fin (tcTables nBuf tb) → BufTy
  | .hbm, ⟨i, _⟩ => hbmTy i
  | .local _ .vmem, ⟨0, _⟩ => ⟨S1x1280x1024, .bf16⟩
  | .local _ .vmem, ⟨1, _⟩ => ⟨S1x1280x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x1024x512, .bf16⟩
  | .local _ .vmem, ⟨5, _⟩ => ⟨S1x1024x512, .bf16⟩
  | .local _ .vmem, ⟨6, _⟩ => ⟨S1x512x1024, .bf16⟩
  | .local _ .vmem, ⟨7, _⟩ => ⟨S1x512x1024, .bf16⟩
  | .local _ .vmem, ⟨8, _⟩ => ⟨S1x1280x1024, .f32⟩
  | .local _ .vmem, ⟨9, _⟩ => ⟨S1x1280x1024, .f32⟩
  | .local _ .vmem, ⟨10, _⟩ => ⟨S1280x1024, .f32⟩
  | _, _ => ⟨S2048x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_call1_call0_c : Ref sig .tc := ⟨.hbm, 14, rfl⟩
abbrev main_call1_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_c_4 : Ref sig .tc := ⟨.hbm, 47, rfl⟩
abbrev main_call2_v14 : Ref sig .tc := ⟨.hbm, 48, rfl⟩
abbrev main_v12 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_c_4 : Ref sig .tc := ⟨.hbm, 69, rfl⟩
abbrev main_call3_v14 : Ref sig .tc := ⟨.hbm, 70, rfl⟩
abbrev main_v13 : Ref sig .tc := ⟨.hbm, 71, rfl⟩
abbrev main_c_3 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_c_4 : Ref sig .tc := ⟨.hbm, 76, rfl⟩
abbrev main_call4_v0 : Ref sig .tc := ⟨.hbm, 77, rfl⟩
abbrev main_call4_v1 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst : Ref sig .tc := ⟨.hbm, 83, rfl⟩
abbrev main_v21 : Ref sig .tc := ⟨.hbm, 84, rfl⟩
abbrev main_v22 : Ref sig .tc := ⟨.hbm, 85, rfl⟩
abbrev main_c_5 : Ref sig .tc := ⟨.hbm, 86, rfl⟩
abbrev main_v23 : Ref sig .tc := ⟨.hbm, 87, rfl⟩
abbrev main_v24 : Ref sig .tc := ⟨.hbm, 88, rfl⟩
abbrev main_c_6 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_v35 : Ref sig .tc := ⟨.hbm, 100, rfl⟩
abbrev main_v36 : Ref sig .tc := ⟨.hbm, 101, rfl⟩
abbrev main_v37 : Ref sig .tc := ⟨.hbm, 102, rfl⟩
abbrev main_v38 : Ref sig .tc := ⟨.hbm, 103, rfl⟩
abbrev main_v39 : Ref sig .tc := ⟨.hbm, 104, rfl⟩
abbrev main_cst_7 : Ref sig .tc := ⟨.hbm, 105, rfl⟩
abbrev main_v40 : Ref sig .tc := ⟨.hbm, 106, rfl⟩
abbrev main_v41 : Ref sig .tc := ⟨.hbm, 107, rfl⟩
abbrev main_call5_c : Ref sig .tc := ⟨.hbm, 108, rfl⟩
abbrev main_call5_v0 : Ref sig .tc := ⟨.hbm, 109, rfl⟩
abbrev main_call5_v1 : Ref sig .tc := ⟨.hbm, 110, rfl⟩
abbrev main_call5_c_0 : Ref sig .tc := ⟨.hbm, 111, rfl⟩
abbrev main_call5_v2 : Ref sig .tc := ⟨.hbm, 112, rfl⟩
abbrev main_call5_v3 : Ref sig .tc := ⟨.hbm, 113, rfl⟩
abbrev main_call5_v4 : Ref sig .tc := ⟨.hbm, 114, rfl⟩
abbrev main_call5_v5 : Ref sig .tc := ⟨.hbm, 115, rfl⟩
abbrev main_call5_c_1 : Ref sig .tc := ⟨.hbm, 116, rfl⟩
abbrev main_call5_c_2 : Ref sig .tc := ⟨.hbm, 117, rfl⟩
abbrev main_call5_v6 : Ref sig .tc := ⟨.hbm, 118, rfl⟩
abbrev main_call5_v7 : Ref sig .tc := ⟨.hbm, 119, rfl⟩
abbrev main_call5_v8 : Ref sig .tc := ⟨.hbm, 120, rfl⟩
abbrev main_call5_v9 : Ref sig .tc := ⟨.hbm, 121, rfl⟩
abbrev main_call5_v10 : Ref sig .tc := ⟨.hbm, 122, rfl⟩
abbrev main_call5_v11 : Ref sig .tc := ⟨.hbm, 123, rfl⟩
abbrev main_call5_c_3 : Ref sig .tc := ⟨.hbm, 124, rfl⟩
abbrev main_call5_v12 : Ref sig .tc := ⟨.hbm, 125, rfl⟩
abbrev main_call5_v13 : Ref sig .tc := ⟨.hbm, 126, rfl⟩
abbrev main_call5_cst : Ref sig .tc := ⟨.hbm, 127, rfl⟩
abbrev main_call5_v14 : Ref sig .tc := ⟨.hbm, 128, rfl⟩
abbrev main_v42 : Ref sig .tc := ⟨.hbm, 129, rfl⟩
abbrev main_cst_8 : Ref sig .tc := ⟨.hbm, 130, rfl⟩
abbrev main_v43 : Ref sig .tc := ⟨.hbm, 131, rfl⟩
abbrev main_v44 : Ref sig .tc := ⟨.hbm, 132, rfl⟩
abbrev main_v45 : Ref sig .tc := ⟨.hbm, 133, rfl⟩
abbrev main_v46 : Ref sig .tc := ⟨.hbm, 134, rfl⟩
abbrev main_v47 : Ref sig .tc := ⟨.hbm, 135, rfl⟩
abbrev main_v48 : Ref sig .tc := ⟨.hbm, 136, rfl⟩
abbrev main_c_9 : Ref sig .tc := ⟨.hbm, 137, rfl⟩
abbrev main_v49 : Ref sig .tc := ⟨.hbm, 138, rfl⟩
abbrev main_v50 : Ref sig .tc := ⟨.hbm, 139, rfl⟩
abbrev main_c_10 : Ref sig .tc := ⟨.hbm, 140, rfl⟩
abbrev main_v51 : Ref sig .tc := ⟨.hbm, 141, rfl⟩
abbrev main_v52 : Ref sig .tc := ⟨.hbm, 142, rfl⟩
abbrev main_v53 : Ref sig .tc := ⟨.hbm, 143, rfl⟩
abbrev main_v54 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_cst_11 : Ref sig .tc := ⟨.hbm, 149, rfl⟩
abbrev main_v59 : Ref sig .tc := ⟨.hbm, 150, rfl⟩
abbrev main_v60 : Ref sig .tc := ⟨.hbm, 151, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 8], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x1280x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1280x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S2048x4x1024_S8192x1024 : S2048x4x1024.ShapeCasts S8192x1024
  bcast_S8192x2_S8192x2x1_0_1 : S8192x2.BroadcastsInDim S8192x2x1 (![0, 1] : Fin 2 → Fin S8192x2x1.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  natLt_1_32 : 1 < 32
  reducesTo_S8192x2x8_S8192x8_d1 : S8192x2x8.ReducesTo [1] S8192x8
  h_S_ : 0 < S_.numel
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  bcast_S_S8192x8 : S_.BroadcastsInDim S8192x8 (![] : Fin 0 → Fin S8192x8.rank)
  bcast_S_S8192x2 : S_.BroadcastsInDim S8192x2 (![] : Fin 0 → Fin S8192x2.rank)
  shapeCasts_S8192x2_S8192x2x1 : S8192x2.ShapeCasts S8192x2x1
  bcast_S_S8192x2x1 : S_.BroadcastsInDim S8192x2x1 (![] : Fin 0 → Fin S8192x2x1.rank)
  bcast_S1_S1x1x1_2 : S1.BroadcastsInDim S1x1x1 (![2] : Fin 1 → Fin S1x1x1.rank)
  bcast_S1x1x1_S8192x2x1_0_1_2 : S1x1x1.BroadcastsInDim S8192x2x1 (![0, 1, 2] : Fin 3 → Fin S8192x2x1.rank)
  reducesTo_S8192x2x1_S8192x2_d2 : S8192x2x1.ReducesTo [2] S8192x2
  bcast_S8192x1024_S8192x1x1024_0_2 : S8192x1024.BroadcastsInDim S8192x1x1024 (![0, 2] : Fin 2 → Fin S8192x1x1024.rank)
  bcast_S8192x1x1024_S8192x2x1024_0_1_2 : S8192x1x1024.BroadcastsInDim S8192x2x1024 (![0, 1, 2] : Fin 3 → Fin S8192x2x1024.rank)
  shapeCasts_S8192x2x1024_S16384x1024 : S8192x2x1024.ShapeCasts S16384x1024
  bcast_S_S20481x1024 : S_.BroadcastsInDim S20481x1024 (![] : Fin 0 → Fin S20481x1024.rank)
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S20481x1024_S20480x1024_0_0 : S20481x1024.Slices ![0, 0] S20480x1024
  shapeCasts_S20480x1024_S8x2560x1024 : S20480x1024.ShapeCasts S8x2560x1024
  bitsLt_bf16_f32 : FTy.bits .bf16 < FTy.bits .f32
  slices_S8x1024x8192_S8x1024x4096_0_0_0 : S8x1024x8192.Slices ![0, 0, 0] S8x1024x4096
  slices_S8x1024x8192_S8x1024x4096_0_0_4096 : S8x1024x8192.Slices ![0, 0, 4096] S8x1024x4096
  inb_S1280x1024_S1280x1024_0_0 : ∀ a, (![0, 0] : Fin 2 → Nat) a + S1280x1024.size a ≤ S1280x1024.size a
  h_S1280x1024 : 0 < S1280x1024.numel
  shapeCasts_S1280x1024_S1280x1024 : S1280x1024.ShapeCasts S1280x1024
  inb_S1x1280x1024_S1x1280x1024_0_0_0 : ∀ a, (![0, 0, 0] : Fin 3 → Nat) a + S1x1280x1024.size a ≤ S1x1280x1024.size a
  h_S1x1280x1024 : 0 < S1x1280x1024.numel
  shapeCasts_S1x1280x1024_S1280x1024 : S1x1280x1024.ShapeCasts S1280x1024
  inb_S1x1024x512_S1x1024x512_0_0_0 : ∀ a, (![0, 0, 0] : Fin 3 → Nat) a + S1x1024x512.size a ≤ S1x1024x512.size a
  h_S1x1024x512 : 0 < S1x1024x512.numel
  shapeCasts_S1x1024x512_S1024x512 : S1x1024x512.ShapeCasts S1024x512
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  shapeCasts_S1280x1024_S1x1280x1024 : S1280x1024.ShapeCasts S1x1280x1024
  shapeCasts_S8x2560x1024_S20480x1024 : S8x2560x1024.ShapeCasts S20480x1024
  bcast_S_S1x1024 : S_.BroadcastsInDim S1x1024 (![] : Fin 0 → Fin S1x1024.rank)
  concatenates_S20480x1024_S1x1024_S20481x1024_d0 : Shape.Concatenates [S20480x1024, S1x1024] S20481x1024 0
  reducesTo_S8192x2_S8192_d1 : S8192x2.ReducesTo [1] S8192
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S8192x2x1_S8192x2x1024_0_1_2 : S8192x2x1.BroadcastsInDim S8192x2x1024 (![0, 1, 2] : Fin 3 → Fin S8192x2x1024.rank)
  reducesTo_S8192x2x1024_S8192x1024_d1 : S8192x2x1024.ReducesTo [1] S8192x1024
  shapeCasts_S8192x1024_S2048x4x1024 : S8192x1024.ShapeCasts S2048x4x1024
  gather_S8192x8_S8192x2x1_S8192x2_n_1_0_0_1_2_11_wf : GatherDims.WF S8192x8 S8192x2x1 S8192x2 [] [1] [0] [1] [0] 2 ![1, 1]
  scatter_S20481x1024_S16384x1_S16384x1024_1_0_0_1_wf : ScatterDims.WF S20481x1024 S16384x1 S16384x1024 [1] [0] [0] 1
  dot_S1280x1024_S1024x512_S1280x512_1_0_0_1_n_n_wf : DotDims.WF S1280x1024 S1024x512 S1280x512 [1] [0] [0] [1] [] []
  dot_S1280x512_S512x1024_S1280x1024_1_0_0_1_n_n_wf : DotDims.WF S1280x512 S512x1024 S1280x1024 [1] [0] [0] [1] [] []
  gather_S20481x1024_S8192x2x1_S8192x2x1024_2_0_n_n_0_2_11024_wf : GatherDims.WF S20481x1024 S8192x2x1 S8192x2x1024 [2] [0] [] [0] [] 2 ![1, 1024]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1280x1024.size a ≤ S8x2560x1024.size a
  hwx0_0 : ∀ i : grid0.Coords, EltTy.bits .bf16 = 32 ∨ (Rect.block (s := S8x2560x1024) S1x1280x1024.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1024x512.size a ≤ S8x1024x4096.size a
  hwx0_1 : ∀ i : grid0.Coords, EltTy.bits .bf16 = 32 ∨ (Rect.block (s := S8x1024x4096) S1x1024x512.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x512.size a ≤ S8x1024x4096.size a
  hwx0_2 : ∀ i : grid0.Coords, EltTy.bits .bf16 = 32 ∨ (Rect.block (s := S8x1024x4096) S1x1024x512.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x1024.size a ≤ S8x4096x1024.size a
  hwx0_3 : ∀ i : grid0.Coords, EltTy.bits .bf16 = 32 ∨ (Rect.block (s := S8x4096x1024) S1x512x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1280x1024.size a ≤ S8x2560x1024.size a
  hwx0_4 : ∀ i : grid0.Coords, EltTy.bits .f32 = 32 ∨ (Rect.block (s := S8x2560x1024) S1x1280x1024.size (cc0_transform_4 i) (hinb0_4 i)).WholeWords (EltTy.packing .f32)

variable [Facts₀]

def gather_S8192x8_S8192x2x1_S8192x2_n_1_0_0_1_2_11 : GatherDims S8192x8 S8192x2x1 S8192x2 where
  offsetDims := []
  collapsedSliceDims := [1]
  operandBatchingDims := [0]
  startIndicesBatchingDims := [0]
  startIndexMap := [1]
  indexVectorDim := 2
  sliceSizes := ![1, 1]
  wf := gather_S8192x8_S8192x2x1_S8192x2_n_1_0_0_1_2_11_wf
def scatter_S20481x1024_S16384x1_S16384x1024_1_0_0_1 : ScatterDims S20481x1024 S16384x1 S16384x1024 where
  updateWindowDims := [1]
  insertedWindowDims := [0]
  scatterDimsToOperandDims := [0]
  indexVectorDim := 1
  wf := scatter_S20481x1024_S16384x1_S16384x1024_1_0_0_1_wf
def dot_S1280x1024_S1024x512_S1280x512_1_0_0_1_n_n : DotDims S1280x1024 S1024x512 S1280x512 where
  lhsContracting := [1]
  rhsContracting := [0]
  lhsNonContracting := [0]
  rhsNonContracting := [1]
  lhsBatch := []
  rhsBatch := []
  wf := dot_S1280x1024_S1024x512_S1280x512_1_0_0_1_n_n_wf
def dot_S1280x512_S512x1024_S1280x1024_1_0_0_1_n_n : DotDims S1280x512 S512x1024 S1280x1024 where
  lhsContracting := [1]
  rhsContracting := [0]
  lhsNonContracting := [0]
  rhsNonContracting := [1]
  lhsBatch := []
  rhsBatch := []
  wf := dot_S1280x512_S512x1024_S1280x1024_1_0_0_1_n_n_wf
def gather_S20481x1024_S8192x2x1_S8192x2x1024_2_0_n_n_0_2_11024 : GatherDims S20481x1024 S8192x2x1 S8192x2x1024 where
  offsetDims := [2]
  collapsedSliceDims := [0]
  operandBatchingDims := []
  startIndicesBatchingDims := []
  startIndexMap := [0]
  indexVectorDim := 2
  sliceSizes := ![1, 1024]
  wf := gather_S20481x1024_S8192x2x1_S8192x2x1024_2_0_n_n_0_2_11024_wf

abbrev win0_0 : Pipeline.Window sig grid0 :=
  Pipeline.Window.ofSpec (Memref.whole main_v32) S1x1280x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v34) S1x1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v36) S1x1024x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v37) S1x512x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v38) S1x1280x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S2048x4x1024 : Shape := ⟨3, ![2048, 4, 1024]⟩
abbrev S8192x8 : Shape := ⟨2, ![8192, 8]⟩
abbrev S8192x2 : Shape := ⟨2, ![8192, 2]⟩
abbrev S8x1024x8192 : Shape := ⟨3, ![8, 1024, 8192]⟩
abbrev S8x4096x1024 : Shape := ⟨3, ![8, 4096, 1024]⟩
abbrev S8192x1024 : Shape := ⟨2, ![8192, 1024]⟩
abbrev S8192x2x1 : Shape := ⟨3, ![8192, 2, 1]⟩
abbrev S1x1x8 : Shape := ⟨3, ![1, 1, 8]⟩
abbrev S8192x2x8 : Shape := ⟨3, ![8192, 2, 8]⟩
abbrev S_ : Shape := ⟨0, ![]⟩
abbrev S1 : Shape := ⟨1, ![1]⟩
abbrev S1x1x1 : Shape := ⟨3, ![1, 1, 1]⟩
abbrev S8192x1x1024 : Shape := ⟨3, ![8192, 1, 1024]⟩
abbrev S8192x2x1024 : Shape := ⟨3, ![8192, 2, 1024]⟩
abbrev S16384x1024 : Shape := ⟨2, ![16384, 1024]⟩
abbrev S20481x1024 : Shape := ⟨2, ![20481, 1024]⟩
abbrev S16384 : Shape := ⟨1, ![16384]⟩
abbrev S16384x1 : Shape := ⟨2, ![16384, 1]⟩
abbrev S20480x1024 : Shape := ⟨2, ![20480, 1024]⟩
abbrev S8x2560x1024 : Shape := ⟨3, ![8, 2560, 1024]⟩
abbrev S8x2560x8192 : Shape := ⟨3, ![8, 2560, 8192]⟩
abbrev S8x2560x4096 : Shape := ⟨3, ![8, 2560, 4096]⟩
abbrev S1x1024 : Shape := ⟨2, ![1, 1024]⟩
abbrev S8192 : Shape := ⟨1, ![8192]⟩
abbrev S8192x1 : Shape := ⟨2, ![8192, 1]⟩

abbrev nBuf : Space → Nat
  | .hbm => 159
  | .vmem => 0
  | .smem => 0
  | _ => 0

abbrev hbmTy0_0 (i : Nat) : BufTy := match i % 128 with
  | 0 => ⟨S2048x4x1024, .f32⟩
  | 1 => ⟨S8192x8, .f32⟩
  | 2 => ⟨S8192x2, .i32⟩
  | 3 => ⟨S8x1024x8192, .f32⟩
  | 4 => ⟨S8x4096x1024, .f32⟩
  | 5 => ⟨S8192x1024, .f32⟩
  | 6 => ⟨S8192x2x1, .i32⟩
  | 7 => ⟨S1x1x8, .i32⟩
  | 8 => ⟨S8192x2x8, .i32⟩
  | 9 => ⟨S8192x2x8, .i32⟩
  | 10 => ⟨S8192x2x8, .i1⟩
  | 11 => ⟨S8192x2x8, .i32⟩
  | 12 => ⟨S_, .i32⟩
  | 13 => ⟨S8192x8, .i32⟩
  | 14 => ⟨S_, .i32⟩
  | 15 => ⟨S_, .i32⟩
  | 16 => ⟨S8192x8, .i32⟩
  | 17 => ⟨S8192x8, .i32⟩
  | 18 => ⟨S_, .i32⟩
  | 19 => ⟨S8192x8, .i32⟩
  | 20 => ⟨S8192x8, .i1⟩
  | 21 => ⟨S_, .i32⟩
  | 22 => ⟨S8192x8, .i32⟩
  | 23 => ⟨S8192x8, .i1⟩
  | 24 => ⟨S8192x8, .i1⟩
  | 25 => ⟨S_, .i32⟩
  | 26 => ⟨S8192x8, .i32⟩
  | 27 => ⟨S8192x8, .i32⟩
  | 28 => ⟨S_, .i32⟩
  | 29 => ⟨S8192x2, .i32⟩
  | 30 => ⟨S8192x2, .i1⟩
  | 31 => ⟨S_, .i32⟩
  | 32 => ⟨S8192x2, .i32⟩
  | 33 => ⟨S8192x2, .i32⟩
  | 34 => ⟨S8192x2, .i32⟩
  | 35 => ⟨S8192x2x1, .i32⟩
  | 36 => ⟨S1, .i32⟩
  | 37 => ⟨S_, .i32⟩
  | 38 => ⟨S8192x2x1, .i32⟩
  | 39 => ⟨S8192x2x1, .i1⟩
  | 40 => ⟨S1x1x1, .i32⟩
  | 41 => ⟨S8192x2x1, .i32⟩
  | 42 => ⟨S8192x2x1, .i1⟩
  | 43 => ⟨S8192x2x1, .i1⟩
  | 44 => ⟨S_, .i1⟩
  | 45 => ⟨S8192x2, .i1⟩
  | 46 => ⟨S8192x2, .i32⟩
  | 47 => ⟨S_, .i32⟩
  | 48 => ⟨S8192x2, .i32⟩
  | 49 => ⟨S8192x2, .i32⟩
  | 50 => ⟨S_, .i32⟩
  | 51 => ⟨S8192x2, .i32⟩
  | 52 => ⟨S8192x2, .i1⟩
  | 53 => ⟨S_, .i32⟩
  | 54 => ⟨S8192x2, .i32⟩
  | 55 => ⟨S8192x2, .i32⟩
  | 56 => ⟨S8192x2, .i32⟩
  | 57 => ⟨S8192x2x1, .i32⟩
  | 58 => ⟨S1, .i32⟩
  | 59 => ⟨S_, .i32⟩
  | 60 => ⟨S8192x2x1, .i32⟩
  | 61 => ⟨S8192x2x1, .i1⟩
  | 62 => ⟨S1x1x1, .i32⟩
  | 63 => ⟨S8192x2x1, .i32⟩
  | 64 => ⟨S8192x2x1, .i1⟩
  | 65 => ⟨S8192x2x1, .i1⟩
  | 66 => ⟨S_, .i1⟩
  | 67 => ⟨S8192x2, .i1⟩
  | 68 => ⟨S8192x2, .i1⟩
  | 69 => ⟨S_, .i1⟩
  | 70 => ⟨S8192x2, .i1⟩
  | 71 => ⟨S8192x2, .i1⟩
  | 72 => ⟨S_, .i32⟩
  | 73 => ⟨S8192x2, .i32⟩
  | 74 => ⟨S8192x2, .i32⟩
  | 75 => ⟨S8192x2, .i32⟩
  | 76 => ⟨S_, .i32⟩
  | 77 => ⟨S_, .i32⟩
  | 78 => ⟨S8192x2, .i32⟩
  | 79 => ⟨S8192x2, .i32⟩
  | 80 => ⟨S8192x1x1024, .f32⟩
  | 81 => ⟨S8192x2x1024, .f32⟩
  | 82 => ⟨S16384x1024, .f32⟩
  | 83 => ⟨S_, .f32⟩
  | 84 => ⟨S20481x1024, .f32⟩
  | 85 => ⟨S16384, .i32⟩
  | 86 => ⟨S_, .i32⟩
  | 87 => ⟨S16384, .i32⟩
  | 88 => ⟨S16384, .i1⟩
  | 89 => ⟨S_, .i32⟩
  | 90 => ⟨S16384, .i32⟩
  | 91 => ⟨S16384, .i32⟩
  | 92 => ⟨S16384, .i32⟩
  | 93 => ⟨S16384x1, .i32⟩
  | 94 => ⟨S20481x1024, .f32⟩
  | 95 => ⟨S20480x1024, .f32⟩
  | 96 => ⟨S8x2560x1024, .f32⟩
  | 97 => ⟨S8x2560x8192, .f32⟩
  | 98 => ⟨S8x2560x4096, .f32⟩
  | 99 => ⟨S8x2560x4096, .f32⟩
  | 100 => ⟨S8x2560x4096, .f32⟩
  | 101 => ⟨S8x2560x4096, .f32⟩
  | 102 => ⟨S_, .f32⟩
  | 103 => ⟨S8x2560x4096, .f32⟩
  | 104 => ⟨S8x2560x4096, .f32⟩
  | 105 => ⟨S_, .f32⟩
  | 106 => ⟨S8x2560x4096, .f32⟩
  | 107 => ⟨S8x2560x4096, .f32⟩
  | 108 => ⟨S8x2560x4096, .f32⟩
  | 109 => ⟨S8x2560x4096, .f32⟩
  | 110 => ⟨S8x2560x1024, .f32⟩
  | 111 => ⟨S20480x1024, .f32⟩
  | 112 => ⟨S_, .f32⟩
  | 113 => ⟨S1x1024, .f32⟩
  | 114 => ⟨S20481x1024, .f32⟩
  | 115 => ⟨S_, .i32⟩
  | 116 => ⟨S8192x2, .i32⟩
  | 117 => ⟨S8192x2, .i1⟩
  | 118 => ⟨S_, .i32⟩
  | 119 => ⟨S8192x2, .i32⟩
  | 120 => ⟨S8192x2, .i32⟩
  | 121 => ⟨S8192x2, .i32⟩
  | 122 => ⟨S8192x2x1, .i32⟩
  | 123 => ⟨S1, .i32⟩
  | 124 => ⟨S_, .i32⟩
  | 125 => ⟨S8192x2x1, .i32⟩
  | 126 => ⟨S8192x2x1, .i1⟩
  | 127 => ⟨S1x1x1, .i32⟩
  | _ => ⟨S2048x4x1024, .f32⟩

abbrev hbmTy0_1 (i : Nat) : BufTy := match i % 128 with
  | 0 => ⟨S8192x2x1, .i32⟩
  | 1 => ⟨S8192x2x1, .i1⟩
  | 2 => ⟨S8192x2x1, .i1⟩
  | 3 => ⟨S_, .i1⟩
  | 4 => ⟨S8192x2, .i1⟩
  | 5 => ⟨S8192x2, .f32⟩
  | 6 => ⟨S_, .f32⟩
  | 7 => ⟨S8192x2, .f32⟩
  | 8 => ⟨S8192x2, .f32⟩
  | 9 => ⟨S_, .f32⟩
  | 10 => ⟨S8192, .f32⟩
  | 11 => ⟨S8192x1, .f32⟩
  | 12 => ⟨S8192x2, .f32⟩
  | 13 => ⟨S8192x2, .f32⟩
  | 14 => ⟨S8192x2, .f32⟩
  | 15 => ⟨S8192x2, .f32⟩
  | 16 => ⟨S_, .i32⟩
  | 17 => ⟨S8192x2, .i32⟩
  | 18 => ⟨S8192x2, .i1⟩
  | 19 => ⟨S_, .i32⟩
  | 20 => ⟨S8192x2, .i32⟩
  | 21 => ⟨S8192x2, .i32⟩
  | 22 => ⟨S8192x2, .i32⟩
  | 23 => ⟨S8192x2x1, .i32⟩
  | 24 => ⟨S8192x2x1024, .f32⟩
  | 25 => ⟨S8192x2x1, .f32⟩
  | 26 => ⟨S8192x2x1024, .f32⟩
  | 27 => ⟨S8192x2x1024, .f32⟩
  | 28 => ⟨S_, .f32⟩
  | 29 => ⟨S8192x1024, .f32⟩
  | 30 => ⟨S2048x4x1024, .f32⟩
  | _ => ⟨S2048x4x1024, .f32⟩

abbrev hbmTy (i : Nat) : BufTy := match i / 128 with
  | 0 => hbmTy0_0 i
  | 1 => hbmTy0_1 i
  | _ => ⟨S2048x4x1024, .f32⟩

abbrev bufTy : (tb : Table) → Fin (tcTables nBuf tb) → BufTy
  | .hbm, ⟨i, _⟩ => hbmTy i
  | _, _ => ⟨S2048x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_v1 : Ref sig .tc := ⟨.hbm, 11, rfl⟩
abbrev main_c : Ref sig .tc := ⟨.hbm, 12, rfl⟩
abbrev main_v2 : Ref sig .tc := ⟨.hbm, 13, rfl⟩
abbrev main_call1_call0_c : Ref sig .tc := ⟨.hbm, 14, rfl⟩
abbrev main_call1_call0_v0 : Ref sig .tc := ⟨.hbm, 15, rfl⟩
abbrev main_v3 : Ref sig .tc := ⟨.hbm, 16, rfl⟩
abbrev main_v4 : Ref sig .tc := ⟨.hbm, 17, rfl⟩
abbrev main_c_0 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_c_2 : Ref sig .tc := ⟨.hbm, 25, rfl⟩
abbrev main_v10 : Ref sig .tc := ⟨.hbm, 26, rfl⟩
abbrev main_v11 : Ref sig .tc := ⟨.hbm, 27, rfl⟩
abbrev main_call2_c : Ref sig .tc := ⟨.hbm, 28, rfl⟩
abbrev main_call2_v0 : Ref sig .tc := ⟨.hbm, 29, rfl⟩
abbrev main_call2_v1 : Ref sig .tc := ⟨.hbm, 30, rfl⟩
abbrev main_call2_c_0 : Ref sig .tc := ⟨.hbm, 31, rfl⟩
abbrev main_call2_v2 : Ref sig .tc := ⟨.hbm, 32, rfl⟩
abbrev main_call2_v3 : Ref sig .tc := ⟨.hbm, 33, rfl⟩
abbrev main_call2_v4 : Ref sig .tc := ⟨.hbm, 34, rfl⟩
abbrev main_call2_v5 : Ref sig .tc := ⟨.hbm, 35, rfl⟩
abbrev main_call2_c_1 : Ref sig .tc := ⟨.hbm, 36, rfl⟩
abbrev main_call2_c_2 : Ref sig .tc := ⟨.hbm, 37, rfl⟩
abbrev main_call2_v6 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_call2_v11 : Ref sig .tc := ⟨.hbm, 43, rfl⟩
abbrev main_call2_c_3 : Ref sig .tc := ⟨.hbm, 44, rfl⟩
abbrev main_call2_v12 : Ref sig .tc := ⟨.hbm, 45, rfl⟩
abbrev main_call2_v13 : Ref sig .tc := ⟨.hbm, 46, rfl⟩
abbrev main_call2_c_4 : Ref sig .tc := ⟨.hbm, 47, rfl⟩
abbrev main_call2_v14 : Ref sig .tc := ⟨.hbm, 48, rfl⟩
abbrev main_v12 : Ref sig .tc := ⟨.hbm, 49, rfl⟩
abbrev main_call3_c : Ref sig .tc := ⟨.hbm, 50, rfl⟩
abbrev main_call3_v0 : Ref sig .tc := ⟨.hbm, 51, rfl⟩
abbrev main_call3_v1 : Ref sig .tc := ⟨.hbm, 52, rfl⟩
abbrev main_call3_c_0 : Ref sig .tc := ⟨.hbm, 53, rfl⟩
abbrev main_call3_v2 : Ref sig .tc := ⟨.hbm, 54, rfl⟩
abbrev main_call3_v3 : Ref sig .tc := ⟨.hbm, 55, rfl⟩
abbrev main_call3_v4 : Ref sig .tc := ⟨.hbm, 56, rfl⟩
abbrev main_call3_v5 : Ref sig .tc := ⟨.hbm, 57, rfl⟩
abbrev main_call3_c_1 : Ref sig .tc := ⟨.hbm, 58, rfl⟩
abbrev main_call3_c_2 : Ref sig .tc := ⟨.hbm, 59, rfl⟩
abbrev main_call3_v6 : Ref sig .tc := ⟨.hbm, 60, rfl⟩
abbrev main_call3_v7 : Ref sig .tc := ⟨.hbm, 61, rfl⟩
abbrev main_call3_v8 : Ref sig .tc := ⟨.hbm, 62, rfl⟩
abbrev main_call3_v9 : Ref sig .tc := ⟨.hbm, 63, rfl⟩
abbrev main_call3_v10 : Ref sig .tc := ⟨.hbm, 64, rfl⟩
abbrev main_call3_v11 : Ref sig .tc := ⟨.hbm, 65, rfl⟩
abbrev main_call3_c_3 : Ref sig .tc := ⟨.hbm, 66, rfl⟩
abbrev main_call3_v12 : Ref sig .tc := ⟨.hbm, 67, rfl⟩
abbrev main_call3_v13 : Ref sig .tc := ⟨.hbm, 68, rfl⟩
abbrev main_call3_c_4 : Ref sig .tc := ⟨.hbm, 69, rfl⟩
abbrev main_call3_v14 : Ref sig .tc := ⟨.hbm, 70, rfl⟩
abbrev main_v13 : Ref sig .tc := ⟨.hbm, 71, rfl⟩
abbrev main_c_3 : Ref sig .tc := ⟨.hbm, 72, rfl⟩
abbrev main_v14 : Ref sig .tc := ⟨.hbm, 73, rfl⟩
abbrev main_v15 : Ref sig .tc := ⟨.hbm, 74, rfl⟩
abbrev main_v16 : Ref sig .tc := ⟨.hbm, 75, rfl⟩
abbrev main_c_4 : Ref sig .tc := ⟨.hbm, 76, rfl⟩
abbrev main_call4_v0 : Ref sig .tc := ⟨.hbm, 77, rfl⟩
abbrev main_call4_v1 : Ref sig .tc := ⟨.hbm, 78, rfl⟩
abbrev main_v17 : Ref sig .tc := ⟨.hbm, 79, rfl⟩
abbrev main_v18 : Ref sig .tc := ⟨.hbm, 80, rfl⟩
abbrev main_v19 : Ref sig .tc := ⟨.hbm, 81, rfl⟩
abbrev main_v20 : Ref sig .tc := ⟨.hbm, 82, rfl⟩
abbrev main_cst : Ref sig .tc := ⟨.hbm, 83, rfl⟩
abbrev main_v21 : Ref sig .tc := ⟨.hbm, 84, rfl⟩
abbrev main_v22 : Ref sig .tc := ⟨.hbm, 85, rfl⟩
abbrev main_c_5 : Ref sig .tc := ⟨.hbm, 86, rfl⟩
abbrev main_v23 : Ref sig .tc := ⟨.hbm, 87, rfl⟩
abbrev main_v24 : Ref sig .tc := ⟨.hbm, 88, rfl⟩
abbrev main_c_6 : Ref sig .tc := ⟨.hbm, 89, rfl⟩
abbrev main_v25 : Ref sig .tc := ⟨.hbm, 90, rfl⟩
abbrev main_v26 : Ref sig .tc := ⟨.hbm, 91, rfl⟩
abbrev main_v27 : Ref sig .tc := ⟨.hbm, 92, rfl⟩
abbrev main_v28 : Ref sig .tc := ⟨.hbm, 93, rfl⟩
abbrev main_v29 : Ref sig .tc := ⟨.hbm, 94, rfl⟩
abbrev main_v30 : Ref sig .tc := ⟨.hbm, 95, rfl⟩
abbrev main_v31 : Ref sig .tc := ⟨.hbm, 96, rfl⟩
abbrev main_v32 : Ref sig .tc := ⟨.hbm, 97, rfl⟩
abbrev main_v33 : Ref sig .tc := ⟨.hbm, 98, rfl⟩
abbrev main_v34 : Ref sig .tc := ⟨.hbm, 99, rfl⟩
abbrev main_call5_v0 : Ref sig .tc := ⟨.hbm, 100, rfl⟩
abbrev main_call5_v1 : Ref sig .tc := ⟨.hbm, 101, rfl⟩
abbrev main_call5_cst : Ref sig .tc := ⟨.hbm, 102, rfl⟩
abbrev main_call5_v2 : Ref sig .tc := ⟨.hbm, 103, rfl⟩
abbrev main_call5_v3 : Ref sig .tc := ⟨.hbm, 104, rfl⟩
abbrev main_call5_cst_0 : Ref sig .tc := ⟨.hbm, 105, rfl⟩
abbrev main_call5_v4 : Ref sig .tc := ⟨.hbm, 106, rfl⟩
abbrev main_call5_v5 : Ref sig .tc := ⟨.hbm, 107, rfl⟩
abbrev main_v35 : Ref sig .tc := ⟨.hbm, 108, rfl⟩
abbrev main_v36 : Ref sig .tc := ⟨.hbm, 109, rfl⟩
abbrev main_v37 : Ref sig .tc := ⟨.hbm, 110, rfl⟩
abbrev main_v38 : Ref sig .tc := ⟨.hbm, 111, rfl⟩
abbrev main_cst_7 : Ref sig .tc := ⟨.hbm, 112, rfl⟩
abbrev main_v39 : Ref sig .tc := ⟨.hbm, 113, rfl⟩
abbrev main_v40 : Ref sig .tc := ⟨.hbm, 114, rfl⟩
abbrev main_call6_c : Ref sig .tc := ⟨.hbm, 115, rfl⟩
abbrev main_call6_v0 : Ref sig .tc := ⟨.hbm, 116, rfl⟩
abbrev main_call6_v1 : Ref sig .tc := ⟨.hbm, 117, rfl⟩
abbrev main_call6_c_0 : Ref sig .tc := ⟨.hbm, 118, rfl⟩
abbrev main_call6_v2 : Ref sig .tc := ⟨.hbm, 119, rfl⟩
abbrev main_call6_v3 : Ref sig .tc := ⟨.hbm, 120, rfl⟩
abbrev main_call6_v4 : Ref sig .tc := ⟨.hbm, 121, rfl⟩
abbrev main_call6_v5 : Ref sig .tc := ⟨.hbm, 122, rfl⟩
abbrev main_call6_c_1 : Ref sig .tc := ⟨.hbm, 123, rfl⟩
abbrev main_call6_c_2 : Ref sig .tc := ⟨.hbm, 124, rfl⟩
abbrev main_call6_v6 : Ref sig .tc := ⟨.hbm, 125, rfl⟩
abbrev main_call6_v7 : Ref sig .tc := ⟨.hbm, 126, rfl⟩
abbrev main_call6_v8 : Ref sig .tc := ⟨.hbm, 127, rfl⟩
abbrev main_call6_v9 : Ref sig .tc := ⟨.hbm, 128, rfl⟩
abbrev main_call6_v10 : Ref sig .tc := ⟨.hbm, 129, rfl⟩
abbrev main_call6_v11 : Ref sig .tc := ⟨.hbm, 130, rfl⟩
abbrev main_call6_c_3 : Ref sig .tc := ⟨.hbm, 131, rfl⟩
abbrev main_call6_v12 : Ref sig .tc := ⟨.hbm, 132, rfl⟩
abbrev main_call6_v13 : Ref sig .tc := ⟨.hbm, 133, rfl⟩
abbrev main_call6_cst : Ref sig .tc := ⟨.hbm, 134, rfl⟩
abbrev main_call6_v14 : Ref sig .tc := ⟨.hbm, 135, rfl⟩
abbrev main_v41 : Ref sig .tc := ⟨.hbm, 136, rfl⟩
abbrev main_cst_8 : Ref sig .tc := ⟨.hbm, 137, rfl⟩
abbrev main_v42 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_v46 : Ref sig .tc := ⟨.hbm, 142, rfl⟩
abbrev main_v47 : Ref sig .tc := ⟨.hbm, 143, rfl⟩
abbrev main_c_9 : Ref sig .tc := ⟨.hbm, 144, rfl⟩
abbrev main_v48 : Ref sig .tc := ⟨.hbm, 145, rfl⟩
abbrev main_v49 : Ref sig .tc := ⟨.hbm, 146, rfl⟩
abbrev main_c_10 : Ref sig .tc := ⟨.hbm, 147, rfl⟩
abbrev main_v50 : Ref sig .tc := ⟨.hbm, 148, rfl⟩
abbrev main_v51 : Ref sig .tc := ⟨.hbm, 149, rfl⟩
abbrev main_v52 : Ref sig .tc := ⟨.hbm, 150, rfl⟩
abbrev main_v53 : Ref sig .tc := ⟨.hbm, 151, rfl⟩
abbrev main_v54 : Ref sig .tc := ⟨.hbm, 152, rfl⟩
abbrev main_v55 : Ref sig .tc := ⟨.hbm, 153, rfl⟩
abbrev main_v56 : Ref sig .tc := ⟨.hbm, 154, rfl⟩
abbrev main_v57 : Ref sig .tc := ⟨.hbm, 155, rfl⟩
abbrev main_cst_11 : Ref sig .tc := ⟨.hbm, 156, rfl⟩
abbrev main_v58 : Ref sig .tc := ⟨.hbm, 157, rfl⟩
abbrev main_v59 : Ref sig .tc := ⟨.hbm, 158, rfl⟩

abbrev nD : Nat := 1
abbrev τ : Topo := Topo.v7x

variable {F : FTy → Type} [FloatOps F]

class Facts₀ : Prop where
  shapeCasts_S2048x4x1024_S8192x1024 : S2048x4x1024.ShapeCasts S8192x1024
  bcast_S8192x2_S8192x2x1_0_1 : S8192x2.BroadcastsInDim S8192x2x1 (![0, 1] : Fin 2 → Fin S8192x2x1.rank)
  bcast_S8192x2x1_S8192x2x8_0_1_2 : S8192x2x1.BroadcastsInDim S8192x2x8 (![0, 1, 2] : Fin 3 → Fin S8192x2x8.rank)
  bcast_S1x1x8_S8192x2x8_0_1_2 : S1x1x8.BroadcastsInDim S8192x2x8 (![0, 1, 2] : Fin 3 → Fin S8192x2x8.rank)
  natLt_1_32 : 1 < 32
  reducesTo_S8192x2x8_S8192x8_d1 : S8192x2x8.ReducesTo [1] S8192x8
  h_S_ : 0 < S_.numel
  bcast_S_S_ : S_.BroadcastsInDim S_ (![] : Fin 0 → Fin S_.rank)
  reduceWindows_S8192x8_S8192x8_w8192s1p8191_0_w1s1p0_0 : S8192x8.ReduceWindows (![8192, 1] : Fin 2 → Nat) ![1, 1] ![8191, 0] ![0, 0] S8192x8
  bcast_S_S8192x8 : S_.BroadcastsInDim S8192x8 (![] : Fin 0 → Fin S8192x8.rank)
  bcast_S_S8192x2 : S_.BroadcastsInDim S8192x2 (![] : Fin 0 → Fin S8192x2.rank)
  shapeCasts_S8192x2_S8192x2x1 : S8192x2.ShapeCasts S8192x2x1
  bcast_S_S8192x2x1 : S_.BroadcastsInDim S8192x2x1 (![] : Fin 0 → Fin S8192x2x1.rank)
  bcast_S1_S1x1x1_2 : S1.BroadcastsInDim S1x1x1 (![2] : Fin 1 → Fin S1x1x1.rank)
  bcast_S1x1x1_S8192x2x1_0_1_2 : S1x1x1.BroadcastsInDim S8192x2x1 (![0, 1, 2] : Fin 3 → Fin S8192x2x1.rank)
  reducesTo_S8192x2x1_S8192x2_d2 : S8192x2x1.ReducesTo [2] S8192x2
  bcast_S8192x1024_S8192x1x1024_0_2 : S8192x1024.BroadcastsInDim S8192x1x1024 (![0, 2] : Fin 2 → Fin S8192x1x1024.rank)
  bcast_S8192x1x1024_S8192x2x1024_0_1_2 : S8192x1x1024.BroadcastsInDim S8192x2x1024 (![0, 1, 2] : Fin 3 → Fin S8192x2x1024.rank)
  shapeCasts_S8192x2x1024_S16384x1024 : S8192x2x1024.ShapeCasts S16384x1024
  bcast_S_S20481x1024 : S_.BroadcastsInDim S20481x1024 (![] : Fin 0 → Fin S20481x1024.rank)
  shapeCasts_S8192x2_S16384 : S8192x2.ShapeCasts S16384
  bcast_S_S16384 : S_.BroadcastsInDim S16384 (![] : Fin 0 → Fin S16384.rank)
  bcast_S16384_S16384x1_0 : S16384.BroadcastsInDim S16384x1 (![0] : Fin 1 → Fin S16384x1.rank)
  slices_S20481x1024_S20480x1024_0_0 : S20481x1024.Slices ![0, 0] S20480x1024
  shapeCasts_S20480x1024_S8x2560x1024 : S20480x1024.ShapeCasts S8x2560x1024
  slices_S8x2560x8192_S8x2560x4096_0_0_0 : S8x2560x8192.Slices ![0, 0, 0] S8x2560x4096
  slices_S8x2560x8192_S8x2560x4096_0_0_4096 : S8x2560x8192.Slices ![0, 0, 4096] S8x2560x4096
  bcast_S_S8x2560x4096 : S_.BroadcastsInDim S8x2560x4096 (![] : Fin 0 → Fin S8x2560x4096.rank)
  shapeCasts_S8x2560x1024_S20480x1024 : S8x2560x1024.ShapeCasts S20480x1024
  bcast_S_S1x1024 : S_.BroadcastsInDim S1x1024 (![] : Fin 0 → Fin S1x1024.rank)
  concatenates_S20480x1024_S1x1024_S20481x1024_d0 : Shape.Concatenates [S20480x1024, S1x1024] S20481x1024 0
  reducesTo_S8192x2_S8192_d1 : S8192x2.ReducesTo [1] S8192
  bcast_S8192_S8192x1_0 : S8192.BroadcastsInDim S8192x1 (![0] : Fin 1 → Fin S8192x1.rank)
  bcast_S8192x1_S8192x2_0_1 : S8192x1.BroadcastsInDim S8192x2 (![0, 1] : Fin 2 → Fin S8192x2.rank)
  bcast_S8192x2x1_S8192x2x1024_0_1_2 : S8192x2x1.BroadcastsInDim S8192x2x1024 (![0, 1, 2] : Fin 3 → Fin S8192x2x1024.rank)
  reducesTo_S8192x2x1024_S8192x1024_d1 : S8192x2x1024.ReducesTo [1] S8192x1024
  shapeCasts_S8192x1024_S2048x4x1024 : S8192x1024.ShapeCasts S2048x4x1024
  gather_S8192x8_S8192x2x1_S8192x2_n_1_0_0_1_2_11_wf : GatherDims.WF S8192x8 S8192x2x1 S8192x2 [] [1] [0] [1] [0] 2 ![1, 1]
  scatter_S20481x1024_S16384x1_S16384x1024_1_0_0_1_wf : ScatterDims.WF S20481x1024 S16384x1 S16384x1024 [1] [0] [0] 1
  dot_S8x2560x1024_S8x1024x8192_S8x2560x8192_2_1_1_2_0_0_wf : DotDims.WF S8x2560x1024 S8x1024x8192 S8x2560x8192 [2] [1] [1] [2] [0] [0]
  dot_S8x2560x4096_S8x4096x1024_S8x2560x1024_2_1_1_2_0_0_wf : DotDims.WF S8x2560x4096 S8x4096x1024 S8x2560x1024 [2] [1] [1] [2] [0] [0]
  gather_S20481x1024_S8192x2x1_S8192x2x1024_2_0_n_n_0_2_11024_wf : GatherDims.WF S20481x1024 S8192x2x1 S8192x2x1024 [2] [0] [] [0] [] 2 ![1, 1024]

variable [Facts₀]

def gather_S8192x8_S8192x2x1_S8192x2_n_1_0_0_1_2_11 : GatherDims S8192x8 S8192x2x1 S8192x2 where
  offsetDims := []
  collapsedSliceDims := [1]
  operandBatchingDims := [0]
  startIndicesBatchingDims := [0]
  startIndexMap := [1]
  indexVectorDim := 2
  sliceSizes := ![1, 1]
  wf := gather_S8192x8_S8192x2x1_S8192x2_n_1_0_0_1_2_11_wf
def scatter_S20481x1024_S16384x1_S16384x1024_1_0_0_1 : ScatterDims S20481x1024 S16384x1 S16384x1024 where
  updateWindowDims := [1]
  insertedWindowDims := [0]
  scatterDimsToOperandDims := [0]
  indexVectorDim := 1
  wf := scatter_S20481x1024_S16384x1_S16384x1024_1_0_0_1_wf
def dot_S8x2560x1024_S8x1024x8192_S8x2560x8192_2_1_1_2_0_0 : DotDims S8x2560x1024 S8x1024x8192 S8x2560x8192 where
  lhsContracting := [2]
  rhsContracting := [1]
  lhsNonContracting := [1]
  rhsNonContracting := [2]
  lhsBatch := [0]
  rhsBatch := [0]
  wf := dot_S8x2560x1024_S8x1024x8192_S8x2560x8192_2_1_1_2_0_0_wf
def dot_S8x2560x4096_S8x4096x1024_S8x2560x1024_2_1_1_2_0_0 : DotDims S8x2560x4096 S8x4096x1024 S8x2560x1024 where
  lhsContracting := [2]
  rhsContracting := [1]
  lhsNonContracting := [1]
  rhsNonContracting := [2]
  lhsBatch := [0]
  rhsBatch := [0]
  wf := dot_S8x2560x4096_S8x4096x1024_S8x2560x1024_2_1_1_2_0_0_wf
def gather_S20481x1024_S8192x2x1_S8192x2x1024_2_0_n_n_0_2_11024 : GatherDims S20481x1024 S8192x2x1 S8192x2x1024 where
  offsetDims := [2]
  collapsedSliceDims := [0]
  operandBatchingDims := []
  startIndicesBatchingDims := []
  startIndexMap := [0]
  indexVectorDim := 2
  sliceSizes := ![1, 1024]
  wf := gather_S20481x1024_S8192x2x1_S8192x2x1024_2_0_n_n_0_2_11024_wf

class Facts : Prop extends Facts₀ where

variable [Facts]
-- ==== Proof.Spec.lean ====
/-
  The mathematics both programs compute between the dispatch and the combine, as ONE function of the
  per-expert token buffers `x : [8, 2560, 1024]`, the fused gate/up weights `g : [8, 1024, 8192]` and the
  down weights `d : [8, 4096, 1024]`, index by index on the extended reals:

    mid x g d (e, r, h) = Σ_{i < 4096} ( silu (Σ_k x(e,r,k)·g(e,k,i)) · (Σ_k x(e,r,k)·g(e,k,4096+i)) ) · d(e,i,h)

  with `silu z = z · logistic z`. The first 4096 columns of `g` are the gate projection (`lo`), the last 4096
  the up projection (`hi`). The kernel reaches this sum tile by tile over `i` (eight tiles of 512, added into
  an accumulator that starts at zero); the reference takes it in one contraction. On the extended reals
  addition is commutative and associative with unit `0`, so the two groupings agree (`sum_tiles`).
-/
import Idealize.ShloMosaic.PureOps.Ideal
import Idealize.ShloMosaic.PureOps.Ideal.Laws
import Idealize.ShloMosaic.Lib.ValueIdx

noncomputable section

namespace MoE

open Idealize.ShloMosaic Idealize.ShloMosaic.ValueIdx

/-- The per-expert token buffers and the kernel's result: experts × slots × hidden. -/
abbrev SX : Shape := ⟨3, ![8, 2560, 1024]⟩
/-- The fused gate/up projection: experts × hidden × (2 · intermediate). -/
abbrev SG : Shape := ⟨3, ![8, 1024, 8192]⟩
/-- The down projection: experts × intermediate × hidden. -/
abbrev SD : Shape := ⟨3, ![8, 4096, 1024]⟩

/-- Column `i` of the gate projection inside the fused weights. -/
def lo (i : Fin 4096) : Fin 8192 := ⟨i.val, by omega⟩
/-- Column `i` of the up projection inside the fused weights. -/
def hi (i : Fin 4096) : Fin 8192 := ⟨4096 + i.val, by omega⟩

@[simp] theorem lo_val (i : Fin 4096) : (lo i).val = i.val := rfl
@[simp] theorem hi_val (i : Fin 4096) : (hi i).val = 4096 + i.val := rfl

/-- `silu z = z · logistic z`, on every extended real. -/
def silu (z : EReal) : EReal := z * Ideal.logistic z

/-- The gate pre-activation of slot `r` of expert `e` at intermediate column `i`. -/
def gateAt (x : SX.Idx → EReal) (g : SG.Idx → EReal) (e : Fin 8) (r : Fin 2560) (i : Fin 4096) : EReal :=
  ∑ k : Fin 1024, x (ix3 e r k) * g (ix3 e k (lo i))

/-- The up projection of the same slot at the same column. -/
def upAt (x : SX.Idx → EReal) (g : SG.Idx → EReal) (e : Fin 8) (r : Fin 2560) (i : Fin 4096) : EReal :=
  ∑ k : Fin 1024, x (ix3 e r k) * g (ix3 e k (hi i))

/-- One intermediate column's contribution to output element `(e, r, h)`. -/
def term (x : SX.Idx → EReal) (g : SG.Idx → EReal) (d : SD.Idx → EReal) (e : Fin 8) (r : Fin 2560) (h : Fin 1024)
    (i : Fin 4096) : EReal :=
  (silu (gateAt x g e r i) * upAt x g e r i) * d (ix3 e i h)

/-- The gated MLP of every expert on its own slots. -/
def mid (x : SX.Idx → EReal) (g : SG.Idx → EReal) (d : SD.Idx → EReal) : SX.Idx → EReal :=
  fun j => ∑ i : Fin 4096, term x g d (j 0) (j 1) (j 2) i

theorem mid_apply (x : SX.Idx → EReal) (g : SG.Idx → EReal) (d : SD.Idx → EReal) (e : Fin 8) (r : Fin 2560) (h : Fin 1024) :
    mid x g d (ix3 e r h) = ∑ i : Fin 4096, term x g d e r h i := rfl

/-- Column `512 · ii + j` of the intermediate axis: column `j` of tile `ii`. -/
def tileCol (ii : Fin 8) (j : Fin 512) : Fin 4096 := ⟨512 * ii.val + j.val, by omega⟩

@[simp] theorem tileCol_val (ii : Fin 8) (j : Fin 512) : (tileCol ii j).val = 512 * ii.val + j.val := rfl

/-- A sum over the 4096 intermediate columns is the sum over the eight tiles of the sums over each tile's 512
    columns: the columns are the pairs (tile, column in the tile), and addition is commutative and associative. -/
theorem sum_tiles {M : Type*} [AddCommMonoid M] (f : Fin 4096 → M) :
    ∑ i : Fin 4096, f i = ∑ ii : Fin 8, ∑ j : Fin 512, f (tileCol ii j) := by
  rw [← Fintype.sum_prod_type']
  refine (Fintype.sum_equiv (finProdFinEquiv (m := 8) (n := 512)) _ _ fun p => ?_).symm
  refine congrArg f (Fin.ext ?_)
  obtain ⟨ii, j⟩ := p
  simp [finProdFinEquiv, tileCol, Nat.add_comm]

/-- The same with the tiles counted by a natural number below 8, as a run of grid points counts them. -/
theorem sum_tiles_range {M : Type*} [AddCommMonoid M] (f : Fin 4096 → M) (F : ℕ → M)
    (hF : ∀ ii : Fin 8, F ii.val = ∑ j : Fin 512, f (tileCol ii j)) :
    ∑ i : Fin 4096, f i = ∑ s ∈ Finset.range 8, F s := by
  rw [sum_tiles, Finset.sum_range]
  exact Finset.sum_congr rfl fun ii _ => (hF ii).symm

end MoE

end
-- ==== Proof.KBlocks.lean ====
/-
  Where the kernel's blocks sit. The grid is (expert, slot tile, intermediate tile) = (8, 2, 8), walked in row-major
  order: point `t` is expert `t / 16`, slot tile `(t / 8) % 2`, intermediate tile `t % 8`. At that point the body sees
  rows `1280·(slot tile) + r` of the expert's token buffer, columns `512·(intermediate tile) + j` of its gate and of
  its up weights, and rows `512·(intermediate tile) + j` of its down weights. The arrays the windows stage are the
  token buffers and the weights after a change of float format (the identity on values), the gate and up weights being
  the first and the last 4096 columns of the fused weights.
-/
import proofs.«145350_j44805098832176_1_alg».proof.Proof.Gen.KernelIdeal.Frame
import proofs.«145350_j44805098832176_1_alg».proof.Proof.Spec
import Idealize.ShloMosaic.Lib.Pipeline.Value
import Idealize.ShloMosaic.Lib.StableHlo.Run
import Idealize.ShloMosaic.Lib.ValueIdx

noncomputable section

open Idealize.ShloMosaic Idealize.ShloMosaic.TcCoe Idealize.SL.Sem Idealize.ShloMosaic.ValueIdx

namespace Cert.KernelIdeal.KV

open Cert.KernelIdeal Cert.KernelIdeal.Gen

variable {F : FTy → Type} [FloatOps F]
variable (m : (ℓ : Loc nD τ sig) → Buf (Elt F) ℓ)

/-! ## The arrays the windows stage, from the token buffers and the weights -/

/-- The host operations before the region, cut before their last stretch (the dispatch's scatter, and the casts and
    slices that feed the region). -/
theorem flatten_split :
    List.flatten [hostOps0, hostOps0_1, hostOps0_2, hostOps0_3, hostOps0_4, hostOps0_5, hostOps0_6, hostOps0_7, hostOps0_8, hostOps0_9 (F := F)]
      = List.flatten [hostOps0, hostOps0_1, hostOps0_2, hostOps0_3, hostOps0_4, hostOps0_5, hostOps0_6, hostOps0_7, hostOps0_8] ++ hostOps0_9 :=
  (List.flatten_append (L₁ := [hostOps0, hostOps0_1, hostOps0_2, hostOps0_3, hostOps0_4, hostOps0_5, hostOps0_6, hostOps0_7, hostOps0_8]) (L₂ := [hostOps0_9 (F := F)])).trans
    (congrArg (List.flatten [hostOps0, hostOps0_1, hostOps0_2, hostOps0_3, hostOps0_4, hostOps0_5, hostOps0_6, hostOps0_7, hostOps0_8] ++ ·) (List.append_nil _))

theorem V0_split (c : Dev nD) :
    V0 m c = StableHlo.after hostOps0_9 (StableHlo.after (List.flatten [hostOps0, hostOps0_1, hostOps0_2, hostOps0_3, hostOps0_4, hostOps0_5, hostOps0_6, hostOps0_7, hostOps0_8]) (fun b => m (c, b))) :=
  (congrArg (fun l => StableHlo.after l (fun b => m (c, b))) flatten_split).trans (StableHlo.after_append _ _ _)

set_option maxHeartbeats 800000 in
/-- Window 0's array: the token buffers, in the narrower float format. -/
theorem V32_eq (c : Dev nD) :
    (V m c main_v32 : S8x2560x1024.Idx → Elt F .bf16) = truncf .bf16 (V m c main_v31 : FVec F S8x2560x1024 .f32) bitsLt_bf16_f32 := by
  show V0 m c (Proc.devRef .tc main_v32) = truncf .bf16 (V0 m c (Proc.devRef .tc main_v31)) bitsLt_bf16_f32
  rw [V0_split]
  generalize StableHlo.after (List.flatten [hostOps0, hostOps0_1, hostOps0_2, hostOps0_3, hostOps0_4, hostOps0_5, hostOps0_6, hostOps0_7, hostOps0_8]) (fun b => m (c, b)) = W
  simp only [hostOps0_9]
  after_results

set_option maxHeartbeats 800000 in
/-- Window 1's array: the gate weights, the first 4096 columns of the fused weights. -/
theorem V34_eq (c : Dev nD) :
    (V m c main_v34 : S8x1024x4096.Idx → Elt F .bf16)
      = truncf .bf16 (extractStridedSlice S8x1024x4096 ![0, 0, 0] (V m c main_arg3 : FVec F S8x1024x8192 .f32) slices_S8x1024x8192_S8x1024x4096_0_0_0) bitsLt_bf16_f32 := by
  show V0 m c (Proc.devRef .tc main_v34) = truncf .bf16 (extractStridedSlice S8x1024x4096 ![0, 0, 0] (V0 m c (Proc.devRef .tc main_arg3)) slices_S8x1024x8192_S8x1024x4096_0_0_0) bitsLt_bf16_f32
  rw [V0_split]
  generalize StableHlo.after (List.flatten [hostOps0, hostOps0_1, hostOps0_2, hostOps0_3, hostOps0_4, hostOps0_5, hostOps0_6, hostOps0_7, hostOps0_8]) (fun b => m (c, b)) = W
  simp only [hostOps0_9]
  after_results

set_option maxHeartbeats 800000 in
/-- Window 2's array: the up weights, the last 4096 columns of the fused weights. -/
theorem V36_eq (c : Dev nD) :
    (V m c main_v36 : S8x1024x4096.Idx → Elt F .bf16)
      = truncf .bf16 (extractStridedSlice S8x1024x4096 ![0, 0, 4096] (V m c main_arg3 : FVec F S8x1024x8192 .f32) slices_S8x1024x8192_S8x1024x4096_0_0_4096) bitsLt_bf16_f32 := by
  show V0 m c (Proc.devRef .tc main_v36) = truncf .bf16 (extractStridedSlice S8x1024x4096 ![0, 0, 4096] (V0 m c (Proc.devRef .tc main_arg3)) slices_S8x1024x8192_S8x1024x4096_0_0_4096) bitsLt_bf16_f32
  rw [V0_split]
  generalize StableHlo.after (List.flatten [hostOps0, hostOps0_1, hostOps0_2, hostOps0_3, hostOps0_4, hostOps0_5, hostOps0_6, hostOps0_7, hostOps0_8]) (fun b => m (c, b)) = W
  simp only [hostOps0_9]
  after_results

set_option maxHeartbeats 800000 in
/-- Window 3's array: the down weights, in the narrower float format. -/
theorem V37_eq (c : Dev nD) :
    (V m c main_v37 : S8x4096x1024.Idx → Elt F .bf16) = truncf .bf16 (V m c main_arg4 : FVec F S8x4096x1024 .f32) bitsLt_bf16_f32 := by
  show V0 m c (Proc.devRef .tc main_v37) = truncf .bf16 (V0 m c (Proc.devRef .tc main_arg4)) bitsLt_bf16_f32
  rw [V0_split]
  generalize StableHlo.after (List.flatten [hostOps0, hostOps0_1, hostOps0_2, hostOps0_3, hostOps0_4, hostOps0_5, hostOps0_6, hostOps0_7, hostOps0_8]) (fun b => m (c, b)) = W
  simp only [hostOps0_9]
  after_results

/-! ## The grid's index maps -/

/-- The block indices of the five windows at point `t`, decided over the 128 points. -/
theorem idx_facts : ∀ t : Fin cfg0.N,
    (win0_0.index t (0 : Fin 3) = t.val / 16 ∧ win0_0.index t (1 : Fin 3) = t.val / 8 % 2 ∧ win0_0.index t (2 : Fin 3) = 0)
    ∧ (win0_1.index t (0 : Fin 3) = t.val / 16 ∧ win0_1.index t (1 : Fin 3) = 0 ∧ win0_1.index t (2 : Fin 3) = t.val % 8)
    ∧ (win0_2.index t (0 : Fin 3) = t.val / 16 ∧ win0_2.index t (1 : Fin 3) = 0 ∧ win0_2.index t (2 : Fin 3) = t.val % 8)
    ∧ (win0_3.index t (0 : Fin 3) = t.val / 16 ∧ win0_3.index t (1 : Fin 3) = t.val % 8 ∧ win0_3.index t (2 : Fin 3) = 0)
    ∧ (win0_4.index t (0 : Fin 3) = t.val / 16 ∧ win0_4.index t (1 : Fin 3) = t.val / 8 % 2 ∧ win0_4.index t (2 : Fin 3) = 0) :=
  (by decide +kernel : ∀ t : Fin grid0.N, _)

/-- The expert of point `t`. -/
def pe (t : Fin cfg0.N) : Fin 8 := ⟨t.val / 16, by have h := t.isLt; have hN : cfg0.N = 128 := N_0; omega⟩
/-- Row `r` of point `t`'s slot tile, among the expert's 2560 slots. -/
def prow (t : Fin cfg0.N) (r : Fin 1280) : Fin 2560 := ⟨1280 * (t.val / 8 % 2) + r.val, by omega⟩
/-- The intermediate tile of point `t`. -/
def ptile (t : Fin cfg0.N) : Fin 8 := ⟨t.val % 8, by omega⟩

@[simp] theorem pe_val (t : Fin cfg0.N) : (pe t).val = t.val / 16 := rfl
@[simp] theorem prow_val (t : Fin cfg0.N) (r : Fin 1280) : (prow t r).val = 1280 * (t.val / 8 % 2) + r.val := rfl
@[simp] theorem ptile_val (t : Fin cfg0.N) : (ptile t).val = t.val % 8 := rfl

/-! ## The input blocks at a point, read off their arrays -/

/-- The token block at point `t`: rows `1280·(slot tile) + r` of the expert's buffer. -/
theorem blk0_apply (c : Dev nD) (t : Fin cfg0.N) (r : Fin 1280) (k : Fin 1024) :
    (iblk m c 0 t : Vec F S1x1280x1024 .bf16) (ix3 (0 : Fin 1) r k)
      = (V m c main_v32 : S8x2560x1024.Idx → Elt F .bf16) (ix3 (pe t) (prow t r) k) := by
  obtain ⟨⟨e0, e1, e2⟩, -⟩ := idx_facts t
  unfold iblk
  rw [View.read_apply]
  show V m c main_v32 _ = V m c main_v32 _
  refine congrArg (V m c main_v32) (funext fun a => Fin.ext ?_)
  match a with
  | ⟨0, _⟩ => show win0_0.index t (0 : Fin 3) * 1 + 1 * 0 = t.val / 16; omega
  | ⟨1, _⟩ => show win0_0.index t (1 : Fin 3) * 1280 + 1 * r.val = 1280 * (t.val / 8 % 2) + r.val; omega
  | ⟨2, _⟩ => show win0_0.index t (2 : Fin 3) * 1024 + 1 * k.val = k.val; omega

/-- The gate-weight block at point `t`: columns `512·(intermediate tile) + j`. -/
theorem blk1_apply (c : Dev nD) (t : Fin cfg0.N) (k : Fin 1024) (j : Fin 512) :
    (iblk m c 1 t : Vec F S1x1024x512 .bf16) (ix3 (0 : Fin 1) k j)
      = (V m c main_v34 : S8x1024x4096.Idx → Elt F .bf16) (ix3 (pe t) k (MoE.tileCol (ptile t) j)) := by
  obtain ⟨-, ⟨e0, e1, e2⟩, -⟩ := idx_facts t
  unfold iblk
  rw [View.read_apply]
  show V m c main_v34 _ = V m c main_v34 _
  refine congrArg (V m c main_v34) (funext fun a => Fin.ext ?_)
  match a with
  | ⟨0, _⟩ => show win0_1.index t (0 : Fin 3) * 1 + 1 * 0 = t.val / 16; omega
  | ⟨1, _⟩ => show win0_1.index t (1 : Fin 3) * 1024 + 1 * k.val = k.val; omega
  | ⟨2, _⟩ => show win0_1.index t (2 : Fin 3) * 512 + 1 * j.val = 512 * (t.val % 8) + j.val; omega

/-- The up-weight block at point `t`: the same columns of the up weights. -/
theorem blk2_apply (c : Dev nD) (t : Fin cfg0.N) (k : Fin 1024) (j : Fin 512) :
    (iblk m c 2 t : Vec F S1x1024x512 .bf16) (ix3 (0 : Fin 1) k j)
      = (V m c main_v36 : S8x1024x4096.Idx → Elt F .bf16) (ix3 (pe t) k (MoE.tileCol (ptile t) j)) := by
  obtain ⟨-, -, ⟨e0, e1, e2⟩, -⟩ := idx_facts t
  unfold iblk
  rw [View.read_apply]
  show V m c main_v36 _ = V m c main_v36 _
  refine congrArg (V m c main_v36) (funext fun a => Fin.ext ?_)
  match a with
  | ⟨0, _⟩ => show win0_2.index t (0 : Fin 3) * 1 + 1 * 0 = t.val / 16; omega
  | ⟨1, _⟩ => show win0_2.index t (1 : Fin 3) * 1024 + 1 * k.val = k.val; omega
  | ⟨2, _⟩ => show win0_2.index t (2 : Fin 3) * 512 + 1 * j.val = 512 * (t.val % 8) + j.val; omega

/-- The down-weight block at point `t`: rows `512·(intermediate tile) + j`. -/
theorem blk3_apply (c : Dev nD) (t : Fin cfg0.N) (j : Fin 512) (h : Fin 1024) :
    (iblk m c 3 t : Vec F S1x512x1024 .bf16) (ix3 (0 : Fin 1) j h)
      = (V m c main_v37 : S8x4096x1024.Idx → Elt F .bf16) (ix3 (pe t) (MoE.tileCol (ptile t) j) h) := by
  obtain ⟨-, -, -, ⟨e0, e1, e2⟩, -⟩ := idx_facts t
  unfold iblk
  rw [View.read_apply]
  show V m c main_v37 _ = V m c main_v37 _
  refine congrArg (V m c main_v37) (funext fun a => Fin.ext ?_)
  match a with
  | ⟨0, _⟩ => show win0_3.index t (0 : Fin 3) * 1 + 1 * 0 = t.val / 16; omega
  | ⟨1, _⟩ => show win0_3.index t (1 : Fin 3) * 512 + 1 * j.val = 512 * (t.val % 8) + j.val; omega
  | ⟨2, _⟩ => show win0_3.index t (2 : Fin 3) * 1024 + 1 * h.val = h.val; omega

end Cert.KernelIdeal.KV

end
-- ==== Proof.KPayload.lean ====
/-
  The kernel body's three stored values, read at an index on the extended reals.

    • The zero block is 0 at every (r, h).
    • The accumulating block at (r, h) is the accumulator's entry plus one tile's contribution
        Σ_{j < 512} ( silu (Σ_k b0(0,r,k)·b1(0,k,j)) · (Σ_k b0(0,r,k)·b2(0,k,j)) ) · b3(0,j,h):
      the three-axis blocks lose their leading unit axis (entry (r, k) of the cast is entry (0, r, k) of the block);
      a matrix product accumulated into zero is the sum over the contracted coordinate; p · logistic p is silu p;
      the narrowing to bf16 is the identity on the extended reals; a cast to the same shape is the identity.
    • The result block given a leading unit axis reads, at (0, r, h), the block at (r, h).
-/
import proofs.«145350_j44805098832176_1_alg».proof.Proof.Gen.KernelIdeal.Skeleton
import proofs.«145350_j44805098832176_1_alg».proof.Proof.Spec
import Idealize.ShloMosaic.Lib.ValueIdx
import Idealize.ShloMosaic.Lib.ValueLayout
import Idealize.ShloMosaic.Lib.Pipeline.Value
import Idealize.ShloMosaic.PureOps.Ideal.Laws
import Idealize.ShloMosaic.Lib.KernelVsHost
import Idealize.ShloMosaic.Lib.StackMember

noncomputable section

namespace Cert.KernelIdeal.KV

open Cert.KernelIdeal Cert.KernelIdeal.Gen Idealize.ShloMosaic Idealize.ShloMosaic.ValueIdx

/-- One tile's contribution to output element (r, h) of a block: the tile's 512 intermediate columns. -/
def tileTerm (b0 : Vec Ideal S1x1280x1024 .bf16) (b1 b2 : Vec Ideal S1x1024x512 .bf16) (b3 : Vec Ideal S1x512x1024 .bf16) (r : Fin 1280) (h : Fin 1024) : EReal :=
  ∑ j : Fin 512, (MoE.silu (∑ k : Fin 1024, b0 (ix3 (0 : Fin 1) r k) * b1 (ix3 (0 : Fin 1) k j)) * (∑ k : Fin 1024, b0 (ix3 (0 : Fin 1) r k) * b2 (ix3 (0 : Fin 1) k j))) * b3 (ix3 (0 : Fin 1) j h)

/-- The zero block reads 0 at every index: a shape cast to the same shape of the spread of the pattern of 0. -/
theorem pay1_apply (r : Fin 1280) (h : Fin 1024) : k0_pay1 (F := Ideal) (ix2 r h) = 0 := by
  unfold k0_pay1
  refine (congrFun (shapeCast_self _ _) (ix2 r h)).trans ?_
  exact Ideal.ofBits_zero_f32

/-- A block given a leading unit axis reads, at (0, r, h), the block at (r, h). -/
theorem pay3_apply (v : Vec Ideal S1280x1024 .f32) (r : Fin 1280) (h : Fin 1024) :
    k0_pay3 (F := Ideal) v (ix3 (0 : Fin 1) r h) = v (ix2 r h) := by
  unfold k0_pay3
  exact shapeCast_ab_1ab_apply v _ (0 : Fin 1) r h

/-- A 1280×1024 by 1024×512 product accumulated into zero, read at (r, j): the sum over the hidden coordinate. -/
theorem mmUp_apply (A : FVec Ideal S1280x1024 .bf16) (B : FVec Ideal S1024x512 .bf16) (r : Fin 1280) (j : Fin 512) :
    matmul (F := Ideal) dot_S1280x1024_S1024x512_S1280x512_1_0_0_1_n_n none A B (constant S1280x512 .f32 0x00000000#32) (ix2 r j)
      = ∑ k : Fin 1024, A (ix2 r k) * B (ix2 k j) := by
  refine (congrFun (matmul_zero_eq_dotGeneral _ none A B) (ix2 r j)).trans ?_
  exact StackMember.dotGeneral_plain_apply (m := 1280) (n := 512) (k := 1024) none A B r j

/-- A 1280×512 by 512×1024 product accumulated into zero, read at (r, h): the sum over the tile's columns. -/
theorem mmDown_apply (A : FVec Ideal S1280x512 .bf16) (B : FVec Ideal S512x1024 .bf16) (r : Fin 1280) (h : Fin 1024) :
    matmul (F := Ideal) dot_S1280x512_S512x1024_S1280x1024_1_0_0_1_n_n none A B (constant S1280x1024 .f32 0x00000000#32) (ix2 r h)
      = ∑ j : Fin 512, A (ix2 r j) * B (ix2 j h) := by
  refine (congrFun (matmul_zero_eq_dotGeneral _ none A B) (ix2 r h)).trans ?_
  exact StackMember.dotGeneral_plain_apply (m := 1280) (n := 1024) (k := 512) none A B r h

/-- The product of the token block and a weight tile, both with their leading unit axis dropped, read at (r, j):
    the sum over the hidden coordinate of the blocks' entries at (0, r, k) and (0, k, j). -/
theorem proj_apply (b0 : Vec Ideal S1x1280x1024 .bf16) (b : Vec Ideal S1x1024x512 .bf16) (r : Fin 1280) (j : Fin 512) :
    matmul (F := Ideal) dot_S1280x1024_S1024x512_S1280x512_1_0_0_1_n_n none
        (shapeCast S1280x1024 b0 shapeCasts_S1x1280x1024_S1280x1024 : FVec Ideal S1280x1024 .bf16)
        (shapeCast S1024x512 b shapeCasts_S1x1024x512_S1024x512 : FVec Ideal S1024x512 .bf16)
        (constant S1280x512 .f32 0x00000000#32) (ix2 r j)
      = ∑ k : Fin 1024, b0 (ix3 (0 : Fin 1) r k) * b (ix3 (0 : Fin 1) k j) := by
  refine (mmUp_apply _ _ r j).trans (Finset.sum_congr rfl fun k _ => ?_)
  exact congrArg₂ (· * ·) (shapeCast_1ab_ab_apply b0 _ r k) (shapeCast_1ab_ab_apply b _ k j)

/-- (p · logistic p) · q narrowed to bf16, at an index where p reads G and q reads U: silu G · U (the narrowing is
    the identity on the extended reals). -/
theorem act_apply (p q : FVec Ideal S1280x512 .f32) (i : S1280x512.Idx) (G U : EReal) (hp : p i = G) (hq : q i = U) :
    (truncf .bf16 (mulf (mulf p (logistic p)) q) bitsLt_bf16_f32 : FVec Ideal S1280x512 .bf16) i = MoE.silu G * U := by
  subst hp hq
  rfl

/-- The accumulating payload at (r, h): the accumulator's entry plus the tile's contribution. -/
theorem pay2_apply (b0 : Vec Ideal S1x1280x1024 .bf16) (b1 b2 : Vec Ideal S1x1024x512 .bf16) (b3 : Vec Ideal S1x512x1024 .bf16) (v17 : Vec Ideal S1280x1024 .f32) (r : Fin 1280) (h : Fin 1024) :
    k0_pay2 (F := Ideal) b0 b1 b2 b3 v17 (ix2 r h) = v17 (ix2 r h) + tileTerm b0 b1 b2 b3 r h := by
  unfold k0_pay2
  refine (congrFun (shapeCast_self _ _) (ix2 r h)).trans ?_
  refine congrArg (v17 (ix2 r h) + ·) ?_
  refine (mmDown_apply _ _ r h).trans ?_
  refine Finset.sum_congr rfl fun j _ => ?_
  exact congrArg₂ (· * ·) (act_apply _ _ (ix2 r j) _ _ (proj_apply b0 b1 r j) (proj_apply b0 b2 r j))
    (shapeCast_1ab_ab_apply b3 _ j h)

end Cert.KernelIdeal.KV

end
-- ==== Proof.KTile.lean ====
/-
  One grid point's contribution, in terms of the arrays. At point `t` (expert `e`, slot tile, intermediate tile `ii`)
  the body's contribution to element `(r, h)` of its output block is the sum, over the 512 columns `j` of the tile,
  of `MoE.term` at the expert's slot `1280·(slot tile) + r`, hidden coordinate `h` and intermediate column
  `512·ii + j` — of the token buffers, the fused weights and the down weights as the region finds them. The blocks
  are read off their arrays at the point's offsets; the arrays are the token buffers, the two halves of the fused
  weights and the down weights, the change of float format being the identity on the extended reals.
-/
import proofs.«145350_j44805098832176_1_alg».proof.Proof.KBlocks
import proofs.«145350_j44805098832176_1_alg».proof.Proof.KPayload

noncomputable section

open Idealize.ShloMosaic Idealize.ShloMosaic.TcCoe Idealize.SL.Sem Idealize.ShloMosaic.ValueIdx

namespace Cert.KernelIdeal.KV

open Cert.KernelIdeal Cert.KernelIdeal.Gen

variable (m : (ℓ : Loc nD τ sig) → Buf (Elt Ideal) ℓ)

/-- The per-expert token buffers as the region finds them. -/
def X (c : Dev nD) : MoE.SX.Idx → EReal := V m c main_v31
/-- The fused gate/up weights as the region finds them (they are an argument: as launched). -/
def G (c : Dev nD) : MoE.SG.Idx → EReal := V m c main_arg3
/-- The down weights as the region finds them. -/
def D (c : Dev nD) : MoE.SD.Idx → EReal := V m c main_arg4

/-- An element of the token block at point `t`. -/
theorem x_at (c : Dev nD) (t : Fin cfg0.N) (r : Fin 1280) (k : Fin 1024) :
    (iblk m c 0 t : Vec Ideal S1x1280x1024 .bf16) (ix3 (0 : Fin 1) r k) = X m c (ix3 (pe t) (prow t r) k) :=
  (blk0_apply m c t r k).trans (congrFun (V32_eq m c) _)

/-- An element of the gate-weight block at point `t`: a column of the first half of the fused weights. -/
theorem gl_at (c : Dev nD) (t : Fin cfg0.N) (k : Fin 1024) (j : Fin 512) :
    (iblk m c 1 t : Vec Ideal S1x1024x512 .bf16) (ix3 (0 : Fin 1) k j)
      = G m c (ix3 (pe t) k (MoE.lo (MoE.tileCol (ptile t) j))) := by
  refine (blk1_apply m c t k j).trans ((congrFun (V34_eq m c) _).trans ?_)
  show extractStridedSlice S8x1024x4096 ![0, 0, 0] (V m c main_arg3) slices_S8x1024x8192_S8x1024x4096_0_0_0 (ix3 (pe t) k (MoE.tileCol (ptile t) j)) = _
  exact extractStridedSlice_apply _ _ _ _ (ix3 (pe t) k (MoE.lo (MoE.tileCol (ptile t) j))) fun a => by
    match a with
    | ⟨0, _⟩ => show (pe t).val = 0 + (pe t).val; omega
    | ⟨1, _⟩ => show k.val = 0 + k.val; omega
    | ⟨2, _⟩ => show (MoE.lo (MoE.tileCol (ptile t) j)).val = 0 + (MoE.tileCol (ptile t) j).val; simp

/-- An element of the up-weight block at point `t`: a column of the second half of the fused weights. -/
theorem gu_at (c : Dev nD) (t : Fin cfg0.N) (k : Fin 1024) (j : Fin 512) :
    (iblk m c 2 t : Vec Ideal S1x1024x512 .bf16) (ix3 (0 : Fin 1) k j)
      = G m c (ix3 (pe t) k (MoE.hi (MoE.tileCol (ptile t) j))) := by
  refine (blk2_apply m c t k j).trans ((congrFun (V36_eq m c) _).trans ?_)
  show extractStridedSlice S8x1024x4096 ![0, 0, 4096] (V m c main_arg3) slices_S8x1024x8192_S8x1024x4096_0_0_4096 (ix3 (pe t) k (MoE.tileCol (ptile t) j)) = _
  exact extractStridedSlice_apply _ _ _ _ (ix3 (pe t) k (MoE.hi (MoE.tileCol (ptile t) j))) fun a => by
    match a with
    | ⟨0, _⟩ => show (pe t).val = 0 + (pe t).val; omega
    | ⟨1, _⟩ => show k.val = 0 + k.val; omega
    | ⟨2, _⟩ => show (MoE.hi (MoE.tileCol (ptile t) j)).val = 4096 + (MoE.tileCol (ptile t) j).val; simp

/-- An element of the down-weight block at point `t`. -/
theorem d_at (c : Dev nD) (t : Fin cfg0.N) (j : Fin 512) (h : Fin 1024) :
    (iblk m c 3 t : Vec Ideal S1x512x1024 .bf16) (ix3 (0 : Fin 1) j h) = D m c (ix3 (pe t) (MoE.tileCol (ptile t) j) h) :=
  (blk3_apply m c t j h).trans (congrFun (V37_eq m c) _)

/-- Point `t`'s contribution to element `(r, h)` of its output block: the tile's 512 columns of `MoE.term`. -/
theorem tile_eq (c : Dev nD) (t : Fin cfg0.N) (r : Fin 1280) (h : Fin 1024) :
    tileTerm (iblk m c 0 t) (iblk m c 1 t) (iblk m c 2 t) (iblk m c 3 t) r h
      = ∑ j : Fin 512, MoE.term (X m c) (G m c) (D m c) (pe t) (prow t r) h (MoE.tileCol (ptile t) j) := by
  unfold tileTerm MoE.term MoE.gateAt MoE.upAt
  refine Finset.sum_congr rfl fun j _ => ?_
  simp only [x_at, gl_at, gu_at, d_at]

end Cert.KernelIdeal.KV

end
-- ==== Proof.KPieces.lean ====
/-
  What one run of the kernel body leaves behind, as values. The body keeps a running sum in a scratch buffer:
  at the first tile of the intermediate axis it stores zeros there, and at every tile it reads the scratch, adds
  that tile's contribution (silu(x·gate)·(x·up), multiplied into the down weights), stores the sum back, and copies
  the scratch into the output block. So, for input blocks `x0 … x3`:

    first tile:  the scratch ends at  step x0 x1 x2 x3 zeros,            the output block at its copy;
    later tiles: the scratch ends at  step x0 x1 x2 x3 (what it held),   the output block at its copy,

  where `step` is the body's one arithmetic payload (`k0_pay2`: the accumulator plus the tile's contribution),
  `zeros` the stored zero block (`k0_pay1`) and the copy a change of shape (`k0_pay3`). Each store covers its whole
  buffer, so a buffer reads back as the last payload stored into it, and a load that follows a store reads that
  store's payload. Stated for any float values.
-/
import proofs.«145350_j44805098832176_1_alg».proof.Proof.Gen.KernelIdeal.Frame
import Idealize.ShloMosaic.Lib.Pipeline.Value
import Idealize.ShloMosaic.Lib.Pipeline.FrameBody
import Idealize.ShloMosaic.Lib.Tactic

noncomputable section

open Idealize.ShloMosaic Idealize.ShloMosaic.TcCoe Idealize.SL.Sem

namespace Cert.KernelIdeal.KV

open Cert.KernelIdeal Cert.KernelIdeal.Gen

variable {F : FTy → Type} [FloatOps F]

/-- The offsets of a whole rank-2 buffer are all zero. -/
theorem hz2 : (![0, 0] : Fin 2 → Nat) = fun _ => 0 := funext fun a => by fin_cases a <;> rfl
/-- The offsets of a whole rank-3 buffer are all zero. -/
theorem hz3 : (![0, 0, 0] : Fin 3 → Nat) = fun _ => 0 := funext fun a => by fin_cases a <;> rfl

/-- A later tile: the scratch, holding `xs`, ends at `xs` plus the tile's contribution. -/
theorem sout_B (c : Dev nD) (i : grid0.Coords) (a3 : Memref sig .tc .vmem S1x1280x1024 .bf16) (h3 : a3.IsWhole)
    (a4 : Memref sig .tc .vmem S1x1024x512 .bf16) (h4 : a4.IsWhole) (a5 : Memref sig .tc .vmem S1x1024x512 .bf16) (h5 : a5.IsWhole)
    (a6 : Memref sig .tc .vmem S1x512x1024 .bf16) (h6 : a6.IsWhole) (a7 : Memref sig .tc .vmem S1x1280x1024 .f32) (h7 : a7.IsWhole)
    (a8 : Memref sig .tc .vmem S1280x1024 .f32) (h8 : a8.IsWhole) (hc : ¬cond0_0 i) (x0 : Vec F S1x1280x1024 .bf16) (x1 : Vec F S1x1024x512 .bf16) (x2 : Vec F S1x1024x512 .bf16) (x3 : Vec F S1x512x1024 .bf16) (xs : Vec F S1280x1024 .f32) :
    sout0_B_0 c i a3 h3 a4 h4 a5 h5 a6 h6 a7 h7 a8 h8 hc x0 x1 x2 x3 xs = k0_pay2 x0 x1 x2 x3 xs := by
  unfold sout0_B_0
  rw [View.read_writes_eq_canon _ _ _ (scover0_B_0 c i a3 h3 a4 h4 a5 h5 a6 h6 a7 h7 a8 h8 hc x0 x1 x2 x3 xs)]
  unfold kernelRun0_B
  dsimp only
  sl_unfold_words
  rw [View.canon_unit_zero hz2]
  simp only [View.readAt_eq_ld, h3.read_unread, h4.read_unread, h5.read_unread, h6.read_unread, h7.read_unread, h8.read_unread,
    View.ld_unit_zero (S := S1x1280x1024) hz3, View.ld_unit_zero (S := S1x1024x512) hz3, View.ld_unit_zero (S := S1x512x1024) hz3,
    View.ld_unit_zero (S := S1280x1024) hz2]

/-- A later tile: the output block ends at the copy of the scratch's new contents. -/
theorem out_B (c : Dev nD) (i : grid0.Coords) (a3 : Memref sig .tc .vmem S1x1280x1024 .bf16) (h3 : a3.IsWhole)
    (a4 : Memref sig .tc .vmem S1x1024x512 .bf16) (h4 : a4.IsWhole) (a5 : Memref sig .tc .vmem S1x1024x512 .bf16) (h5 : a5.IsWhole)
    (a6 : Memref sig .tc .vmem S1x512x1024 .bf16) (h6 : a6.IsWhole) (a7 : Memref sig .tc .vmem S1x1280x1024 .f32) (h7 : a7.IsWhole)
    (a8 : Memref sig .tc .vmem S1280x1024 .f32) (h8 : a8.IsWhole) (hc : ¬cond0_0 i) (x0 : Vec F S1x1280x1024 .bf16) (x1 : Vec F S1x1024x512 .bf16) (x2 : Vec F S1x1024x512 .bf16) (x3 : Vec F S1x512x1024 .bf16) (xs : Vec F S1280x1024 .f32) :
    out0_B_4 c i a3 h3 a4 h4 a5 h5 a6 h6 a7 h7 a8 h8 hc x0 x1 x2 x3 xs = k0_pay3 (k0_pay2 x0 x1 x2 x3 xs) := by
  unfold out0_B_4
  rw [View.read_writes_eq_canon _ _ _ (cover0_B_4 c i a3 h3 a4 h4 a5 h5 a6 h6 a7 h7 a8 h8 hc x0 x1 x2 x3 xs)]
  unfold kernelRun0_B
  dsimp only
  sl_unfold_words
  rw [View.canon_unit_zero (S := S1x1280x1024) hz3, View.readCov_unit_zero (S := S1280x1024) _ hz2]
  simp only [View.readAt_eq_ld, h3.read_unread, h4.read_unread, h5.read_unread, h6.read_unread, h7.read_unread, h8.read_unread,
    View.ld_unit_zero (S := S1x1280x1024) hz3, View.ld_unit_zero (S := S1x1024x512) hz3, View.ld_unit_zero (S := S1x512x1024) hz3,
    View.ld_unit_zero (S := S1280x1024) hz2]

/-- The first tile: the scratch is zeroed, read back, and ends at zero plus the tile's contribution. -/
theorem sout_A (c : Dev nD) (i : grid0.Coords) (a3 : Memref sig .tc .vmem S1x1280x1024 .bf16) (h3 : a3.IsWhole)
    (a4 : Memref sig .tc .vmem S1x1024x512 .bf16) (h4 : a4.IsWhole) (a5 : Memref sig .tc .vmem S1x1024x512 .bf16) (h5 : a5.IsWhole)
    (a6 : Memref sig .tc .vmem S1x512x1024 .bf16) (h6 : a6.IsWhole) (a7 : Memref sig .tc .vmem S1x1280x1024 .f32) (h7 : a7.IsWhole)
    (a8 : Memref sig .tc .vmem S1280x1024 .f32) (h8 : a8.IsWhole) (hc : cond0_0 i) (x0 : Vec F S1x1280x1024 .bf16) (x1 : Vec F S1x1024x512 .bf16) (x2 : Vec F S1x1024x512 .bf16) (x3 : Vec F S1x512x1024 .bf16) :
    sout0_A_0 c i a3 h3 a4 h4 a5 h5 a6 h6 a7 h7 a8 h8 hc x0 x1 x2 x3 = k0_pay2 x0 x1 x2 x3 k0_pay1 := by
  unfold sout0_A_0
  rw [View.read_writes_eq_canon _ _ _ (scover0_A_0 c i a3 h3 a4 h4 a5 h5 a6 h6 a7 h7 a8 h8 hc x0 x1 x2 x3)]
  unfold kernelRun0_A
  dsimp only
  sl_unfold_words
  rw [View.canon_cons_unit_zero (S := S1280x1024) hz2, View.readCov_unit_zero (S := S1280x1024) _ hz2]
  simp only [View.readAt_eq_ld, h3.read_unread, h4.read_unread, h5.read_unread, h6.read_unread, h7.read_unread, h8.read_unread,
    View.ld_unit_zero (S := S1x1280x1024) hz3, View.ld_unit_zero (S := S1x1024x512) hz3, View.ld_unit_zero (S := S1x512x1024) hz3,
    View.ld_unit_zero (S := S1280x1024) hz2]

/-- The first tile: the output block ends at the copy of that. -/
theorem out_A (c : Dev nD) (i : grid0.Coords) (a3 : Memref sig .tc .vmem S1x1280x1024 .bf16) (h3 : a3.IsWhole)
    (a4 : Memref sig .tc .vmem S1x1024x512 .bf16) (h4 : a4.IsWhole) (a5 : Memref sig .tc .vmem S1x1024x512 .bf16) (h5 : a5.IsWhole)
    (a6 : Memref sig .tc .vmem S1x512x1024 .bf16) (h6 : a6.IsWhole) (a7 : Memref sig .tc .vmem S1x1280x1024 .f32) (h7 : a7.IsWhole)
    (a8 : Memref sig .tc .vmem S1280x1024 .f32) (h8 : a8.IsWhole) (hc : cond0_0 i) (x0 : Vec F S1x1280x1024 .bf16) (x1 : Vec F S1x1024x512 .bf16) (x2 : Vec F S1x1024x512 .bf16) (x3 : Vec F S1x512x1024 .bf16) :
    out0_A_4 c i a3 h3 a4 h4 a5 h5 a6 h6 a7 h7 a8 h8 hc x0 x1 x2 x3 = k0_pay3 (k0_pay2 x0 x1 x2 x3 k0_pay1) := by
  unfold out0_A_4
  rw [View.read_writes_eq_canon _ _ _ (cover0_A_4 c i a3 h3 a4 h4 a5 h5 a6 h6 a7 h7 a8 h8 hc x0 x1 x2 x3)]
  unfold kernelRun0_A
  dsimp only
  sl_unfold_words
  rw [View.canon_unit_zero (S := S1x1280x1024) hz3, View.readCov_cons_toLoadRect, View.readCov_unit_zero (S := S1280x1024) _ hz2]
  simp only [View.readAt_eq_ld, h3.read_unread, h4.read_unread, h5.read_unread, h6.read_unread, h7.read_unread, h8.read_unread,
    View.ld_unit_zero (S := S1x1280x1024) hz3, View.ld_unit_zero (S := S1x1024x512) hz3, View.ld_unit_zero (S := S1x512x1024) hz3,
    View.ld_unit_zero (S := S1280x1024) hz2]

end Cert.KernelIdeal.KV

end
-- ==== Proof.KAcc.lean ====
/-
  The accumulation over a run of grid points, on the extended reals.

  The grid's points come in runs of eight consecutive points (one per tile of the intermediate axis). At the first
  point of a run the carried scratch ends at the zero block plus that point's contribution; at every later point it
  ends at what the point before left plus that point's contribution. A quantity that resets at the multiples of 8
  and steps from its predecessor elsewhere is the fold over its run, and a fold whose reset is 0 + M b and whose
  steps each add M n is 0 plus the sum of the addends of the run's points so far. Here M n at index (r, h) is point
  n's tile contribution Σ_{j < 512} (silu gate · up)(r, j) · down(j, h). After every point the output block is the
  scratch with a leading unit axis.
-/
import proofs.«145350_j44805098832176_1_alg».proof.Proof.KPieces
import proofs.«145350_j44805098832176_1_alg».proof.Proof.KPayload

noncomputable section

open Idealize.ShloMosaic Idealize.ShloMosaic.TcCoe Idealize.SL.Sem

namespace Cert.KernelIdeal.KV

open Cert.KernelIdeal Cert.KernelIdeal.Gen Idealize.ShloMosaic Idealize.ShloMosaic.ValueIdx

variable (m : (ℓ : Loc nD τ sig) → Buf (Elt Ideal) ℓ)

/-- The components of a pair that equals a named pair. -/
theorem fst_of_eq_mk {α β : Type} {p : α × β} {a : α} {b : β} (h : p = (a, b)) : p.1 = a := by subst h; rfl
theorem snd_of_eq_mk {α β : Type} {p : α × β} {a : α} {b : β} (h : p = (a, b)) : p.2 = b := by subst h; rfl

/-- Grid point n's contribution to the element at index i of its output block (zero past the grid, where it is never used). -/
def pointTerm (c : Dev nD) (n : ℕ) (i : S1280x1024.Idx) : EReal :=
  if hn : n < cfg0.N then tileTerm (iblk m c 0 ⟨n, hn⟩) (iblk m c 1 ⟨n, hn⟩) (iblk m c 2 ⟨n, hn⟩) (iblk m c 3 ⟨n, hn⟩) (i 0) (i 1) else 0

theorem pointTerm_of_lt (c : Dev nD) (t : Fin cfg0.N) (r : Fin 1280) (h : Fin 1024) :
    pointTerm m c t.val (ix2 r h) = tileTerm (iblk m c 0 t) (iblk m c 1 t) (iblk m c 2 t) (iblk m c 3 t) r h := by
  unfold pointTerm
  rw [dif_pos t.isLt]

/-- At the first point of a run the scratch ends at the zero block plus that point's contribution. -/
theorem scratch_reset_t (c : Dev nD) (t : Fin cfg0.N) (hmod : t.val % 8 = 0) :
    (outsAt0 m c t.val t.isLt).2 = k0_pay2 (F := Ideal) (iblk m c 0 t) (iblk m c 1 t) (iblk m c 2 t) (iblk m c 3 t) (k0_pay1 (F := Ideal)) :=
  (snd_of_eq_mk (outsAt0_A m c t hmod)).trans
    (sout_A (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr hmod) (iblk m c 0 t) (iblk m c 1 t) (iblk m c 2 t) (iblk m c 3 t))

/-- At a later point of a run the scratch ends at what the point before left plus that point's contribution. -/
theorem scratch_step_t (c : Dev nD) (t : Fin cfg0.N) (hmod : ¬t.val % 8 = 0) :
    (outsAt0 m c t.val t.isLt).2 = k0_pay2 (F := Ideal) (iblk m c 0 t) (iblk m c 1 t) (iblk m c 2 t) (iblk m c 3 t)
      (outsAt0 m c (t.val - 1) (Nat.lt_of_le_of_lt (Nat.sub_le _ _) t.isLt)).2 :=
  (snd_of_eq_mk (outsAt0_B m c t hmod)).trans
    (sout_B (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => hmod ((hcond0_0 t).mp h)) (iblk m c 0 t) (iblk m c 1 t) (iblk m c 2 t) (iblk m c 3 t)
      (outsAt0 m c (t.val - 1) (Nat.lt_of_le_of_lt (Nat.sub_le _ _) t.isLt)).2)

/-- The zero block reads 0 at every index. -/
theorem pay1_at (i : S1280x1024.Idx) : k0_pay1 (F := Ideal) i = 0 := by
  obtain ⟨r, k, rfl⟩ : ∃ (r : Fin 1280) (k : Fin 1024), i = ix2 r k := ⟨i 0, i 1, eq_ix2 i⟩
  exact pay1_apply r k

/-- One point's step at an index: the accumulator's entry plus the point's contribution. -/
theorem step_at (c : Dev nD) (n : ℕ) (h : n < cfg0.N) (acc : Vec Ideal S1280x1024 .f32) (i : S1280x1024.Idx) :
    k0_pay2 (F := Ideal) (iblk m c 0 ⟨n, h⟩) (iblk m c 1 ⟨n, h⟩) (iblk m c 2 ⟨n, h⟩) (iblk m c 3 ⟨n, h⟩) acc i = acc i + pointTerm m c n i := by
  obtain ⟨r, k, rfl⟩ : ∃ (r : Fin 1280) (k : Fin 1024), i = ix2 r k := ⟨i 0, i 1, eq_ix2 i⟩
  refine (pay2_apply _ _ _ _ acc r k).trans ?_
  exact congrArg (acc (ix2 r k) + ·) (pointTerm_of_lt m c ⟨n, h⟩ r k).symm

/-- The carried scratch after point t: the sum of the contributions of the points of t's run so far. -/
theorem scratch_at (c : Dev nD) (t : Fin cfg0.N) (i : S1280x1024.Idx) :
    (outsAt0 m c t.val t.isLt).2 i = 0 + ∑ s ∈ Finset.range (t.val % 8 + 1), pointTerm m c (8 * (t.val / 8) + s) i := by
  have hN : cfg0.N = 128 := N_0
  have ht : t.val < cfg0.N := t.isLt
  have h' : 8 * (t.val / 8) + t.val % 8 < cfg0.N := by omega
  have e1 := Pipeline.eq_accAt_of_mod (N := cfg0.N) (fun n h => (outsAt0 m c n h).2) 8
    (fun n h => k0_pay2 (F := Ideal) (iblk m c 0 ⟨n, h⟩) (iblk m c 1 ⟨n, h⟩) (iblk m c 2 ⟨n, h⟩) (iblk m c 3 ⟨n, h⟩) (k0_pay1 (F := Ideal)))
    (fun n h acc => k0_pay2 (F := Ideal) (iblk m c 0 ⟨n, h⟩) (iblk m c 1 ⟨n, h⟩) (iblk m c 2 ⟨n, h⟩) (iblk m c 3 ⟨n, h⟩) acc)
    (fun n h hmod => scratch_reset_t m c ⟨n, h⟩ hmod)
    (fun n h hmod => scratch_step_t m c ⟨n + 1, h⟩ hmod)
    (by omega) t.val t.isLt h'
  refine (congrFun e1 i).trans ?_
  refine Pipeline.accAt_add_apply _ _ (fun _ => 0) (pointTerm m c) (8 * (t.val / 8)) 7 ?_ ?_ (t.val % 8) (by omega) h' i
  · intro h j
    refine (step_at m c _ h _ j).trans ?_
    exact congrArg (· + pointTerm m c (8 * (t.val / 8)) j) (pay1_at j)
  · intro n h acc j _ _
    exact step_at m c n h acc j

/-- The output block after point t is the copy of the scratch. -/
theorem out_at (c : Dev nD) (t : Fin cfg0.N) : (outsAt0 m c t.val t.isLt).1 = k0_pay3 (F := Ideal) (outsAt0 m c t.val t.isLt).2 := by
  by_cases h0 : t.val % 8 = 0
  · refine (fst_of_eq_mk (outsAt0_A m c t h0)).trans ?_
    refine (out_A (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) ((hcond0_0 t).mpr h0) (iblk m c 0 t) (iblk m c 1 t) (iblk m c 2 t) (iblk m c 3 t)).trans ?_
    exact congrArg (k0_pay3 (F := Ideal)) (scratch_reset_t m c t h0).symm
  · refine (fst_of_eq_mk (outsAt0_B m c t h0)).trans ?_
    refine (out_B (F := Ideal) c (grid0.coords t) (ms0_0 t) (hs0_0 t) (ms0_1 t) (hs0_1 t) (ms0_2 t) (hs0_2 t) (ms0_3 t) (hs0_3 t) (ms0_4 t) (hs0_4 t)
      scM0_0 (Memref.isWhole_whole _) (fun h => h0 ((hcond0_0 t).mp h)) (iblk m c 0 t) (iblk m c 1 t) (iblk m c 2 t) (iblk m c 3 t)
      (outsAt0 m c (t.val - 1) (Nat.lt_of_le_of_lt (Nat.sub_le _ _) t.isLt)).2).trans ?_
    exact congrArg (k0_pay3 (F := Ideal)) (scratch_step_t m c t h0).symm

end Cert.KernelIdeal.KV

end
-- ==== Proof.KFinal.lean ====
/-
  What the kernel's result array ends holding. The output block of (expert, slot tile) is written back once, after the
  last of the eight intermediate tiles (the points `t` with `t % 8 = 7`). What is written is the running sum in the
  scratch: zero plus the contributions of the eight points of the run, each the sum of `MoE.term` over its tile's 512
  columns; the eight tiles are the 4096 intermediate columns (`MoE.sum_tiles_range`), so the block is the block of
  `MoE.mid` of the token buffers and the weights. The sixteen written blocks tile the array.
-/
import proofs.«145350_j44805098832176_1_alg».proof.Proof.KTile
import proofs.«145350_j44805098832176_1_alg».proof.Proof.KAcc

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ)

/-- The gated MLP of every expert on its own slots, of the arrays as the region finds them. -/
def result (c : Dev nD) : MoE.SX.Idx → EReal := MoE.mid (X m c) (G m c) (D m c)

/-- Point `8·q + ii` of a run has the run's expert and slot tile, and intermediate tile `ii`. -/
theorem run_point (t : Fin cfg0.N) (ii : Fin 8) (hlt : 8 * (t.val / 8) + ii.val < cfg0.N) (r : Fin 1280) :
    pe ⟨8 * (t.val / 8) + ii.val, hlt⟩ = pe t ∧ prow ⟨8 * (t.val / 8) + ii.val, hlt⟩ r = prow t r
      ∧ ptile ⟨8 * (t.val / 8) + ii.val, hlt⟩ = ii := by
  have hi := ii.isLt
  refine ⟨Fin.ext ?_, Fin.ext ?_, Fin.ext ?_⟩
  · show (8 * (t.val / 8) + ii.val) / 16 = t.val / 16; omega
  · show 1280 * ((8 * (t.val / 8) + ii.val) / 8 % 2) + r.val = 1280 * (t.val / 8 % 2) + r.val; omega
  · show (8 * (t.val / 8) + ii.val) % 8 = ii.val; omega

/-- What a writing point writes back is its block of `result`. -/
theorem flushed_eq (c : Dev nD) (t : Fin cfg0.N) (hf : (cfg0.win 4).flush t = true) :
    (dats m 0 c).flushed 4 t = ((cfg0.win 4).blk t).view.read (Elt Ideal) (result m c) := by
  have h7 : t.val % 8 = 7 := (flush0_4 t).mp hf
  have hN : cfg0.N = 128 := N_0
  have ht := t.isLt
  obtain ⟨-, -, -, -, ⟨e0, e1, e2⟩⟩ := idx_facts t
  show (cfg0.win 4).cut (grid0.coords t) ((dats m 0 c).after 4 t) = _
  rw [after0_4, out_at]
  funext y
  obtain ⟨z, r, h, rfl⟩ : ∃ (z : Fin 1) (r : Fin 1280) (h : Fin 1024), y = ix3 z r h := ⟨y 0, y 1, y 2, eq_ix3 y⟩
  obtain rfl : z = 0 := Subsingleton.elim _ _
  rw [View.read_apply]
  show k0_pay3 (F := Ideal) (outsAt0 m c t.val t.isLt).2 (ix3 (0 : Fin 1) r h) = result m c (((cfg0.win 4).blk t).view.emb (ix3 (0 : Fin 1) r h))
  have hemb : ((cfg0.win 4).blk t).view.emb (ix3 (0 : Fin 1) r h) = ix3 (pe t) (prow t r) h := by
    funext a; apply Fin.ext
    match a with
    | ⟨0, _⟩ => show win0_4.index t (0 : Fin 3) * 1 + 1 * 0 = t.val / 16; omega
    | ⟨1, _⟩ => show win0_4.index t (1 : Fin 3) * 1280 + 1 * r.val = 1280 * (t.val / 8 % 2) + r.val; omega
    | ⟨2, _⟩ => show win0_4.index t (2 : Fin 3) * 1024 + 1 * h.val = h.val; omega
  rw [hemb, pay3_apply, scratch_at, show t.val % 8 + 1 = 8 from by omega, zero_add]
  unfold result
  rw [MoE.mid_apply]
  refine (MoE.sum_tiles_range _ (fun s => pointTerm m c (8 * (t.val / 8) + s) (ix2 r h)) fun ii => ?_).symm
  have hlt : 8 * (t.val / 8) + ii.val < cfg0.N := by have := ii.isLt; omega
  obtain ⟨p1, p2, p3⟩ := run_point t ii hlt r
  refine (pointTerm_of_lt m c ⟨8 * (t.val / 8) + ii.val, hlt⟩ r h).trans ((tile_eq m c ⟨_, hlt⟩ r h).trans ?_)
  rw [p1, p2, p3]

/-- An index of the result array is in point `t`'s block iff each coordinate is in the block's range. -/
theorem mem_blk (t : Fin cfg0.N) (i : S8x2560x1024.Idx) :
    i ∈ ((cfg0.win 4).blk t).view.set ↔ ∀ a : Fin 3, win0_4.index t a * S1x1280x1024.size a ≤ (i a).val
      ∧ (i a).val < win0_4.index t a * S1x1280x1024.size a + S1x1280x1024.size a := by
  show i ∈ ((View.whole main_v38).slice (win0_4.rect t)).set ↔ _
  rw [View.set_slice_whole, Rect.mem_set_unit]
  exact Iff.rfl

/-- Every index of the result array is in the block of the writing point of its expert and slot tile. -/
theorem cover (i : S8x2560x1024.Idx) :
    ∃ t : Fin cfg0.N, (cfg0.win 4).flush t = true ∧ i ∈ ((cfg0.win 4).blk t).view.set := by
  have hN : cfg0.N = 128 := N_0
  have h0 : (i 0).val < 8 := (i 0).isLt
  have h1 : (i 1).val < 2560 := (i 1).isLt
  have h2 : (i 2).val < 1024 := (i 2).isLt
  have hlt : 16 * (i 0).val + 8 * ((i 1).val / 1280) + 7 < cfg0.N := by omega
  obtain ⟨-, -, -, -, ⟨e0, e1, e2⟩⟩ := idx_facts ⟨16 * (i 0).val + 8 * ((i 1).val / 1280) + 7, hlt⟩
  refine ⟨⟨16 * (i 0).val + 8 * ((i 1).val / 1280) + 7, hlt⟩, (flush0_4 _).mpr (by show (16 * (i 0).val + 8 * ((i 1).val / 1280) + 7) % 8 = 7; omega), ?_⟩
  rw [mem_blk]
  have v : (⟨16 * (i 0).val + 8 * ((i 1).val / 1280) + 7, hlt⟩ : Fin cfg0.N).val = 16 * (i 0).val + 8 * ((i 1).val / 1280) + 7 := rfl
  intro a
  match a with
  | ⟨0, _⟩ =>
    show win0_4.index _ (0 : Fin 3) * 1 ≤ (i 0).val ∧ (i 0).val < win0_4.index _ (0 : Fin 3) * 1 + 1
    rw [e0, v]; omega
  | ⟨1, _⟩ =>
    show win0_4.index _ (1 : Fin 3) * 1280 ≤ (i 1).val ∧ (i 1).val < win0_4.index _ (1 : Fin 3) * 1280 + 1280
    rw [e1, v]; omega
  | ⟨2, _⟩ =>
    show win0_4.index _ (2 : Fin 3) * 1024 ≤ (i 2).val ∧ (i 2).val < win0_4.index _ (2 : Fin 3) * 1024 + 1024
    rw [e2]; omega

/-- The result array after the region: the gated MLP of the token buffers and the weights. -/
theorem final (c : Dev nD) : (dats m 0 c).arrAt 4 cfg0.N = result m c :=
  (dats m 0 c).arrAt_eq_of_cover 4 (result m c) (flushed_eq m c) cover

end Cert.KernelIdeal.KV

end
-- ==== Proof.KRun.lean ====
/-
  The kernel program's run, read. After the region the program applies the combine to the region's result array;
  the frame run states every buffer the combine leaves as the fold of those operations over the contents at the
  region's exit: the windows' arrays at what the region left (the result array at `result`), every other buffer at
  what it held when the region was entered.
-/
import proofs.«145350_j44805098832176_1_alg».proof.Proof.KFinal

noncomputable section

open Idealize.ShloMosaic Idealize.ShloMosaic.TcCoe Idealize.SL.Sem Idealize.ShloMosaic.ValueIdx
open Idealize.ShloMosaic.Pipeline (Dat)

namespace Cert.KernelIdeal.KV

open Cert.KernelIdeal Cert.KernelIdeal.Gen

variable (m : (ℓ : Loc nD τ sig) → Buf (Elt Ideal) ℓ) (ρ : Dev nD → PrngReg)

/-- The buffer contents at the region's exit: the windows' arrays as the region left them, the rest as it found them. -/
def exitVal (c : Dev nD) : Valuation τ sig (Elt Ideal) :=
  Pipeline.withArrays spec0 c (V0 m c) fun w => (dats m 0 c).arrAt w cfg0.N

/-- What the kernel program's result buffer ends holding: the combine over the exit contents. -/
def kOut (c : Dev nD) : Buf (Elt Ideal) ((c.tc : Thread nD τ).loc main_v60) :=
  StableHlo.after (List.flatten [hostOps1, hostOps1_1, hostOps1_2]) (exitVal m c) (Proc.devRef .tc main_v60)

/-- At the exit the result array holds the gated MLP of the token buffers and the weights. -/
theorem exit_v38 (c : Dev nD) : exitVal m c (Proc.devRef .tc main_v38) = result m c :=
  (Pipeline.withArrays_arr spec0 launch0.win.arr_inj c _ _ 4).trans (final m c)

/-- A buffer that is no window's array holds at the exit what it held at the entry. -/
theorem exit_of_ne (c : Dev nD) (b : Ref sig .tc) (hb : ∀ w, Pipeline.arrRef spec0 w ≠ b) :
    exitVal m c (Proc.devRef .tc b) = V0 m c (Proc.devRef .tc b) :=
  Pipeline.withArrays_of_ne spec0 c (V0 m c) _ b hb

/-- Every execution of the kernel program terminates with its result buffer at `kOut` and its arguments unchanged. -/
theorem kernel_run : θ_run defs (onTc (τ := τ) (main (F := Ideal))) ⟨m, fun _ => 0, ρ⟩ (fun r => ∀ c : Dev nD,
      r.2.mem ((c.tc : Thread nD τ).loc main_v60) = kOut m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c =>
    ⟨(h c).2 main_v60 (Pipeline.mem_restRefs_of main_v60 (by decide) (by decide)),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KV

end
-- ==== Proof.RefRun.lean ====
/-
  The reference program's @main as ONE straight line of StableHLO operations, and its run read back.

  @main calls seven module-local functions (the one-hot, the running count — itself a call —, three gathers along
  the expert axis, a selection, silu). A call executes the callee's body on the call's buffers, so the line lists each
  callee's operations in place of the call, over that call's record of buffers, in program order. The line is cut at
  the per-expert token buffers %31 and at the second batched product %37: before them the dispatch, between them the
  gated MLP, after them the combine. Every weakly fair execution of @main terminates with every buffer at the fold
  of the line's operations over the launch contents (`run_all`).
-/
import proofs.«145350_j44805098832176_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- %0 … %11: the reshape of the tokens, the one-hot of the expert choices (six operations), its sum over the two choices, the running count down the tokens (three operations), and the position arithmetic up to the zero-based slot %11. -/
abbrev pre0 : List (HloOp τ sig (Elt F)) :=
  [ StableHlo.reshape main_arg0 main_v0 rfl shapeCasts_S2048x4x1024_S8192x1024,
    StableHlo.TRef.unary (.of main_arg2 : StableHlo.TRef sig ⟨S8192x2, .i32⟩) (.of main_call0_v0 : StableHlo.TRef sig ⟨S8192x2x1, .i32⟩) (broadcastInDim S8192x2x1 ![0, 1] bcast_S8192x2_S8192x2x1_0_1),
    StableHlo.TRef.nullary (.of main_call0_v1 : StableHlo.TRef sig ⟨S1x1x8, .i32⟩) (iotaInDim S1x1x8 32 2),
    StableHlo.TRef.unary (.of main_call0_v0 : StableHlo.TRef sig ⟨S8192x2x1, .i32⟩) (.of main_call0_v2 : StableHlo.TRef sig ⟨S8192x2x8, .i32⟩) (broadcastInDim S8192x2x8 ![0, 1, 2] bcast_S8192x2x1_S8192x2x8_0_1_2),
    StableHlo.TRef.unary (.of main_call0_v1 : StableHlo.TRef sig ⟨S1x1x8, .i32⟩) (.of main_call0_v3 : StableHlo.TRef sig ⟨S8192x2x8, .i32⟩) (broadcastInDim S8192x2x8 ![0, 1, 2] bcast_S1x1x8_S8192x2x8_0_1_2),
    StableHlo.TRef.binary (.of main_call0_v2 : StableHlo.TRef sig ⟨S8192x2x8, .i32⟩) (.of main_call0_v3 : StableHlo.TRef sig ⟨S8192x2x8, .i32⟩) (.of main_call0_v4 : StableHlo.TRef sig ⟨S8192x2x8, .i1⟩) (cmpi .eq),
    StableHlo.TRef.unary (.of main_call0_v4 : StableHlo.TRef sig ⟨S8192x2x8, .i1⟩) (.of main_v1 : StableHlo.TRef sig ⟨S8192x2x8, .i32⟩) (extui 32 · natLt_1_32),
    StableHlo.nullary main_c (constantI S_ 32 0#32),
    StableHlo.binary main_v1 main_c main_v2 ((fun x v => Host.reduce IntOp.addi x v reducesTo_S8192x2x8_S8192x8_d1 h_S_) : (⟨S8192x2x8, .i32⟩ : BufTy).Contents (Elt F) → (⟨S_, .i32⟩ : BufTy).Contents (Elt F) → (⟨S8192x8, .i32⟩ : BufTy).Contents (Elt F)),
    StableHlo.TRef.nullary (.of main_call1_call0_c : StableHlo.TRef sig ⟨S_, .i32⟩) (constantI S_ 32 0#32),
    StableHlo.TRef.unary (.of main_call1_call0_c : StableHlo.TRef sig ⟨S_, .i32⟩) (.of main_call1_call0_v0 : StableHlo.TRef sig ⟨S_, .i32⟩) (broadcastInDim S_ ![] bcast_S_S_),
    StableHlo.TRef.binary (.of main_v2 : StableHlo.TRef sig ⟨S8192x8, .i32⟩) (.of main_call1_call0_v0 : StableHlo.TRef sig ⟨S_, .i32⟩) (.of main_v3 : StableHlo.TRef sig ⟨S8192x8, .i32⟩) (fun x v => Host.reduceWindow IntOp.addi ![8192, 1] ![1, 1] ![8191, 0] ![0, 0] x v reduceWindows_S8192x8_S8192x8_w8192s1p8191_0_w1s1p0_0 h_S_),
    StableHlo.binary main_v3 main_v2 main_v4 (muli : (⟨S8192x8, .i32⟩ : BufTy).Contents (Elt F) → (⟨S8192x8, .i32⟩ : BufTy).Contents (Elt F) → (⟨S8192x8, .i32⟩ : BufTy).Contents (Elt F)),
    StableHlo.nullary main_c_0 (constantI S_ 32 0#32),
    StableHlo.unary main_c_0 main_v5 (broadcastInDim S8192x8 ![] bcast_S_S8192x8 : (⟨S_, .i32⟩ : BufTy).Contents (Elt F) → (⟨S8192x8, .i32⟩ : BufTy).Contents (Elt F)),
    StableHlo.binary main_v2 main_v5 main_v6 (cmpi .sgt : (⟨S8192x8, .i32⟩ : BufTy).Contents (Elt F) → (⟨S8192x8, .i32⟩ : BufTy).Contents (Elt F) → (⟨S8192x8, .i1⟩ : BufTy).Contents (Elt F)),
    StableHlo.nullary main_c_1 (constantI S_ 32 2560#32),
    StableHlo.unary main_c_1 main_v7 (broadcastInDim S8192x8 ![] bcast_S_S8192x8 : (⟨S_, .i32⟩ : BufTy).Contents (Elt F) → (⟨S8192x8, .i32⟩ : BufTy).Contents (Elt F)),
    StableHlo.binary main_v4 main_v7 main_v8 (cmpi .sle : (⟨S8192x8, .i32⟩ : BufTy).Contents (Elt F) → (⟨S8192x8, .i32⟩ : BufTy).Contents (Elt F) → (⟨S8192x8, .i1⟩ : BufTy).Contents (Elt F)),
    StableHlo.binary main_v6 main_v8 main_v9 (andi : (⟨S8192x8, .i1⟩ : BufTy).Contents (Elt F) → (⟨S8192x8, .i1⟩ : BufTy).Contents (Elt F) → (⟨S8192x8, .i1⟩ : BufTy).Contents (Elt F)),
    StableHlo.nullary main_c_2 (constantI S_ 32 1#32),
    StableHlo.unary main_c_2 main_v10 (broadcastInDim S8192x8 ![] bcast_S_S8192x8 : (⟨S_, .i32⟩ : BufTy).Contents (Elt F) → (⟨S8192x8, .i32⟩ : BufTy).Contents (Elt F)),
    StableHlo.binary main_v4 main_v10 main_v11 (subi : (⟨S8192x8, .i32⟩ : BufTy).Contents (Elt F) → (⟨S8192x8, .i32⟩ : BufTy).Contents (Elt F) → (⟨S8192x8, .i32⟩ : BufTy).Contents (Elt F)) ]

/-- %12: the slot of each (token, choice) gathered along the expert axis (twenty-two operations over the buffers of this call). -/
abbrev pre1 : List (HloOp τ sig (Elt F)) :=
  [ StableHlo.TRef.nullary (.of main_call2_c : StableHlo.TRef sig ⟨S_, .i32⟩) (constantI S_ 32 0#32),
    StableHlo.TRef.unary (.of main_call2_c : StableHlo.TRef sig ⟨S_, .i32⟩) (.of main_call2_v0 : StableHlo.TRef sig ⟨S8192x2, .i32⟩) (broadcastInDim S8192x2 ![] bcast_S_S8192x2),
    StableHlo.TRef.binary (.of main_arg2 : StableHlo.TRef sig ⟨S8192x2, .i32⟩) (.of main_call2_v0 : StableHlo.TRef sig ⟨S8192x2, .i32⟩) (.of main_call2_v1 : StableHlo.TRef sig ⟨S8192x2, .i1⟩) (cmpi .slt),
    StableHlo.TRef.nullary (.of main_call2_c_0 : StableHlo.TRef sig ⟨S_, .i32⟩) (constantI S_ 32 8#32),
    StableHlo.TRef.unary (.of main_call2_c_0 : StableHlo.TRef sig ⟨S_, .i32⟩) (.of main_call2_v2 : StableHlo.TRef sig ⟨S8192x2, .i32⟩) (broadcastInDim S8192x2 ![] bcast_S_S8192x2),
    StableHlo.TRef.binary (.of main_arg2 : StableHlo.TRef sig ⟨S8192x2, .i32⟩) (.of main_call2_v2 : StableHlo.TRef sig ⟨S8192x2, .i32⟩) (.of main_call2_v3 : StableHlo.TRef sig ⟨S8192x2, .i32⟩) addi,
    StableHlo.TRef.ternary (.of main_call2_v1 : StableHlo.TRef sig ⟨S8192x2, .i1⟩) (.of main_call2_v3 : StableHlo.TRef sig ⟨S8192x2, .i32⟩) (.of main_arg2 : StableHlo.TRef sig ⟨S8192x2, .i32⟩) (.of main_call2_v4 : StableHlo.TRef sig ⟨S8192x2, .i32⟩) select,
    StableHlo.TRef.reshape (.of main_call2_v4 : StableHlo.TRef sig ⟨S8192x2, .i32⟩) (.of main_call2_v5 : StableHlo.TRef sig ⟨S8192x2x1, .i32⟩) rfl shapeCasts_S8192x2_S8192x2x1,
    StableHlo.TRef.nullary (.of main_call2_c_1 : StableHlo.TRef sig ⟨S1, .i32⟩) (constantI S1 32 7#32),
    StableHlo.TRef.nullary (.of main_call2_c_2 : StableHlo.TRef sig ⟨S_, .i32⟩) (constantI S_ 32 0#32),
    StableHlo.TRef.unary (.of main_call2_c_2 : StableHlo.TRef sig ⟨S_, .i32⟩) (.of main_call2_v6 : StableHlo.TRef sig ⟨S8192x2x1, .i32⟩) (broadcastInDim S8192x2x1 ![] bcast_S_S8192x2x1),
    StableHlo.TRef.binary (.of main_call2_v5 : StableHlo.TRef sig ⟨S8192x2x1, .i32⟩) (.of main_call2_v6 : StableHlo.TRef sig ⟨S8192x2x1, .i32⟩) (.of main_call2_v7 : StableHlo.TRef sig ⟨S8192x2x1, .i1⟩) (cmpi .sge),
    StableHlo.TRef.unary (.of main_call2_c_1 : StableHlo.TRef sig ⟨S1, .i32⟩) (.of main_call2_v8 : StableHlo.TRef sig ⟨S1x1x1, .i32⟩) (broadcastInDim S1x1x1 ![2] bcast_S1_S1x1x1_2),
    StableHlo.TRef.unary (.of main_call2_v8 : StableHlo.TRef sig ⟨S1x1x1, .i32⟩) (.of main_call2_v9 : StableHlo.TRef sig ⟨S8192x2x1, .i32⟩) (broadcastInDim S8192x2x1 ![0, 1, 2] bcast_S1x1x1_S8192x2x1_0_1_2),
    StableHlo.TRef.binary (.of main_call2_v5 : StableHlo.TRef sig ⟨S8192x2x1, .i32⟩) (.of main_call2_v9 : StableHlo.TRef sig ⟨S8192x2x1, .i32⟩) (.of main_call2_v10 : StableHlo.TRef sig ⟨S8192x2x1, .i1⟩) (cmpi .sle),
    StableHlo.TRef.binary (.of main_call2_v7 : StableHlo.TRef sig ⟨S8192x2x1, .i1⟩) (.of main_call2_v10 : StableHlo.TRef sig ⟨S8192x2x1, .i1⟩) (.of main_call2_v11 : StableHlo.TRef sig ⟨S8192x2x1, .i1⟩) andi,
    StableHlo.TRef.nullary (.of main_call2_c_3 : StableHlo.TRef sig ⟨S_, .i1⟩) (constantI S_ 1 1#1),
    StableHlo.TRef.binary (.of main_call2_v11 : StableHlo.TRef sig ⟨S8192x2x1, .i1⟩) (.of main_call2_c_3 : StableHlo.TRef sig ⟨S_, .i1⟩) (.of main_call2_v12 : StableHlo.TRef sig ⟨S8192x2, .i1⟩) (fun x v => Host.reduce IntOp.andi x v reducesTo_S8192x2x1_S8192x2_d2 h_S_),
    StableHlo.TRef.binary (.of main_v11 : StableHlo.TRef sig ⟨S8192x8, .i32⟩) (.of main_call2_v5 : StableHlo.TRef sig ⟨S8192x2x1, .i32⟩) (.of main_call2_v13 : StableHlo.TRef sig ⟨S8192x2, .i32⟩) (fun x i => Host.gather gather_S8192x8_S8192x2x1_S8192x2_n_1_0_0_1_2_11 x i),
    StableHlo.TRef.nullary (.of main_call2_c_4 : StableHlo.TRef sig ⟨S_, .i32⟩) (constantI S_ 32 2147483648#32),
    StableHlo.TRef.unary (.of main_call2_c_4 : StableHlo.TRef sig ⟨S_, .i32⟩) (.of main_call2_v14 : StableHlo.TRef sig ⟨S8192x2, .i32⟩) (broadcastInDim S8192x2 ![] bcast_S_S8192x2),
    StableHlo.TRef.ternary (.of main_call2_v12 : StableHlo.TRef sig ⟨S8192x2, .i1⟩) (.of main_call2_v13 : StableHlo.TRef sig ⟨S8192x2, .i32⟩) (.of main_call2_v14 : StableHlo.TRef sig ⟨S8192x2, .i32⟩) (.of main_v12 : StableHlo.TRef sig ⟨S8192x2, .i32⟩) select ]

/-- %13: the keep flag of each (token, choice) gathered along the expert axis (twenty-two operations over the buffers of this call). -/
abbrev pre2 : List (HloOp τ sig (Elt F)) :=
  [ StableHlo.TRef.nullary (.of main_call3_c : StableHlo.TRef sig ⟨S_, .i32⟩) (constantI S_ 32 0#32),
    StableHlo.TRef.unary (.of main_call3_c : StableHlo.TRef sig ⟨S_, .i32⟩) (.of main_call3_v0 : StableHlo.TRef sig ⟨S8192x2, .i32⟩) (broadcastInDim S8192x2 ![] bcast_S_S8192x2),
    StableHlo.TRef.binary (.of main_arg2 : StableHlo.TRef sig ⟨S8192x2, .i32⟩) (.of main_call3_v0 : StableHlo.TRef sig ⟨S8192x2, .i32⟩) (.of main_call3_v1 : StableHlo.TRef sig ⟨S8192x2, .i1⟩) (cmpi .slt),
    StableHlo.TRef.nullary (.of main_call3_c_0 : StableHlo.TRef sig ⟨S_, .i32⟩) (constantI S_ 32 8#32),
    StableHlo.TRef.unary (.of main_call3_c_0 : StableHlo.TRef sig ⟨S_, .i32⟩) (.of main_call3_v2 : StableHlo.TRef sig ⟨S8192x2, .i32⟩) (broadcastInDim S8192x2 ![] bcast_S_S8192x2),
    StableHlo.TRef.binary (.of main_arg2 : StableHlo.TRef sig ⟨S8192x2, .i32⟩) (.of main_call3_v2 : StableHlo.TRef sig ⟨S8192x2, .i32⟩) (.of main_call3_v3 : StableHlo.TRef sig ⟨S8192x2, .i32⟩) addi,
    StableHlo.TRef.ternary (.of main_call3_v1 : StableHlo.TRef sig ⟨S8192x2, .i1⟩) (.of main_call3_v3 : StableHlo.TRef sig ⟨S8192x2, .i32⟩) (.of main_arg2 : StableHlo.TRef sig ⟨S8192x2, .i32⟩) (.of main_call3_v4 : StableHlo.TRef sig ⟨S8192x2, .i32⟩) select,
    StableHlo.TRef.reshape (.of main_call3_v4 : StableHlo.TRef sig ⟨S8192x2, .i32⟩) (.of main_call3_v5 : StableHlo.TRef sig ⟨S8192x2x1, .i32⟩) rfl shapeCasts_S8192x2_S8192x2x1,
    StableHlo.TRef.nullary (.of main_call3_c_1 : StableHlo.TRef sig ⟨S1, .i32⟩) (constantI S1 32 7#32),
    StableHlo.TRef.nullary (.of main_call3_c_2 : StableHlo.TRef sig ⟨S_, .i32⟩) (constantI S_ 32 0#32),
    StableHlo.TRef.unary (.of main_call3_c_2 : StableHlo.TRef sig ⟨S_, .i32⟩) (.of main_call3_v6 : StableHlo.TRef sig ⟨S8192x2x1, .i32⟩) (broadcastInDim S8192x2x1 ![] bcast_S_S8192x2x1),
    StableHlo.TRef.binary (.of main_call3_v5 : StableHlo.TRef sig ⟨S8192x2x1, .i32⟩) (.of main_call3_v6 : StableHlo.TRef sig ⟨S8192x2x1, .i32⟩) (.of main_call3_v7 : StableHlo.TRef sig ⟨S8192x2x1, .i1⟩) (cmpi .sge),
    StableHlo.TRef.unary (.of main_call3_c_1 : StableHlo.TRef sig ⟨S1, .i32⟩) (.of main_call3_v8 : StableHlo.TRef sig ⟨S1x1x1, .i32⟩) (broadcastInDim S1x1x1 ![2] bcast_S1_S1x1x1_2),
    StableHlo.TRef.unary (.of main_call3_v8 : StableHlo.TRef sig ⟨S1x1x1, .i32⟩) (.of main_call3_v9 : StableHlo.TRef sig ⟨S8192x2x1, .i32⟩) (broadcastInDim S8192x2x1 ![0, 1, 2] bcast_S1x1x1_S8192x2x1_0_1_2),
    StableHlo.TRef.binary (.of main_call3_v5 : StableHlo.TRef sig ⟨S8192x2x1, .i32⟩) (.of main_call3_v9 : StableHlo.TRef sig ⟨S8192x2x1, .i32⟩) (.of main_call3_v10 : StableHlo.TRef sig ⟨S8192x2x1, .i1⟩) (cmpi .sle),
    StableHlo.TRef.binary (.of main_call3_v7 : StableHlo.TRef sig ⟨S8192x2x1, .i1⟩) (.of main_call3_v10 : StableHlo.TRef sig ⟨S8192x2x1, .i1⟩) (.of main_call3_v11 : StableHlo.TRef sig ⟨S8192x2x1, .i1⟩) andi,
    StableHlo.TRef.nullary (.of main_call3_c_3 : StableHlo.TRef sig ⟨S_, .i1⟩) (constantI S_ 1 1#1),
    StableHlo.TRef.binary (.of main_call3_v11 : StableHlo.TRef sig ⟨S8192x2x1, .i1⟩) (.of main_call3_c_3 : StableHlo.TRef sig ⟨S_, .i1⟩) (.of main_call3_v12 : StableHlo.TRef sig ⟨S8192x2, .i1⟩) (fun x v => Host.reduce IntOp.andi x v reducesTo_S8192x2x1_S8192x2_d2 h_S_),
    StableHlo.TRef.binary (.of main_v9 : StableHlo.TRef sig ⟨S8192x8, .i1⟩) (.of main_call3_v5 : StableHlo.TRef sig ⟨S8192x2x1, .i32⟩) (.of main_call3_v13 : StableHlo.TRef sig ⟨S8192x2, .i1⟩) (fun x i => Host.gather gather_S8192x8_S8192x2x1_S8192x2_n_1_0_0_1_2_11 x i),
    StableHlo.TRef.nullary (.of main_call3_c_4 : StableHlo.TRef sig ⟨S_, .i1⟩) (constantI S_ 1 1#1),
    StableHlo.TRef.unary (.of main_call3_c_4 : StableHlo.TRef sig ⟨S_, .i1⟩) (.of main_call3_v14 : StableHlo.TRef sig ⟨S8192x2, .i1⟩) (broadcastInDim S8192x2 ![] bcast_S_S8192x2),
    StableHlo.TRef.ternary (.of main_call3_v12 : StableHlo.TRef sig ⟨S8192x2, .i1⟩) (.of main_call3_v13 : StableHlo.TRef sig ⟨S8192x2, .i1⟩) (.of main_call3_v14 : StableHlo.TRef sig ⟨S8192x2, .i1⟩) (.of main_v13 : StableHlo.TRef sig ⟨S8192x2, .i1⟩) select ]

/-- %14 … %31: the flat destination row expert·2560 + slot, the overflow row 20480 where dropped (three operations of the selection), the tokens doubled per choice, the scatter-add into 20481 zero rows, its first 20480 rows, and those as [8, 2560, 1024]. -/
abbrev pre3 : List (HloOp τ sig (Elt F)) :=
  [ StableHlo.nullary main_c_3 (constantI S_ 32 2560#32),
    StableHlo.unary main_c_3 main_v14 (broadcastInDim S8192x2 ![] bcast_S_S8192x2 : (⟨S_, .i32⟩ : BufTy).Contents (Elt F) → (⟨S8192x2, .i32⟩ : BufTy).Contents (Elt F)),
    StableHlo.binary main_arg2 main_v14 main_v15 (muli : (⟨S8192x2, .i32⟩ : BufTy).Contents (Elt F) → (⟨S8192x2, .i32⟩ : BufTy).Contents (Elt F) → (⟨S8192x2, .i32⟩ : BufTy).Contents (Elt F)),
    StableHlo.binary main_v15 main_v12 main_v16 (addi : (⟨S8192x2, .i32⟩ : BufTy).Contents (Elt F) → (⟨S8192x2, .i32⟩ : BufTy).Contents (Elt F) → (⟨S8192x2, .i32⟩ : BufTy).Contents (Elt F)),
    StableHlo.nullary main_c_4 (constantI S_ 32 20480#32),
    StableHlo.TRef.unary (.of main_c_4 : StableHlo.TRef sig ⟨S_, .i32⟩) (.of main_call4_v0 : StableHlo.TRef sig ⟨S_, .i32⟩) id,
    StableHlo.TRef.unary (.of main_call4_v0 : StableHlo.TRef sig ⟨S_, .i32⟩) (.of main_call4_v1 : StableHlo.TRef sig ⟨S8192x2, .i32⟩) (broadcastInDim S8192x2 ![] bcast_S_S8192x2),
    StableHlo.TRef.ternary (.of main_v13 : StableHlo.TRef sig ⟨S8192x2, .i1⟩) (.of main_v16 : StableHlo.TRef sig ⟨S8192x2, .i32⟩) (.of main_call4_v1 : StableHlo.TRef sig ⟨S8192x2, .i32⟩) (.of main_v17 : StableHlo.TRef sig ⟨S8192x2, .i32⟩) select,
    StableHlo.unary main_v0 main_v18 (broadcastInDim S8192x1x1024 ![0, 2] bcast_S8192x1024_S8192x1x1024_0_2 : (⟨S8192x1024, .f32⟩ : BufTy).Contents (Elt F) → (⟨S8192x1x1024, .f32⟩ : BufTy).Contents (Elt F)),
    StableHlo.unary main_v18 main_v19 (broadcastInDim S8192x2x1024 ![0, 1, 2] bcast_S8192x1x1024_S8192x2x1024_0_1_2 : (⟨S8192x1x1024, .f32⟩ : BufTy).Contents (Elt F) → (⟨S8192x2x1024, .f32⟩ : BufTy).Contents (Elt F)),
    StableHlo.reshape main_v19 main_v20 rfl shapeCasts_S8192x2x1024_S16384x1024,
    StableHlo.nullary main_cst (constant S_ .f32 0x00000000#32),
    StableHlo.unary main_cst main_v21 (broadcastInDim S20481x1024 ![] bcast_S_S20481x1024 : (⟨S_, .f32⟩ : BufTy).Contents (Elt F) → (⟨S20481x1024, .f32⟩ : BufTy).Contents (Elt F)),
    StableHlo.reshape main_v17 main_v22 rfl shapeCasts_S8192x2_S16384,
    StableHlo.nullary main_c_5 (constantI S_ 32 0#32),
    StableHlo.unary main_c_5 main_v23 (broadcastInDim S16384 ![] bcast_S_S16384 : (⟨S_, .i32⟩ : BufTy).Contents (Elt F) → (⟨S16384, .i32⟩ : BufTy).Contents (Elt F)),
    StableHlo.binary main_v22 main_v23 main_v24 (cmpi .slt : (⟨S16384, .i32⟩ : BufTy).Contents (Elt F) → (⟨S16384, .i32⟩ : BufTy).Contents (Elt F) → (⟨S16384, .i1⟩ : BufTy).Contents (Elt F)),
    StableHlo.nullary main_c_6 (constantI S_ 32 20481#32),
    StableHlo.unary main_c_6 main_v25 (broadcastInDim S16384 ![] bcast_S_S16384 : (⟨S_, .i32⟩ : BufTy).Contents (Elt F) → (⟨S16384, .i32⟩ : BufTy).Contents (Elt F)),
    StableHlo.binary main_v22 main_v25 main_v26 (addi : (⟨S16384, .i32⟩ : BufTy).Contents (Elt F) → (⟨S16384, .i32⟩ : BufTy).Contents (Elt F) → (⟨S16384, .i32⟩ : BufTy).Contents (Elt F)),
    StableHlo.ternary main_v24 main_v26 main_v22 main_v27 (select : (⟨S16384, .i1⟩ : BufTy).Contents (Elt F) → (⟨S16384, .i32⟩ : BufTy).Contents (Elt F) → (⟨S16384, .i32⟩ : BufTy).Contents (Elt F) → (⟨S16384, .i32⟩ : BufTy).Contents (Elt F)),
    StableHlo.unary main_v27 main_v28 (broadcastInDim S16384x1 ![0] bcast_S16384_S16384x1_0 : (⟨S16384, .i32⟩ : BufTy).Contents (Elt F) → (⟨S16384x1, .i32⟩ : BufTy).Contents (Elt F)),
    StableHlo.ternary main_v21 main_v28 main_v20 main_v29 ((fun x i u => Host.scatterAdd scatter_S20481x1024_S16384x1_S16384x1024_1_0_0_1 x i u) : (⟨S20481x1024, .f32⟩ : BufTy).Contents (Elt F) → (⟨S16384x1, .i32⟩ : BufTy).Contents (Elt F) → (⟨S16384x1024, .f32⟩ : BufTy).Contents (Elt F) → (⟨S20481x1024, .f32⟩ : BufTy).Contents (Elt F)),
    StableHlo.unary main_v29 main_v30 ((extractStridedSlice S20480x1024 ![0, 0] · slices_S20481x1024_S20480x1024_0_0) : (⟨S20481x1024, .f32⟩ : BufTy).Contents (Elt F) → (⟨S20480x1024, .f32⟩ : BufTy).Contents (Elt F)),
    StableHlo.reshape main_v30 main_v31 rfl shapeCasts_S20480x1024_S8x2560x1024 ]

/-- @main's operations up to and including %31 (the per-expert token buffers, main_v31), every call inlined, in program order. -/
abbrev opsPre : List (HloOp τ sig (Elt F)) := pre0 ++ pre1 ++ pre2 ++ pre3

/-- %32 … %37: the two batched products, the two slices, silu's nine operations (record main_call5, result main_v35), the product %36. -/
abbrev opsMid : List (HloOp τ sig (Elt F)) :=
  [ StableHlo.binary main_v31 main_arg3 main_v32 ((fun l r => Host.dotGeneral dot_S8x2560x1024_S8x1024x8192_S8x2560x8192_2_1_1_2_0_0 none l r) : (⟨S8x2560x1024, .f32⟩ : BufTy).Contents (Elt F) → (⟨S8x1024x8192, .f32⟩ : BufTy).Contents (Elt F) → (⟨S8x2560x8192, .f32⟩ : BufTy).Contents (Elt F)),
    StableHlo.unary main_v32 main_v33 ((extractStridedSlice S8x2560x4096 ![0, 0, 0] · slices_S8x2560x8192_S8x2560x4096_0_0_0) : (⟨S8x2560x8192, .f32⟩ : BufTy).Contents (Elt F) → (⟨S8x2560x4096, .f32⟩ : BufTy).Contents (Elt F)),
    StableHlo.unary main_v32 main_v34 ((extractStridedSlice S8x2560x4096 ![0, 0, 4096] · slices_S8x2560x8192_S8x2560x4096_0_0_4096) : (⟨S8x2560x8192, .f32⟩ : BufTy).Contents (Elt F) → (⟨S8x2560x4096, .f32⟩ : BufTy).Contents (Elt F)),
    StableHlo.TRef.unary (.of main_v33 : StableHlo.TRef sig ⟨S8x2560x4096, .f32⟩) (.of main_call5_v0 : StableHlo.TRef sig ⟨S8x2560x4096, .f32⟩) Host.negf,
    StableHlo.TRef.unary (.of main_call5_v0 : StableHlo.TRef sig ⟨S8x2560x4096, .f32⟩) (.of main_call5_v1 : StableHlo.TRef sig ⟨S8x2560x4096, .f32⟩) Host.exp,
    StableHlo.TRef.nullary (.of main_call5_cst : StableHlo.TRef sig ⟨S_, .f32⟩) (constant S_ .f32 0x3F800000#32),
    StableHlo.TRef.unary (.of main_call5_cst : StableHlo.TRef sig ⟨S_, .f32⟩) (.of main_call5_v2 : StableHlo.TRef sig ⟨S8x2560x4096, .f32⟩) (broadcastInDim S8x2560x4096 ![] bcast_S_S8x2560x4096),
    StableHlo.TRef.binary (.of main_call5_v2 : StableHlo.TRef sig ⟨S8x2560x4096, .f32⟩) (.of main_call5_v1 : StableHlo.TRef sig ⟨S8x2560x4096, .f32⟩) (.of main_call5_v3 : StableHlo.TRef sig ⟨S8x2560x4096, .f32⟩) addf,
    StableHlo.TRef.nullary (.of main_call5_cst_0 : StableHlo.TRef sig ⟨S_, .f32⟩) (constant S_ .f32 0x3F800000#32),
    StableHlo.TRef.unary (.of main_call5_cst_0 : StableHlo.TRef sig ⟨S_, .f32⟩) (.of main_call5_v4 : StableHlo.TRef sig ⟨S8x2560x4096, .f32⟩) (broadcastInDim S8x2560x4096 ![] bcast_S_S8x2560x4096),
    StableHlo.TRef.binary (.of main_call5_v4 : StableHlo.TRef sig ⟨S8x2560x4096, .f32⟩) (.of main_call5_v3 : StableHlo.TRef sig ⟨S8x2560x4096, .f32⟩) (.of main_call5_v5 : StableHlo.TRef sig ⟨S8x2560x4096, .f32⟩) Host.divf,
    StableHlo.TRef.binary (.of main_v33 : StableHlo.TRef sig ⟨S8x2560x4096, .f32⟩) (.of main_call5_v5 : StableHlo.TRef sig ⟨S8x2560x4096, .f32⟩) (.of main_v35 : StableHlo.TRef sig ⟨S8x2560x4096, .f32⟩) mulf,
    StableHlo.binary main_v35 main_v34 main_v36 (mulf : (⟨S8x2560x4096, .f32⟩ : BufTy).Contents (Elt F) → (⟨S8x2560x4096, .f32⟩ : BufTy).Contents (Elt F) → (⟨S8x2560x4096, .f32⟩ : BufTy).Contents (Elt F)),
    StableHlo.binary main_v36 main_arg4 main_v37 ((fun l r => Host.dotGeneral dot_S8x2560x4096_S8x4096x1024_S8x2560x1024_2_1_1_2_0_0 none l r) : (⟨S8x2560x4096, .f32⟩ : BufTy).Contents (Elt F) → (⟨S8x4096x1024, .f32⟩ : BufTy).Contents (Elt F) → (⟨S8x2560x1024, .f32⟩ : BufTy).Contents (Elt F)) ]

/-- %38 … %41: the expert outputs as 20480 rows, one zero row appended, and the routing weight of each (token, choice) gathered along the expert axis (twenty-two operations over the buffers of this call). -/
abbrev tail0 : List (HloOp τ sig (Elt F)) :=
  [ StableHlo.reshape main_v37 main_v38 rfl shapeCasts_S8x2560x1024_S20480x1024,
    StableHlo.nullary main_cst_7 (constant S_ .f32 0x00000000#32),
    StableHlo.unary main_cst_7 main_v39 (broadcastInDim S1x1024 ![] bcast_S_S1x1024 : (⟨S_, .f32⟩ : BufTy).Contents (Elt F) → (⟨S1x1024, .f32⟩ : BufTy).Contents (Elt F)),
    StableHlo.binary main_v38 main_v39 main_v40 ((fun a b => concatenate S20481x1024 0 [⟨S20480x1024, a⟩, ⟨S1x1024, b⟩] concatenates_S20480x1024_S1x1024_S20481x1024_d0) : (⟨S20480x1024, .f32⟩ : BufTy).Contents (Elt F) → (⟨S1x1024, .f32⟩ : BufTy).Contents (Elt F) → (⟨S20481x1024, .f32⟩ : BufTy).Contents (Elt F)),
    StableHlo.TRef.nullary (.of main_call6_c : StableHlo.TRef sig ⟨S_, .i32⟩) (constantI S_ 32 0#32),
    StableHlo.TRef.unary (.of main_call6_c : StableHlo.TRef sig ⟨S_, .i32⟩) (.of main_call6_v0 : StableHlo.TRef sig ⟨S8192x2, .i32⟩) (broadcastInDim S8192x2 ![] bcast_S_S8192x2),
    StableHlo.TRef.binary (.of main_arg2 : StableHlo.TRef sig ⟨S8192x2, .i32⟩) (.of main_call6_v0 : StableHlo.TRef sig ⟨S8192x2, .i32⟩) (.of main_call6_v1 : StableHlo.TRef sig ⟨S8192x2, .i1⟩) (cmpi .slt),
    StableHlo.TRef.nullary (.of main_call6_c_0 : StableHlo.TRef sig ⟨S_, .i32⟩) (constantI S_ 32 8#32),
    StableHlo.TRef.unary (.of main_call6_c_0 : StableHlo.TRef sig ⟨S_, .i32⟩) (.of main_call6_v2 : StableHlo.TRef sig ⟨S8192x2, .i32⟩) (broadcastInDim S8192x2 ![] bcast_S_S8192x2),
    StableHlo.TRef.binary (.of main_arg2 : StableHlo.TRef sig ⟨S8192x2, .i32⟩) (.of main_call6_v2 : StableHlo.TRef sig ⟨S8192x2, .i32⟩) (.of main_call6_v3 : StableHlo.TRef sig ⟨S8192x2, .i32⟩) addi,
    StableHlo.TRef.ternary (.of main_call6_v1 : StableHlo.TRef sig ⟨S8192x2, .i1⟩) (.of main_call6_v3 : StableHlo.TRef sig ⟨S8192x2, .i32⟩) (.of main_arg2 : StableHlo.TRef sig ⟨S8192x2, .i32⟩) (.of main_call6_v4 : StableHlo.TRef sig ⟨S8192x2, .i32⟩) select,
    StableHlo.TRef.reshape (.of main_call6_v4 : StableHlo.TRef sig ⟨S8192x2, .i32⟩) (.of main_call6_v5 : StableHlo.TRef sig ⟨S8192x2x1, .i32⟩) rfl shapeCasts_S8192x2_S8192x2x1,
    StableHlo.TRef.nullary (.of main_call6_c_1 : StableHlo.TRef sig ⟨S1, .i32⟩) (constantI S1 32 7#32),
    StableHlo.TRef.nullary (.of main_call6_c_2 : StableHlo.TRef sig ⟨S_, .i32⟩) (constantI S_ 32 0#32),
    StableHlo.TRef.unary (.of main_call6_c_2 : StableHlo.TRef sig ⟨S_, .i32⟩) (.of main_call6_v6 : StableHlo.TRef sig ⟨S8192x2x1, .i32⟩) (broadcastInDim S8192x2x1 ![] bcast_S_S8192x2x1),
    StableHlo.TRef.binary (.of main_call6_v5 : StableHlo.TRef sig ⟨S8192x2x1, .i32⟩) (.of main_call6_v6 : StableHlo.TRef sig ⟨S8192x2x1, .i32⟩) (.of main_call6_v7 : StableHlo.TRef sig ⟨S8192x2x1, .i1⟩) (cmpi .sge),
    StableHlo.TRef.unary (.of main_call6_c_1 : StableHlo.TRef sig ⟨S1, .i32⟩) (.of main_call6_v8 : StableHlo.TRef sig ⟨S1x1x1, .i32⟩) (broadcastInDim S1x1x1 ![2] bcast_S1_S1x1x1_2),
    StableHlo.TRef.unary (.of main_call6_v8 : StableHlo.TRef sig ⟨S1x1x1, .i32⟩) (.of main_call6_v9 : StableHlo.TRef sig ⟨S8192x2x1, .i32⟩) (broadcastInDim S8192x2x1 ![0, 1, 2] bcast_S1x1x1_S8192x2x1_0_1_2),
    StableHlo.TRef.binary (.of main_call6_v5 : StableHlo.TRef sig ⟨S8192x2x1, .i32⟩) (.of main_call6_v9 : StableHlo.TRef sig ⟨S8192x2x1, .i32⟩) (.of main_call6_v10 : StableHlo.TRef sig ⟨S8192x2x1, .i1⟩) (cmpi .sle),
    StableHlo.TRef.binary (.of main_call6_v7 : StableHlo.TRef sig ⟨S8192x2x1, .i1⟩) (.of main_call6_v10 : StableHlo.TRef sig ⟨S8192x2x1, .i1⟩) (.of main_call6_v11 : StableHlo.TRef sig ⟨S8192x2x1, .i1⟩) andi,
    StableHlo.TRef.nullary (.of main_call6_c_3 : StableHlo.TRef sig ⟨S_, .i1⟩) (constantI S_ 1 1#1),
    StableHlo.TRef.binary (.of main_call6_v11 : StableHlo.TRef sig ⟨S8192x2x1, .i1⟩) (.of main_call6_c_3 : StableHlo.TRef sig ⟨S_, .i1⟩) (.of main_call6_v12 : StableHlo.TRef sig ⟨S8192x2, .i1⟩) (fun x v => Host.reduce IntOp.andi x v reducesTo_S8192x2x1_S8192x2_d2 h_S_),
    StableHlo.TRef.binary (.of main_arg1 : StableHlo.TRef sig ⟨S8192x8, .f32⟩) (.of main_call6_v5 : StableHlo.TRef sig ⟨S8192x2x1, .i32⟩) (.of main_call6_v13 : StableHlo.TRef sig ⟨S8192x2, .f32⟩) (fun x i => Host.gather gather_S8192x8_S8192x2x1_S8192x2_n_1_0_0_1_2_11 x i),
    StableHlo.TRef.nullary (.of main_call6_cst : StableHlo.TRef sig ⟨S_, .f32⟩) (constant S_ .f32 0x7FC00000#32),
    StableHlo.TRef.unary (.of main_call6_cst : StableHlo.TRef sig ⟨S_, .f32⟩) (.of main_call6_v14 : StableHlo.TRef sig ⟨S8192x2, .f32⟩) (broadcastInDim S8192x2 ![] bcast_S_S8192x2),
    StableHlo.TRef.ternary (.of main_call6_v12 : StableHlo.TRef sig ⟨S8192x2, .i1⟩) (.of main_call6_v13 : StableHlo.TRef sig ⟨S8192x2, .f32⟩) (.of main_call6_v14 : StableHlo.TRef sig ⟨S8192x2, .f32⟩) (.of main_v41 : StableHlo.TRef sig ⟨S8192x2, .f32⟩) select ]

/-- %42 … %47 and the constant of %48: the weights' sum over the two choices, the weights divided by it, and masked by the keep flag. -/
abbrev tail1 : List (HloOp τ sig (Elt F)) :=
  [ StableHlo.nullary main_cst_8 (constant S_ .f32 0x00000000#32),
    StableHlo.binary main_v41 main_cst_8 main_v42 ((fun x v => Host.reduceAdd x v reducesTo_S8192x2_S8192_d1 h_S_) : (⟨S8192x2, .f32⟩ : BufTy).Contents (Elt F) → (⟨S_, .f32⟩ : BufTy).Contents (Elt F) → (⟨S8192, .f32⟩ : BufTy).Contents (Elt F)),
    StableHlo.unary main_v42 main_v43 (broadcastInDim S8192x1 ![0] bcast_S8192_S8192x1_0 : (⟨S8192, .f32⟩ : BufTy).Contents (Elt F) → (⟨S8192x1, .f32⟩ : BufTy).Contents (Elt F)),
    StableHlo.unary main_v43 main_v44 (broadcastInDim S8192x2 ![0, 1] bcast_S8192x1_S8192x2_0_1 : (⟨S8192x1, .f32⟩ : BufTy).Contents (Elt F) → (⟨S8192x2, .f32⟩ : BufTy).Contents (Elt F)),
    StableHlo.binary main_v41 main_v44 main_v45 (Host.divf : (⟨S8192x2, .f32⟩ : BufTy).Contents (Elt F) → (⟨S8192x2, .f32⟩ : BufTy).Contents (Elt F) → (⟨S8192x2, .f32⟩ : BufTy).Contents (Elt F)),
    StableHlo.unary main_v13 main_v46 (uitofp .f32 : (⟨S8192x2, .i1⟩ : BufTy).Contents (Elt F) → (⟨S8192x2, .f32⟩ : BufTy).Contents (Elt F)),
    StableHlo.binary main_v45 main_v46 main_v47 (mulf : (⟨S8192x2, .f32⟩ : BufTy).Contents (Elt F) → (⟨S8192x2, .f32⟩ : BufTy).Contents (Elt F) → (⟨S8192x2, .f32⟩ : BufTy).Contents (Elt F)),
    StableHlo.nullary main_c_9 (constantI S_ 32 0#32) ]

/-- %48 … %59: the destination row made non-negative, the rows gathered back per (token, choice), scaled by the weight, summed over the two choices, and shaped [2048, 4, 1024]. -/
abbrev tail2 : List (HloOp τ sig (Elt F)) :=
  [ StableHlo.unary main_c_9 main_v48 (broadcastInDim S8192x2 ![] bcast_S_S8192x2 : (⟨S_, .i32⟩ : BufTy).Contents (Elt F) → (⟨S8192x2, .i32⟩ : BufTy).Contents (Elt F)),
    StableHlo.binary main_v17 main_v48 main_v49 (cmpi .slt : (⟨S8192x2, .i32⟩ : BufTy).Contents (Elt F) → (⟨S8192x2, .i32⟩ : BufTy).Contents (Elt F) → (⟨S8192x2, .i1⟩ : BufTy).Contents (Elt F)),
    StableHlo.nullary main_c_10 (constantI S_ 32 20481#32),
    StableHlo.unary main_c_10 main_v50 (broadcastInDim S8192x2 ![] bcast_S_S8192x2 : (⟨S_, .i32⟩ : BufTy).Contents (Elt F) → (⟨S8192x2, .i32⟩ : BufTy).Contents (Elt F)),
    StableHlo.binary main_v17 main_v50 main_v51 (addi : (⟨S8192x2, .i32⟩ : BufTy).Contents (Elt F) → (⟨S8192x2, .i32⟩ : BufTy).Contents (Elt F) → (⟨S8192x2, .i32⟩ : BufTy).Contents (Elt F)),
    StableHlo.ternary main_v49 main_v51 main_v17 main_v52 (select : (⟨S8192x2, .i1⟩ : BufTy).Contents (Elt F) → (⟨S8192x2, .i32⟩ : BufTy).Contents (Elt F) → (⟨S8192x2, .i32⟩ : BufTy).Contents (Elt F) → (⟨S8192x2, .i32⟩ : BufTy).Contents (Elt F)),
    StableHlo.unary main_v52 main_v53 (broadcastInDim S8192x2x1 ![0, 1] bcast_S8192x2_S8192x2x1_0_1 : (⟨S8192x2, .i32⟩ : BufTy).Contents (Elt F) → (⟨S8192x2x1, .i32⟩ : BufTy).Contents (Elt F)),
    StableHlo.binary main_v40 main_v53 main_v54 ((fun x i => Host.gather gather_S20481x1024_S8192x2x1_S8192x2x1024_2_0_n_n_0_2_11024 x i) : (⟨S20481x1024, .f32⟩ : BufTy).Contents (Elt F) → (⟨S8192x2x1, .i32⟩ : BufTy).Contents (Elt F) → (⟨S8192x2x1024, .f32⟩ : BufTy).Contents (Elt F)),
    StableHlo.unary main_v47 main_v55 (broadcastInDim S8192x2x1 ![0, 1] bcast_S8192x2_S8192x2x1_0_1 : (⟨S8192x2, .f32⟩ : BufTy).Contents (Elt F) → (⟨S8192x2x1, .f32⟩ : BufTy).Contents (Elt F)),
    StableHlo.unary main_v55 main_v56 (broadcastInDim S8192x2x1024 ![0, 1, 2] bcast_S8192x2x1_S8192x2x1024_0_1_2 : (⟨S8192x2x1, .f32⟩ : BufTy).Contents (Elt F) → (⟨S8192x2x1024, .f32⟩ : BufTy).Contents (Elt F)),
    StableHlo.binary main_v54 main_v56 main_v57 (mulf : (⟨S8192x2x1024, .f32⟩ : BufTy).Contents (Elt F) → (⟨S8192x2x1024, .f32⟩ : BufTy).Contents (Elt F) → (⟨S8192x2x1024, .f32⟩ : BufTy).Contents (Elt F)),
    StableHlo.nullary main_cst_11 (constant S_ .f32 0x00000000#32),
    StableHlo.binary main_v57 main_cst_11 main_v58 ((fun x v => Host.reduceAdd x v reducesTo_S8192x2x1024_S8192x1024_d1 h_S_) : (⟨S8192x2x1024, .f32⟩ : BufTy).Contents (Elt F) → (⟨S_, .f32⟩ : BufTy).Contents (Elt F) → (⟨S8192x1024, .f32⟩ : BufTy).Contents (Elt F)),
    StableHlo.reshape main_v58 main_v59 rfl shapeCasts_S8192x1024_S2048x4x1024 ]

/-- %38 … %59: the combine (reshape, zero row, concatenate, take_along_axis_2 at record main_call6, the normalisation, the gather, the weighted sum, the last reshape). -/
abbrev opsTail : List (HloOp τ sig (Elt F)) := tail0 ++ tail1 ++ tail2

theorem pre0_sub : (pre0 : List (HloOp τ sig (Elt F))).Forall fun op => op.bufs ⊆ tcRefs τ sig :=
  ⟨reshape_bufs_sub .., unary_bufs_sub .., nullary_bufs_sub .., unary_bufs_sub .., unary_bufs_sub .., binary_bufs_sub .., unary_bufs_sub .., nullary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., binary_bufs_sub .., nullary_bufs_sub .., unary_bufs_sub .., binary_bufs_sub ..⟩
theorem pre0_fresh : (pre0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl⟩

theorem pre1_sub : (pre1 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem pre1_fresh : (pre1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem pre2_sub : (pre2 : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem pre2_fresh : (pre2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl⟩

theorem pre3_sub : (pre3 : List (HloOp τ sig (Elt F))).Forall fun op => op.bufs ⊆ tcRefs τ sig :=
  ⟨nullary_bufs_sub .., unary_bufs_sub .., binary_bufs_sub .., binary_bufs_sub .., nullary_bufs_sub .., unary_bufs_sub .., unary_bufs_sub .., ternary_bufs_sub .., unary_bufs_sub .., unary_bufs_sub .., reshape_bufs_sub .., nullary_bufs_sub .., unary_bufs_sub .., reshape_bufs_sub .., nullary_bufs_sub .., unary_bufs_sub .., binary_bufs_sub .., nullary_bufs_sub .., unary_bufs_sub .., binary_bufs_sub .., ternary_bufs_sub .., unary_bufs_sub .., ternary_bufs_sub .., unary_bufs_sub .., reshape_bufs_sub ..⟩
theorem pre3_fresh : (pre3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl⟩

theorem opsMid_sub : (opsMid : List (HloOp τ sig (Elt F))).Forall fun op => op.bufs ⊆ tcRefs τ sig :=
  ⟨binary_bufs_sub .., unary_bufs_sub .., unary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub ..⟩
theorem opsMid_fresh : (opsMid : List (HloOp τ sig (Elt F))).Forall fun op => op.fresh = ∅ :=
  ⟨rfl, rfl, rfl, rfl, rfl, rfl, rfl, rfl, rfl, rfl, rfl, rfl, rfl, rfl⟩

theorem tail0_sub : (tail0 : List (HloOp τ sig (Elt F))).Forall fun op => op.bufs ⊆ tcRefs τ sig :=
  ⟨reshape_bufs_sub .., nullary_bufs_sub .., unary_bufs_sub .., binary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩
theorem tail0_fresh : (tail0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl⟩

theorem tail1_sub : (tail1 : List (HloOp τ sig (Elt F))).Forall fun op => op.bufs ⊆ tcRefs τ sig :=
  ⟨nullary_bufs_sub .., binary_bufs_sub .., unary_bufs_sub .., unary_bufs_sub .., binary_bufs_sub .., unary_bufs_sub .., binary_bufs_sub .., nullary_bufs_sub ..⟩
theorem tail1_fresh : (tail1 : List (HloOp τ sig (Elt F))).Forall fun op => op.fresh = ∅ :=
  ⟨rfl, rfl, rfl, rfl, rfl, rfl, rfl, rfl⟩

theorem tail2_sub : (tail2 : List (HloOp τ sig (Elt F))).Forall fun op => op.bufs ⊆ tcRefs τ sig :=
  ⟨unary_bufs_sub .., binary_bufs_sub .., nullary_bufs_sub .., unary_bufs_sub .., binary_bufs_sub .., ternary_bufs_sub .., unary_bufs_sub .., binary_bufs_sub .., unary_bufs_sub .., unary_bufs_sub .., binary_bufs_sub .., nullary_bufs_sub .., binary_bufs_sub .., reshape_bufs_sub ..⟩
theorem tail2_fresh : (tail2 : List (HloOp τ sig (Elt F))).Forall fun op => op.fresh = ∅ :=
  ⟨rfl, rfl, rfl, rfl, rfl, rfl, rfl, rfl, rfl, rfl, rfl, rfl, rfl, rfl⟩

/-- @main's statements 1 … 60 are the straight line of their operations, each call's body read at the call's buffers:
    both sides compute to the same chain of steps. -/
theorem part0_eq (c : Dev nD) : main_part0 (F := F) c = seq (opsPre ++ opsMid ++ (tail0 ++ tail1)) := rfl

/-- @main's statements 61 … 75 likewise. -/
theorem part1_eq (c : Dev nD) : main_part1 (F := F) c = seq tail2 := rfl

/-- @main is the two parts in order, so the concatenation of their lines. -/
theorem main_eq (c : Dev nD) : main (F := F) c = seq (opsPre ++ opsMid ++ opsTail) := by
  have h : (opsPre ++ opsMid ++ opsTail : List (HloOp τ sig (Elt F))) = (opsPre ++ opsMid ++ (tail0 ++ tail1)) ++ tail2 := by
    simp only [List.append_assoc]
  rw [h, seq_append, ← part0_eq c, ← part1_eq c]
  rfl

theorem scopedRefs_eq : (Finset.univ.filter fun b : Ref sig .tc => b.isScoped) = ∅ := by decide
theorem scopedSems_eq : (Finset.univ.filter fun sm : SemLoc sig => sm.isScoped .tc) = ∅ := by decide

/-- Every operation reads and writes TensorCore references only. -/
theorem ops_sub : (opsPre ++ opsMid ++ opsTail : List (HloOp τ sig (Elt F))).Forall fun op => op.bufs ⊆ tcRefs τ sig :=
  List.forall_append.2 ⟨List.forall_append.2 ⟨List.forall_append.2 ⟨List.forall_append.2 ⟨List.forall_append.2 ⟨pre0_sub, pre1_sub⟩, pre2_sub⟩, pre3_sub⟩, opsMid_sub⟩,
    List.forall_append.2 ⟨List.forall_append.2 ⟨tail0_sub, tail1_sub⟩, tail2_sub⟩⟩

/-- No operation allocates: each determines the contents of what it writes. -/
theorem ops_fresh : (opsPre ++ opsMid ++ opsTail : List (HloOp τ sig (Elt F))).Forall fun op => op.fresh = ∅ :=
  List.forall_append.2 ⟨List.forall_append.2 ⟨List.forall_append.2 ⟨List.forall_append.2 ⟨List.forall_append.2 ⟨pre0_fresh, pre1_fresh⟩, pre2_fresh⟩, pre3_fresh⟩, opsMid_fresh⟩,
    List.forall_append.2 ⟨List.forall_append.2 ⟨tail0_fresh, tail1_fresh⟩, tail2_fresh⟩⟩

/-- At the compiled mesh, for any float values, from any memory with zero counters: every weakly fair execution of
    @main on the TensorCores terminates, and every final state has each TensorCore buffer at the fold of the
    operations' results over its launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (d : Dev nD) (b : Ref sig .tc), r.2.mem ((d.tc : Thread nD τ).loc b) = after (opsPre ++ opsMid ++ opsTail) (launchContents m d) (Proc.devRef .tc b) :=
  run_seq scopedRefs_eq scopedSems_eq defs main (fun _ => opsPre ++ opsMid ++ opsTail) main_eq (fun _ => ops_sub) m ρ
    (fun _ => List.forall_iff_forall_mem.1 ops_fresh)

end Cert.ReferenceIdeal.RefRun

end
-- ==== Proof.RefAgree.lean ====
/-
  The two programs run the same operations around the kernel's region: the dispatch before it and the combine after
  it. From equal inputs the kernel program's host operations and the reference's line give equal outputs: for each
  output one value that both folds reach. The two signatures number their buffers differently, so the statement is
  an existential over the value, not an equation between buffers.
-/
import proofs.«145350_j44805098832176_1_alg».proof.Proof.Gen.KernelIdeal.Launch
import proofs.«145350_j44805098832176_1_alg».proof.Proof.RefRun

noncomputable section

namespace Cert.Agree

open Idealize.ShloMosaic Idealize.ShloMosaic.StableHlo

variable {F : FTy → Type} [FloatOps F]

/-- The kernel program's host operations before its region, in order. -/
abbrev kPre : List (HloOp Cert.KernelIdeal.τ Cert.KernelIdeal.sig (Elt F)) :=
  List.flatten [Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9]

/-- The kernel program's host operations after its region, in order. -/
abbrev kTail : List (HloOp Cert.KernelIdeal.τ Cert.KernelIdeal.sig (Elt F)) :=
  List.flatten [Cert.KernelIdeal.Gen.hostOps1, Cert.KernelIdeal.Gen.hostOps1_1, Cert.KernelIdeal.Gen.hostOps1_2]

attribute [local irreducible] Host.reduce Host.reduceWindow Host.gather Host.scatterAdd Host.reduceAdd concatenate in
set_option maxRecDepth 100000 in
set_option maxHeartbeats 4000000 in
/-- The combine: from one expert output, one destination-row table, one keep mask, one weight table and one choice
    table, the kernel program's tail and the reference's tail leave one and the same final result. -/
theorem tail_agree (WK : Valuation Cert.KernelIdeal.τ Cert.KernelIdeal.sig (Elt F)) (WR : Valuation Cert.ReferenceIdeal.τ Cert.ReferenceIdeal.sig (Elt F))
    (y : (⟨Cert.KernelIdeal.S8x2560x1024, .f32⟩ : BufTy).Contents (Elt F)) (hyK : WK (Proc.devRef .tc Cert.KernelIdeal.main_v38) = y) (hyR : WR (Proc.devRef .tc Cert.ReferenceIdeal.main_v37) = y)
    (fi : (⟨Cert.KernelIdeal.S8192x2, .i32⟩ : BufTy).Contents (Elt F)) (hfK : WK (Proc.devRef .tc Cert.KernelIdeal.main_v17) = fi) (hfR : WR (Proc.devRef .tc Cert.ReferenceIdeal.main_v17) = fi)
    (kp : (⟨Cert.KernelIdeal.S8192x2, .i1⟩ : BufTy).Contents (Elt F)) (hkK : WK (Proc.devRef .tc Cert.KernelIdeal.main_v13) = kp) (hkR : WR (Proc.devRef .tc Cert.ReferenceIdeal.main_v13) = kp)
    (a1 : (⟨Cert.KernelIdeal.S8192x8, .f32⟩ : BufTy).Contents (Elt F)) (h1K : WK (Proc.devRef .tc Cert.KernelIdeal.main_arg1) = a1) (h1R : WR (Proc.devRef .tc Cert.ReferenceIdeal.main_arg1) = a1)
    (a2 : (⟨Cert.KernelIdeal.S8192x2, .i32⟩ : BufTy).Contents (Elt F)) (h2K : WK (Proc.devRef .tc Cert.KernelIdeal.main_arg2) = a2) (h2R : WR (Proc.devRef .tc Cert.ReferenceIdeal.main_arg2) = a2) :
    ∃ z : (⟨Cert.KernelIdeal.S2048x4x1024, .f32⟩ : BufTy).Contents (Elt F),
      after kTail WK (Proc.devRef .tc Cert.KernelIdeal.main_v60) = z ∧ after Cert.ReferenceIdeal.RefRun.opsTail WR (Proc.devRef .tc Cert.ReferenceIdeal.main_v59) = z := by
  refine ⟨?w, ?hK, ?hR⟩
  case hK =>
    simp only [kTail, Cert.KernelIdeal.Gen.hostOps1, Cert.KernelIdeal.Gen.hostOps1_1, Cert.KernelIdeal.Gen.hostOps1_2, List.flatten_cons, List.flatten_nil, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [hyK, hfK, hkK, h1K, h2K]
    exact rfl
  case hR =>
    simp only [Cert.ReferenceIdeal.RefRun.opsTail, Cert.ReferenceIdeal.RefRun.tail0, Cert.ReferenceIdeal.RefRun.tail1, Cert.ReferenceIdeal.RefRun.tail2, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [hyR, hfR, hkR, h1R, h2R]
    exact rfl

end Cert.Agree

end
-- ==== Proof.RefChain.lean ====
/-
  The reference's operations between the dispatch and the combine, as one term of the per-expert token buffers
  `x`, the fused gate/up weights `g` and the down weights `d`, in the order the program applies them: the batched
  product x·g over the hidden axis; its first and its last 4096 columns (gate, up); silu of the gate spelt
  `gate · (1 / (1 + exp (−gate)))`; the product with up; the batched product with `d` over the intermediate axis.
-/
import proofs.«145350_j44805098832176_1_alg».proof.Proof.Gen.ReferenceIdeal

noncomputable section

namespace Cert.ReferenceIdeal.RefMid

open Cert.ReferenceIdeal Cert.ReferenceIdeal.Gen Idealize.ShloMosaic

variable {F : FTy → Type} [FloatOps F]

/-- x·g, contracted over the hidden axis, expert by expert: [8, 2560, 8192]. -/
def gateUp (x : FVec F S8x2560x1024 .f32) (g : FVec F S8x1024x8192 .f32) : FVec F S8x2560x8192 .f32 :=
  Host.dotGeneral dot_S8x2560x1024_S8x1024x8192_S8x2560x8192_2_1_1_2_0_0 none x g

/-- The gate pre-activations: the first 4096 columns. -/
def gatePart (x : FVec F S8x2560x1024 .f32) (g : FVec F S8x1024x8192 .f32) : FVec F S8x2560x4096 .f32 :=
  extractStridedSlice S8x2560x4096 ![0, 0, 0] (gateUp x g) slices_S8x2560x8192_S8x2560x4096_0_0_0

/-- The up projections: the last 4096 columns. -/
def upPart (x : FVec F S8x2560x1024 .f32) (g : FVec F S8x1024x8192 .f32) : FVec F S8x2560x4096 .f32 :=
  extractStridedSlice S8x2560x4096 ![0, 0, 4096] (gateUp x g) slices_S8x2560x8192_S8x2560x4096_0_0_4096

/-- The constant one, spread over [8, 2560, 4096]. -/
def ones : FVec F S8x2560x4096 .f32 :=
  broadcastInDim S8x2560x4096 ![] bcast_S_S8x2560x4096 (constant S_ .f32 0x3F800000#32)

/-- silu as the reference spells it: `p · (1 / (1 + exp (−p)))`. -/
def siluPart (p : FVec F S8x2560x4096 .f32) : FVec F S8x2560x4096 .f32 :=
  mulf p (Host.divf ones (addf ones (Host.exp (Host.negf p))))

/-- The reference's gated MLP: (silu gate · up)·d, contracted over the intermediate axis. -/
def refChain (x : FVec F S8x2560x1024 .f32) (g : FVec F S8x1024x8192 .f32) (d : FVec F S8x4096x1024 .f32) :
    FVec F S8x2560x1024 .f32 :=
  Host.dotGeneral dot_S8x2560x4096_S8x4096x1024_S8x2560x1024_2_1_1_2_0_0 none
    (mulf (siluPart (gatePart x g)) (upPart x g)) d

end Cert.ReferenceIdeal.RefMid

end
-- ==== Proof.RefMidRead.lean ====
/-
  What the reference's middle stretch (%32 … %37) computes, for any contents of the buffers before it: the buffer
  of %37 holds the gated MLP of the per-expert token buffers and the two weight arguments, and the stretch leaves
  the buffers it only reads, and the earlier results the combine reads later, as they were.
-/
import proofs.«145350_j44805098832176_1_alg».proof.Proof.RefRun
import proofs.«145350_j44805098832176_1_alg».proof.Proof.RefChain

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- After the middle stretch the buffer of %37 is the reference's gated MLP of the contents of %31 and of the two
    weight arguments: each operation's result read at its own buffer, every other buffer passed over. -/
theorem mid_read (V : Valuation τ sig (Elt F)) :
    after opsMid V (Proc.devRef .tc main_v37)
      = Cert.ReferenceIdeal.RefMid.refChain (V (Proc.devRef .tc main_v31)) (V (Proc.devRef .tc main_arg3))
          (V (Proc.devRef .tc main_arg4)) := by
  after_results
  rfl

/-- The middle stretch does not write main_v31. -/
theorem mid_v31 (V : Valuation τ sig (Elt F)) :
    after opsMid V (Proc.devRef .tc main_v31) = V (Proc.devRef .tc main_v31) := by
  after_results

/-- The middle stretch does not write main_v17. -/
theorem mid_v17 (V : Valuation τ sig (Elt F)) :
    after opsMid V (Proc.devRef .tc main_v17) = V (Proc.devRef .tc main_v17) := by
  after_results

/-- The middle stretch does not write main_v13. -/
theorem mid_v13 (V : Valuation τ sig (Elt F)) :
    after opsMid V (Proc.devRef .tc main_v13) = V (Proc.devRef .tc main_v13) := by
  after_results

/-- The middle stretch does not write main_arg0. -/
theorem mid_arg0 (V : Valuation τ sig (Elt F)) :
    after opsMid V (Proc.devRef .tc main_arg0) = V (Proc.devRef .tc main_arg0) := by
  after_results

/-- The middle stretch does not write main_arg1. -/
theorem mid_arg1 (V : Valuation τ sig (Elt F)) :
    after opsMid V (Proc.devRef .tc main_arg1) = V (Proc.devRef .tc main_arg1) := by
  after_results

/-- The middle stretch does not write main_arg2. -/
theorem mid_arg2 (V : Valuation τ sig (Elt F)) :
    after opsMid V (Proc.devRef .tc main_arg2) = V (Proc.devRef .tc main_arg2) := by
  after_results

/-- The middle stretch does not write main_arg3. -/
theorem mid_arg3 (V : Valuation τ sig (Elt F)) :
    after opsMid V (Proc.devRef .tc main_arg3) = V (Proc.devRef .tc main_arg3) := by
  after_results

/-- The middle stretch does not write main_arg4. -/
theorem mid_arg4 (V : Valuation τ sig (Elt F)) :
    after opsMid V (Proc.devRef .tc main_arg4) = V (Proc.devRef .tc main_arg4) := by
  after_results

end Cert.ReferenceIdeal.RefRun

end
-- ==== Proof.RefMidValue.lean ====
/-
  The reference's gated MLP, read index by index on the extended reals, is the specification's `MoE.mid`.

  Each operation of the chain is read at one index (e, r, ·):
    • the batched product x·g at (e, r, c) is Σ_k x(e,r,k)·g(e,k,c) (a stack of matrix products, contracted over
      the hidden coordinate);
    • its first 4096 columns at (e, r, i) are column i, its last 4096 columns are column 4096 + i: the gate
      pre-activation and the up projection of the specification;
    • the spread constant is 1 everywhere, so p · (1 / (1 + exp (−p))) at an index is p · logistic p = silu p;
    • the batched product with d at (e, r, h) is the sum over the 4096 intermediate columns of
      (silu gate · up) · d(e,i,h), the specification's term.
  Every index of the result is (e, r, h) for its three coordinates, which gives the equality of the two functions.
-/
import proofs.«145350_j44805098832176_1_alg».proof.Proof.Spec
import proofs.«145350_j44805098832176_1_alg».proof.Proof.RefChain
import Idealize.ShloMosaic.Lib.ValueIdx
import Idealize.ShloMosaic.Lib.Pipeline.Value
import Idealize.ShloMosaic.PureOps.Ideal.Laws
import Idealize.ShloMosaic.Lib.StackMember

noncomputable section

namespace Cert.ReferenceIdeal.RefMid

open Cert.ReferenceIdeal Cert.ReferenceIdeal.Gen Idealize.ShloMosaic Idealize.ShloMosaic.ValueIdx

/-- The batched product x·g read at (e, r, c): the sum over the hidden coordinate. -/
theorem gateUp_apply (x : FVec Ideal S8x2560x1024 .f32) (g : FVec Ideal S8x1024x8192 .f32)
    (e : Fin 8) (r : Fin 2560) (c : Fin 8192) :
    gateUp (F := Ideal) x g (ix3 e r c) = ∑ k : Fin 1024, x (ix3 e r k) * g (ix3 e k c) :=
  StackMember.dotGeneral_stack_apply (G := 8) (m := 2560) (n := 8192) (k := 1024)
    Facts₀.dot_S8x2560x1024_S8x1024x8192_S8x2560x8192_2_1_1_2_0_0_wf none x g e r c

/-- The batched product p·d read at (e, r, h): the sum over the intermediate coordinate. -/
theorem down_apply (p : FVec Ideal S8x2560x4096 .f32) (d : FVec Ideal S8x4096x1024 .f32)
    (e : Fin 8) (r : Fin 2560) (h : Fin 1024) :
    Host.dotGeneral (F := Ideal) dot_S8x2560x4096_S8x4096x1024_S8x2560x1024_2_1_1_2_0_0 none p d (ix3 e r h)
      = ∑ i : Fin 4096, p (ix3 e r i) * d (ix3 e i h) :=
  StackMember.dotGeneral_stack_apply (G := 8) (m := 2560) (n := 1024) (k := 4096)
    Facts₀.dot_S8x2560x4096_S8x4096x1024_S8x2560x1024_2_1_1_2_0_0_wf none p d e r h

/-- The first 4096 columns of x·g at (e, r, i) are its column i: the gate pre-activation. -/
theorem gatePart_apply (x : FVec Ideal S8x2560x1024 .f32) (g : FVec Ideal S8x1024x8192 .f32)
    (e : Fin 8) (r : Fin 2560) (i : Fin 4096) :
    gatePart (F := Ideal) x g (ix3 e r i) = MoE.gateAt x g e r i := by
  unfold gatePart
  refine (extractStridedSlice_apply _ _ _ (ix3 e r i) (ix3 e r (MoE.lo i)) fun a => ?_).trans ?_
  · match a with
    | ⟨0, _⟩ => exact (Nat.zero_add e.val).symm
    | ⟨1, _⟩ => exact (Nat.zero_add r.val).symm
    | ⟨2, _⟩ => exact (Nat.zero_add i.val).symm
  · exact gateUp_apply x g e r (MoE.lo i)

/-- The last 4096 columns of x·g at (e, r, i) are its column 4096 + i: the up projection. -/
theorem upPart_apply (x : FVec Ideal S8x2560x1024 .f32) (g : FVec Ideal S8x1024x8192 .f32)
    (e : Fin 8) (r : Fin 2560) (i : Fin 4096) :
    upPart (F := Ideal) x g (ix3 e r i) = MoE.upAt x g e r i := by
  unfold upPart
  refine (extractStridedSlice_apply _ _ _ (ix3 e r i) (ix3 e r (MoE.hi i)) fun a => ?_).trans ?_
  · match a with
    | ⟨0, _⟩ => exact (Nat.zero_add e.val).symm
    | ⟨1, _⟩ => exact (Nat.zero_add r.val).symm
    | ⟨2, _⟩ => rfl
  · exact gateUp_apply x g e r (MoE.hi i)

/-- The spread constant reads 1 at every index: the pattern 0x3F800000 is the float one. -/
theorem ones_apply (j : S8x2560x4096.Idx) : ones (F := Ideal) j = 1 := by
  unfold ones
  refine (broadcastInDim_apply _ _ _ j (fun a => a.elim0) fun a => a.elim0).trans ?_
  rw [constant_apply]
  exact IdealRules.sign_bit.ideal_onePat .f32

/-- p · (1 / (1 + exp (−p))) at an index is silu of the entry: 1 / (1 + exp (−z)) is the logistic of z. -/
theorem siluPart_apply (p : FVec Ideal S8x2560x4096 .f32) (j : S8x2560x4096.Idx) :
    siluPart (F := Ideal) p j = MoE.silu (p j) := by
  show FloatOps.mulf (p j) (FloatOps.hostDivf (ones (F := Ideal) j)
    (FloatOps.addf (ones (F := Ideal) j) (FloatOps.hostUnary .exp (FloatOps.hostNegf (p j))))) = _
  rw [ones_apply]
  rfl

/-- The reference's chain read at (e, r, h): the sum over the intermediate columns of the gated terms. -/
theorem refChain_apply (x : FVec Ideal S8x2560x1024 .f32) (g : FVec Ideal S8x1024x8192 .f32)
    (d : FVec Ideal S8x4096x1024 .f32) (e : Fin 8) (r : Fin 2560) (h : Fin 1024) :
    refChain (F := Ideal) x g d (ix3 e r h) = ∑ i : Fin 4096, MoE.term x g d e r h i := by
  unfold refChain
  refine (down_apply _ d e r h).trans ?_
  refine Finset.sum_congr rfl fun i _ => ?_
  show (siluPart (F := Ideal) (gatePart x g) (ix3 e r i) * upPart (F := Ideal) x g (ix3 e r i)) * d (ix3 e i h) = _
  rw [siluPart_apply, gatePart_apply, upPart_apply]
  rfl

/-- The reference's gated MLP is the specification's, at every index. -/
theorem refChain_eq (x : FVec Ideal S8x2560x1024 .f32) (g : FVec Ideal S8x1024x8192 .f32)
    (d : FVec Ideal S8x4096x1024 .f32) :
    refChain (F := Ideal) x g d = MoE.mid x g d := by
  funext j
  obtain ⟨e, r, h, rfl⟩ : ∃ (e : Fin 8) (r : Fin 2560) (h : Fin 1024), j = ix3 e r h := ⟨j 0, j 1, j 2, eq_ix3 j⟩
  exact (refChain_apply x g d e r h).trans (MoE.mid_apply x g d e r h).symm

end Cert.ReferenceIdeal.RefMid

end
-- ==== Proof.RefFrame.lean ====
/-
  The reference program leaves its five argument arrays as launched.

  The program is one straight line of operations, and each operation writes exactly one buffer: its own result.
  No result buffer is an argument buffer (they are different references), so no operation writes an argument
  buffer, and a buffer no operation of a line writes holds after the line what it held before. The line is cut
  into stretches; each stretch keeps each argument buffer, hence so does their concatenation. The run of the
  program ends with every buffer at the fold of the line over the launch contents, which at an argument buffer is
  the launch contents themselves.
-/
import proofs.«145350_j44805098832176_1_alg».proof.Proof.RefRun
import proofs.«145350_j44805098832176_1_alg».proof.Defs
import proofs.«145350_j44805098832176_1_alg».proof.Proof.Gen.Pre_finite_inputs
import Idealize.ShloMosaic.Lib.Pipeline.Frame

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The five argument buffers. -/
def IsArg (r : Ref sig .tc) : Prop := r = main_arg0 ∨ r = main_arg1 ∨ r = main_arg2 ∨ r = main_arg3 ∨ r = main_arg4

/-- A line of operations keeps a buffer when, from any contents, the buffer ends as it began. -/
def Keeps (ops : List (HloOp τ sig (Elt F))) (b : DevRef τ sig) : Prop := ∀ V : Valuation τ sig (Elt F), after ops V b = V b

/-- Two lines that each keep a buffer keep it when run one after the other. -/
theorem Keeps.append {l₁ l₂ : List (HloOp τ sig (Elt F))} {b : DevRef τ sig} (h₁ : Keeps l₁ b) (h₂ : Keeps l₂ b) :
    Keeps (l₁ ++ l₂) b := fun V => by
  rw [StableHlo.after_append, h₂, h₁]

/-- A line none of whose operations writes a buffer keeps it. -/
theorem Keeps.of_forall {ops : List (HloOp τ sig (Elt F))} {b : DevRef τ sig} (h : ops.Forall fun op => b ∉ op.writes) :
    Keeps ops b := fun V => after_of_forall_not_mem ops V (List.forall_iff_forall_mem.mp h)

/-- No operation of %0 … %11 writes an argument buffer: each writes its own result buffer, a different reference. -/
theorem pre0_keeps {r : Ref sig .tc} (hr : IsArg r) : Keeps (pre0 : List (HloOp τ sig (Elt F))) (Proc.devRef .tc r) := by
  refine Keeps.of_forall ?_
  rcases hr with rfl | rfl | rfl | rfl | rfl
  all_goals
    simp only [pre0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor does any operation of %12. -/
theorem pre1_keeps {r : Ref sig .tc} (hr : IsArg r) : Keeps (pre1 : List (HloOp τ sig (Elt F))) (Proc.devRef .tc r) := by
  refine Keeps.of_forall ?_
  rcases hr with rfl | rfl | rfl | rfl | rfl
  all_goals
    simp only [pre1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %13. -/
theorem pre2_keeps {r : Ref sig .tc} (hr : IsArg r) : Keeps (pre2 : List (HloOp τ sig (Elt F))) (Proc.devRef .tc r) := by
  refine Keeps.of_forall ?_
  rcases hr with rfl | rfl | rfl | rfl | rfl
  all_goals
    simp only [pre2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %14 … %31. -/
theorem pre3_keeps {r : Ref sig .tc} (hr : IsArg r) : Keeps (pre3 : List (HloOp τ sig (Elt F))) (Proc.devRef .tc r) := by
  refine Keeps.of_forall ?_
  rcases hr with rfl | rfl | rfl | rfl | rfl
  all_goals
    simp only [pre3, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %32 … %37. -/
theorem opsMid_keeps {r : Ref sig .tc} (hr : IsArg r) : Keeps (opsMid : List (HloOp τ sig (Elt F))) (Proc.devRef .tc r) := by
  refine Keeps.of_forall ?_
  rcases hr with rfl | rfl | rfl | rfl | rfl
  all_goals
    simp only [opsMid, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %38 … %41. -/
theorem tail0_keeps {r : Ref sig .tc} (hr : IsArg r) : Keeps (tail0 : List (HloOp τ sig (Elt F))) (Proc.devRef .tc r) := by
  refine Keeps.of_forall ?_
  rcases hr with rfl | rfl | rfl | rfl | rfl
  all_goals
    simp only [tail0, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %42 … %47 and the constant of %48. -/
theorem tail1_keeps {r : Ref sig .tc} (hr : IsArg r) : Keeps (tail1 : List (HloOp τ sig (Elt F))) (Proc.devRef .tc r) := by
  refine Keeps.of_forall ?_
  rcases hr with rfl | rfl | rfl | rfl | rfl
  all_goals
    simp only [tail1, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- Nor of %48 … %59. -/
theorem tail2_keeps {r : Ref sig .tc} (hr : IsArg r) : Keeps (tail2 : List (HloOp τ sig (Elt F))) (Proc.devRef .tc r) := by
  refine Keeps.of_forall ?_
  rcases hr with rfl | rfl | rfl | rfl | rfl
  all_goals
    simp only [tail2, List.Forall, StableHlo.nullary_writes, StableHlo.unary_writes, StableHlo.binary_writes, StableHlo.ternary_writes,
      StableHlo.reshape_writes, Finset.mem_singleton]
    repeat' apply And.intro
    all_goals exact StableHlo.devRef_ne_of_ne (by decide)

/-- The dispatch keeps every argument buffer. -/
theorem opsPre_keeps {r : Ref sig .tc} (hr : IsArg r) : Keeps (opsPre : List (HloOp τ sig (Elt F))) (Proc.devRef .tc r) :=
  (((pre0_keeps hr).append (pre1_keeps hr)).append (pre2_keeps hr)).append (pre3_keeps hr)

/-- The combine keeps every argument buffer. -/
theorem opsTail_keeps {r : Ref sig .tc} (hr : IsArg r) : Keeps (opsTail : List (HloOp τ sig (Elt F))) (Proc.devRef .tc r) :=
  ((tail0_keeps hr).append (tail1_keeps hr)).append (tail2_keeps hr)

/-- The whole line keeps every argument buffer. -/
theorem all_keeps {r : Ref sig .tc} (hr : IsArg r) :
    Keeps (opsPre ++ opsMid ++ opsTail : List (HloOp τ sig (Elt F))) (Proc.devRef .tc r) :=
  ((opsPre_keeps hr).append (opsMid_keeps hr)).append (opsTail_keeps hr)

theorem all_arg0 (V : Valuation τ sig (Elt F)) : after (opsPre ++ opsMid ++ opsTail) V (Proc.devRef .tc main_arg0) = V (Proc.devRef .tc main_arg0) :=
  all_keeps (Or.inl rfl) V
theorem pre_arg0 (V : Valuation τ sig (Elt F)) : after opsPre V (Proc.devRef .tc main_arg0) = V (Proc.devRef .tc main_arg0) :=
  opsPre_keeps (Or.inl rfl) V

theorem all_arg1 (V : Valuation τ sig (Elt F)) : after (opsPre ++ opsMid ++ opsTail) V (Proc.devRef .tc main_arg1) = V (Proc.devRef .tc main_arg1) :=
  all_keeps (Or.inr (Or.inl rfl)) V
theorem pre_arg1 (V : Valuation τ sig (Elt F)) : after opsPre V (Proc.devRef .tc main_arg1) = V (Proc.devRef .tc main_arg1) :=
  opsPre_keeps (Or.inr (Or.inl rfl)) V

theorem all_arg2 (V : Valuation τ sig (Elt F)) : after (opsPre ++ opsMid ++ opsTail) V (Proc.devRef .tc main_arg2) = V (Proc.devRef .tc main_arg2) :=
  all_keeps (Or.inr (Or.inr (Or.inl rfl))) V
theorem pre_arg2 (V : Valuation τ sig (Elt F)) : after opsPre V (Proc.devRef .tc main_arg2) = V (Proc.devRef .tc main_arg2) :=
  opsPre_keeps (Or.inr (Or.inr (Or.inl rfl))) V

theorem all_arg3 (V : Valuation τ sig (Elt F)) : after (opsPre ++ opsMid ++ opsTail) V (Proc.devRef .tc main_arg3) = V (Proc.devRef .tc main_arg3) :=
  all_keeps (Or.inr (Or.inr (Or.inr (Or.inl rfl)))) V
theorem pre_arg3 (V : Valuation τ sig (Elt F)) : after opsPre V (Proc.devRef .tc main_arg3) = V (Proc.devRef .tc main_arg3) :=
  opsPre_keeps (Or.inr (Or.inr (Or.inr (Or.inl rfl)))) V

theorem all_arg4 (V : Valuation τ sig (Elt F)) : after (opsPre ++ opsMid ++ opsTail) V (Proc.devRef .tc main_arg4) = V (Proc.devRef .tc main_arg4) :=
  all_keeps (Or.inr (Or.inr (Or.inr (Or.inr rfl)))) V
theorem pre_arg4 (V : Valuation τ sig (Elt F)) : after opsPre V (Proc.devRef .tc main_arg4) = V (Proc.devRef .tc main_arg4) :=
  opsPre_keeps (Or.inr (Or.inr (Or.inr (Or.inr rfl)))) V

/-- Every weakly fair execution of the reference terminates with its five argument arrays as launched. -/
theorem ref_frame (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun _ h c => ⟨(h c main_arg0).trans (all_arg0 _), (h c main_arg1).trans (all_arg1 _),
    (h c main_arg2).trans (all_arg2 _), (h c main_arg3).trans (all_arg3 _), (h c main_arg4).trans (all_arg4 _)⟩) (run_all m ρ)

/-- The frame claim of the reference at the ideal values: it holds for every launch contents, whatever the precondition. -/
theorem frame_ri : Cert.frame_ReferenceIdeal := fun m ρ _ => ref_frame (F := Ideal) m ρ

end Cert.ReferenceIdeal.RefRun

end
-- ==== Proof.Bridge.lean ====
/-
  The reference's result is the kernel program's. Both programs apply the same dispatch to the same arguments, so
  the per-expert token buffers, the destination-row table and the keep mask agree; between dispatch and combine the
  kernel's region leaves `MoE.mid` of the token buffers and the weights in its result array (the value leg), and
  the reference's two batched products around silu are the same function (`refChain_eq`); the combine is again the
  same operations on both sides, applied to equal inputs.
-/
import proofs.«145350_j44805098832176_1_alg».proof.Proof.KRun
import proofs.«145350_j44805098832176_1_alg».proof.Proof.RefAgree
import proofs.«145350_j44805098832176_1_alg».proof.Proof.RefMidRead
import proofs.«145350_j44805098832176_1_alg».proof.Proof.RefMidValue
import proofs.«145350_j44805098832176_1_alg».proof.Proof.RefFrame

noncomputable section

open Idealize.ShloMosaic Idealize.ShloMosaic.TcCoe Idealize.SL.Sem Idealize.ShloMosaic.StableHlo

namespace Cert.Bridge

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- The kernel program's buffers at launch, on core `c`. -/
abbrev VK (c : Dev Cert.KernelIdeal.nD) : Valuation Cert.KernelIdeal.τ Cert.KernelIdeal.sig (Elt Ideal) := fun b => m (c, b)
/-- The reference's buffers at launch, on core `c`. -/
abbrev VR (c : Dev Cert.ReferenceIdeal.nD) : Valuation Cert.ReferenceIdeal.τ Cert.ReferenceIdeal.sig (Elt Ideal) := launchContents m' c

/-- The reference's line, cut into dispatch, gated MLP and combine. -/
theorem after_cut (V : Valuation Cert.ReferenceIdeal.τ Cert.ReferenceIdeal.sig (Elt Ideal)) :
    after (Cert.ReferenceIdeal.RefRun.opsPre ++ Cert.ReferenceIdeal.RefRun.opsMid ++ Cert.ReferenceIdeal.RefRun.opsTail) V
      = after Cert.ReferenceIdeal.RefRun.opsTail (after Cert.ReferenceIdeal.RefRun.opsMid (after Cert.ReferenceIdeal.RefRun.opsPre V)) :=
  (StableHlo.after_append (Cert.ReferenceIdeal.RefRun.opsPre ++ Cert.ReferenceIdeal.RefRun.opsMid) Cert.ReferenceIdeal.RefRun.opsTail V).trans
    (congrArg (after Cert.ReferenceIdeal.RefRun.opsTail) (StableHlo.after_append Cert.ReferenceIdeal.RefRun.opsPre Cert.ReferenceIdeal.RefRun.opsMid V))

/-- Between dispatch and combine: the reference's expert outputs are the kernel's result array, when the token
    buffers agree (`x` on both sides) and the weights are the same arguments. -/
theorem mid_value (c : Dev Cert.KernelIdeal.nD)
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (x : (⟨Cert.KernelIdeal.S8x2560x1024, .f32⟩ : BufTy).Contents (Elt Ideal))
    (hxK : after Cert.Agree.kPre (VK m c) (Proc.devRef .tc Cert.KernelIdeal.main_v31) = x)
    (hxR : after Cert.ReferenceIdeal.RefRun.opsPre (VR m' c) (Proc.devRef .tc Cert.ReferenceIdeal.main_v31) = x) :
    after Cert.ReferenceIdeal.RefRun.opsMid (after Cert.ReferenceIdeal.RefRun.opsPre (VR m' c)) (Proc.devRef .tc Cert.ReferenceIdeal.main_v37) = Cert.KernelIdeal.KV.result m c := by
  refine (Cert.ReferenceIdeal.RefRun.mid_read (F := Ideal) (after Cert.ReferenceIdeal.RefRun.opsPre (VR m' c))).trans ?_
  have e3 : after Cert.ReferenceIdeal.RefRun.opsPre (VR m' c) (Proc.devRef .tc Cert.ReferenceIdeal.main_arg3) = m ((c.tc : Thread Cert.KernelIdeal.nD Cert.KernelIdeal.τ).loc Cert.KernelIdeal.main_arg3) := (Cert.ReferenceIdeal.RefRun.pre_arg3 _).trans h3
  have e4 : after Cert.ReferenceIdeal.RefRun.opsPre (VR m' c) (Proc.devRef .tc Cert.ReferenceIdeal.main_arg4) = m ((c.tc : Thread Cert.KernelIdeal.nD Cert.KernelIdeal.τ).loc Cert.KernelIdeal.main_arg4) := (Cert.ReferenceIdeal.RefRun.pre_arg4 _).trans h4
  rewrite [hxR, e3, e4]
  refine (Cert.ReferenceIdeal.RefMid.refChain_eq _ _ _).trans ?_
  have hX : Cert.KernelIdeal.KV.X m c = x := hxK
  have hG : Cert.KernelIdeal.KV.G m c = m ((c.tc : Thread Cert.KernelIdeal.nD Cert.KernelIdeal.τ).loc Cert.KernelIdeal.main_arg3) := Cert.KernelIdeal.Gen.V_main_arg3 m c
  have hD : Cert.KernelIdeal.KV.D m c = m ((c.tc : Thread Cert.KernelIdeal.nD Cert.KernelIdeal.τ).loc Cert.KernelIdeal.main_arg4) := Cert.KernelIdeal.Gen.V_main_arg4 m c
  unfold Cert.KernelIdeal.KV.result
  rewrite [hX, hG, hD]
  exact rfl

/-- The reference's result buffer ends at what the kernel program's does. -/
theorem ref_value (c : Dev Cert.KernelIdeal.nD)
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (x : (⟨Cert.KernelIdeal.S8x2560x1024, .f32⟩ : BufTy).Contents (Elt Ideal))
    (fi : (⟨Cert.KernelIdeal.S8192x2, .i32⟩ : BufTy).Contents (Elt Ideal))
    (kp : (⟨Cert.KernelIdeal.S8192x2, .i1⟩ : BufTy).Contents (Elt Ideal))
    (hxK : after Cert.Agree.kPre (VK m c) (Proc.devRef .tc Cert.KernelIdeal.main_v31) = x)
    (hxR : after Cert.ReferenceIdeal.RefRun.opsPre (VR m' c) (Proc.devRef .tc Cert.ReferenceIdeal.main_v31) = x)
    (hfK : after Cert.Agree.kPre (VK m c) (Proc.devRef .tc Cert.KernelIdeal.main_v17) = fi)
    (hfR : after Cert.ReferenceIdeal.RefRun.opsPre (VR m' c) (Proc.devRef .tc Cert.ReferenceIdeal.main_v17) = fi)
    (hkK : after Cert.Agree.kPre (VK m c) (Proc.devRef .tc Cert.KernelIdeal.main_v13) = kp)
    (hkR : after Cert.ReferenceIdeal.RefRun.opsPre (VR m' c) (Proc.devRef .tc Cert.ReferenceIdeal.main_v13) = kp) :
    after (Cert.ReferenceIdeal.RefRun.opsPre ++ Cert.ReferenceIdeal.RefRun.opsMid ++ Cert.ReferenceIdeal.RefRun.opsTail) (VR m' c) (Proc.devRef .tc Cert.ReferenceIdeal.main_v59)
      = Cert.KernelIdeal.KV.kOut m c := by
  obtain ⟨z, hzK, hzR⟩ := Cert.Agree.tail_agree (F := Ideal) (Cert.KernelIdeal.KV.exitVal m c)
    (after Cert.ReferenceIdeal.RefRun.opsMid (after Cert.ReferenceIdeal.RefRun.opsPre (VR m' c)))
    (Cert.KernelIdeal.KV.result m c) (Cert.KernelIdeal.KV.exit_v38 m c) (mid_value m m' c h3 h4 x hxK hxR)
    fi ((Cert.KernelIdeal.KV.exit_of_ne m c Cert.KernelIdeal.main_v17 (by decide)).trans hfK) ((Cert.ReferenceIdeal.RefRun.mid_v17 _).trans hfR)
    kp ((Cert.KernelIdeal.KV.exit_of_ne m c Cert.KernelIdeal.main_v13 (by decide)).trans hkK) ((Cert.ReferenceIdeal.RefRun.mid_v13 _).trans hkR)
    (m ((c.tc : Thread Cert.KernelIdeal.nD Cert.KernelIdeal.τ).loc Cert.KernelIdeal.main_arg1))
      ((Cert.KernelIdeal.KV.exit_of_ne m c Cert.KernelIdeal.main_arg1 (by decide)).trans (Cert.KernelIdeal.Gen.V_main_arg1 m c))
      ((Cert.ReferenceIdeal.RefRun.mid_arg1 _).trans ((Cert.ReferenceIdeal.RefRun.pre_arg1 _).trans h1))
    (m ((c.tc : Thread Cert.KernelIdeal.nD Cert.KernelIdeal.τ).loc Cert.KernelIdeal.main_arg2))
      ((Cert.KernelIdeal.KV.exit_of_ne m c Cert.KernelIdeal.main_arg2 (by decide)).trans (Cert.KernelIdeal.Gen.V_main_arg2 m c))
      ((Cert.ReferenceIdeal.RefRun.mid_arg2 _).trans ((Cert.ReferenceIdeal.RefRun.pre_arg2 _).trans h2))
  exact (congrFun (after_cut (VR m' c)) _).trans (hzR.trans hzK.symm)

end Cert.Bridge

end
-- ==== Proof.RefAgreePre.lean ====
/-
  The dispatch, run by both programs before the gated MLP: from equal token arrays and equal choice tables the
  kernel program's host operations before its region and the reference's line up to %31 reach one and the same
  per-expert token array, destination-row table and keep mask.
-/
import proofs.«145350_j44805098832176_1_alg».proof.Proof.RefAgree

noncomputable section

namespace Cert.Agree

open Idealize.ShloMosaic Idealize.ShloMosaic.StableHlo

variable {F : FTy → Type} [FloatOps F]

attribute [local irreducible] Host.reduce Host.reduceWindow Host.gather Host.scatterAdd Host.reduceAdd concatenate in
set_option maxRecDepth 100000 in
set_option maxHeartbeats 8000000 in
/-- The dispatch: from one token array and one choice table, the kernel program's host operations before its region
    and the reference's line up to %31 leave one and the same per-expert token array, destination-row table and
    keep mask. -/
theorem pre_agree (VK : Valuation Cert.KernelIdeal.τ Cert.KernelIdeal.sig (Elt F)) (VR : Valuation Cert.ReferenceIdeal.τ Cert.ReferenceIdeal.sig (Elt F))
    (a0 : (⟨Cert.KernelIdeal.S2048x4x1024, .f32⟩ : BufTy).Contents (Elt F)) (h0K : VK (Proc.devRef .tc Cert.KernelIdeal.main_arg0) = a0) (h0R : VR (Proc.devRef .tc Cert.ReferenceIdeal.main_arg0) = a0)
    (a2 : (⟨Cert.KernelIdeal.S8192x2, .i32⟩ : BufTy).Contents (Elt F)) (h2K : VK (Proc.devRef .tc Cert.KernelIdeal.main_arg2) = a2) (h2R : VR (Proc.devRef .tc Cert.ReferenceIdeal.main_arg2) = a2) :
    ∃ (x : (⟨Cert.KernelIdeal.S8x2560x1024, .f32⟩ : BufTy).Contents (Elt F)) (fi : (⟨Cert.KernelIdeal.S8192x2, .i32⟩ : BufTy).Contents (Elt F)) (kp : (⟨Cert.KernelIdeal.S8192x2, .i1⟩ : BufTy).Contents (Elt F)),
      (after kPre VK (Proc.devRef .tc Cert.KernelIdeal.main_v31) = x ∧ after Cert.ReferenceIdeal.RefRun.opsPre VR (Proc.devRef .tc Cert.ReferenceIdeal.main_v31) = x)
      ∧ (after kPre VK (Proc.devRef .tc Cert.KernelIdeal.main_v17) = fi ∧ after Cert.ReferenceIdeal.RefRun.opsPre VR (Proc.devRef .tc Cert.ReferenceIdeal.main_v17) = fi)
      ∧ (after kPre VK (Proc.devRef .tc Cert.KernelIdeal.main_v13) = kp ∧ after Cert.ReferenceIdeal.RefRun.opsPre VR (Proc.devRef .tc Cert.ReferenceIdeal.main_v13) = kp) := by
  refine ⟨?x, ?fi, ?kp, ⟨?xK, ?xR⟩, ⟨?fK, ?fR⟩, ⟨?kK, ?kR⟩⟩
  case kK =>
    simp only [kPre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.flatten_cons, List.flatten_nil, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h2K]
    exact rfl
  case kR =>
    simp only [Cert.ReferenceIdeal.RefRun.opsPre, Cert.ReferenceIdeal.RefRun.pre0, Cert.ReferenceIdeal.RefRun.pre1, Cert.ReferenceIdeal.RefRun.pre2, Cert.ReferenceIdeal.RefRun.pre3, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h2R]
    exact rfl
  case fK =>
    simp only [kPre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.flatten_cons, List.flatten_nil, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h2K]
    exact rfl
  case fR =>
    simp only [Cert.ReferenceIdeal.RefRun.opsPre, Cert.ReferenceIdeal.RefRun.pre0, Cert.ReferenceIdeal.RefRun.pre1, Cert.ReferenceIdeal.RefRun.pre2, Cert.ReferenceIdeal.RefRun.pre3, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h2R]
    exact rfl
  case xK =>
    simp only [kPre, Cert.KernelIdeal.Gen.hostOps0, Cert.KernelIdeal.Gen.hostOps0_1, Cert.KernelIdeal.Gen.hostOps0_2, Cert.KernelIdeal.Gen.hostOps0_3, Cert.KernelIdeal.Gen.hostOps0_4, Cert.KernelIdeal.Gen.hostOps0_5, Cert.KernelIdeal.Gen.hostOps0_6, Cert.KernelIdeal.Gen.hostOps0_7, Cert.KernelIdeal.Gen.hostOps0_8, Cert.KernelIdeal.Gen.hostOps0_9, List.flatten_cons, List.flatten_nil, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h0K, h2K]
    exact rfl
  case xR =>
    simp only [Cert.ReferenceIdeal.RefRun.opsPre, Cert.ReferenceIdeal.RefRun.pre0, Cert.ReferenceIdeal.RefRun.pre1, Cert.ReferenceIdeal.RefRun.pre2, Cert.ReferenceIdeal.RefRun.pre3, List.append_nil, List.cons_append, List.nil_append]
    after_results_simp
    repeat (first
      | rewrite [nullary_result] | rewrite [unary_result] | rewrite [binary_result] | rewrite [ternary_result] | rewrite [reshape_result]
      | (rewrite [nullary_result_ne]; rotate_left; decide)
      | (rewrite [unary_result_ne]; rotate_left; decide)
      | (rewrite [binary_result_ne]; rotate_left; decide)
      | (rewrite [ternary_result_ne]; rotate_left; decide)
      | (rewrite [reshape_result_ne]; rotate_left; decide))
    rewrite [h0R, h2R]
    exact rfl

end Cert.Agree

end
-- ==== Proof.lean ====
/-
  A mixture-of-experts MLP with capacity-limited routing: the kernel program against its jnp reference, equal as
  extended reals.

  Both programs route each token to its two chosen experts with the same operations (a one-hot mask, its running
  count down the tokens, the capacity test, a scatter-add of the tokens into per-expert slots), and both combine the
  experts' outputs with the same operations (a gather of each token's two slots, weighted by its normalised
  affinities, summed). They differ only between the two: the reference computes, per expert, silu(x·G₁)·(x·G₂)
  contracted with the down weights in one product over the 4096 intermediate columns; the kernel walks a grid of
  (expert, slot tile, intermediate tile), keeps a running sum in a scratch buffer that it zeroes at the first of the
  eight intermediate tiles, adds each tile's 512 columns, and writes the block back after the last. On the extended
  reals a change of float format is the identity, the kernel's logistic is 1 / (1 + exp (−·)) as the reference spells
  it, and addition is commutative and associative with unit 0, so the eight partial sums are the one sum: no
  finiteness of the inputs is used. The frames of the two kernel programs are the generated frame certificates; the
  reference's frame is its run with the result dropped; the idealization rewrote nothing.
-/
import proofs.«145350_j44805098832176_1_alg».proof.Defs
import proofs.«145350_j44805098832176_1_alg».proof.Proof.Gen.Kernel
import proofs.«145350_j44805098832176_1_alg».proof.Proof.Gen.Kernel.Frame
import proofs.«145350_j44805098832176_1_alg».proof.Proof.Gen.KernelIdeal
import proofs.«145350_j44805098832176_1_alg».proof.Proof.Gen.KernelIdeal.Frame
import proofs.«145350_j44805098832176_1_alg».proof.Proof.Gen.ReferenceIdeal
import proofs.«145350_j44805098832176_1_alg».proof.Proof.Gen.Pre_finite_inputs
import proofs.«145350_j44805098832176_1_alg».proof.Proof.Bridge
import proofs.«145350_j44805098832176_1_alg».proof.Proof.RefAgreePre
import Idealize.ShloMosaic.Adequacy
import Idealize.ShloMosaic.Init

noncomputable section

namespace Cert.Proof

open Idealize.ShloMosaic Idealize.SL.Sem Idealize.ShloMosaic.StableHlo

/-- The word-level kernel program runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference runs and keeps its arguments: none of its operations writes an argument. -/
theorem frame_ri : Cert.frame_ReferenceIdeal := Cert.ReferenceIdeal.RefRun.frame_ri

/-- The idealization rewrote no operation. -/
theorem preserves : Cert.preserves_Kernel_KernelIdeal := trivial

/-- From memories agreeing on the five arguments both programs run, and the reference's result is the kernel
    program's: the dispatch agrees (`pre_agree`), the kernel's region and the reference's two products are one
    function of the token buffers and the weights, and the combine agrees (`ref_value`). -/
theorem algebraic : Cert.algebraic_KernelIdeal_ReferenceIdeal := by
  intro m ρ m' ρ' _ hagree
  refine ⟨fun c => Cert.KernelIdeal.KV.kOut m c, Cert.KernelIdeal.KV.kernel_run m ρ, ?_⟩
  refine (θ_run Cert.ReferenceIdeal.defs _ _).mono (fun r h c => ?_)
    (Cert.ReferenceIdeal.RefRun.run_all (F := Ideal) m' ρ')
  obtain ⟨h0, h1, h2, h3, h4⟩ := hagree c
  obtain ⟨x, fi, kp, ⟨hxK, hxR⟩, ⟨hfK, hfR⟩, ⟨hkK, hkR⟩⟩ :=
    Cert.Agree.pre_agree (F := Ideal) (Cert.Bridge.VK m c) (Cert.Bridge.VR m' c) _ rfl h0 _ rfl h2
  exact ⟨(h c Cert.ReferenceIdeal.main_v59).trans
      (Cert.Bridge.ref_value m m' c h1 h2 h3 h4 x fi kp hxK hxR hfK hfR hkK hkR),
    (h c Cert.ReferenceIdeal.main_arg0).trans (Cert.ReferenceIdeal.RefRun.all_arg0 _),
    (h c Cert.ReferenceIdeal.main_arg1).trans (Cert.ReferenceIdeal.RefRun.all_arg1 _),
    (h c Cert.ReferenceIdeal.main_arg2).trans (Cert.ReferenceIdeal.RefRun.all_arg2 _),
    (h c Cert.ReferenceIdeal.main_arg3).trans (Cert.ReferenceIdeal.RefRun.all_arg3 _),
    (h c Cert.ReferenceIdeal.main_arg4).trans (Cert.ReferenceIdeal.RefRun.all_arg4 _)⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
